-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S1000x2048 : Shape := ⟨2, ![1000, 2048]⟩
abbrev S1000 : Shape := ⟨1, ![1000]⟩
abbrev S2048x2048 : Shape := ⟨2, ![2048, 2048]⟩
abbrev S2048 : Shape := ⟨1, ![2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x2048 .f32) (main_arg5 : FVec F S2048 .f32) (main_arg6 : FVec F S1000x2048 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1000x2048 .f32 := Host.absf main_arg6
  let main_cst_10 : FVec F S_ .f32 := constant S_ .f32 0x7F800000#32
  let main_v30 : FVec F S1000x2048 .f32 := broadcastInDim S1000x2048 ![] bcast_S_S1000x2048 main_cst_10
  let main_v31 : IVec S1000x2048 1 := cmpf .olt main_v29 main_v30
  let main_c_11 : IVec S_ 1 := constantI S_ 1 1#1
  let main_v32 : IVec S_ 1 := (fun x v => Host.reduce IntOp.andi x v reducesTo_S1000x2048_S_d0_1 h_S_) main_v31 main_c_11
  let main_v33 : IVec S_ 1 := andi main_v28 main_v32
  main_v33

def fn {F : FTy → Type} [FloatOps F] (main_arg0 : FVec F S64x2048 .f32) (main_arg1 : FVec F S1000x2048 .f32) (main_arg2 : FVec F S1000x2048 .f32) (main_arg3 : FVec F S1000 .f32) (main_arg4 : FVec F S2048x2048 .f32) (main_arg5 : FVec F S2048 .f32) (main_arg6 : FVec F S1000x2048 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_v9 : FVec F S1000x2048 .f32 := Host.absf main_arg2
  let main_cst_2 : FVec F S_ .f32 := constant S_ .f32 0x7F800000#32
  let main_v10 : FVec F S1000x2048 .f32 := broadcastInDim S1000x2048 ![] bcast_S_S1000x2048 main_cst_2
  let main_v11 : IVec S1000x2048 1 := cmpf .olt main_v9 main_v10
  let main_c_3 : IVec S_ 1 := constantI S_ 1 1#1
  let main_v12 : IVec S_ 1 := (fun x v => Host.reduce IntOp.andi x v reducesTo_S1000x2048_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_arg6 main_v13 main_v16
-- ==== Kernel.lean ====
abbrev S64x2048 : Shape := ⟨2, ![64, 2048]⟩
abbrev S1000x2048 : Shape := ⟨2, ![1000, 2048]⟩
abbrev S1000 : Shape := ⟨1, ![1000]⟩
abbrev S2048x2048 : Shape := ⟨2, ![2048, 2048]⟩
abbrev S2048 : Shape := ⟨1, ![2048]⟩
abbrev S1x1000 : Shape := ⟨2, ![1, 1000]⟩
abbrev S1x2048 : Shape := ⟨2, ![1, 2048]⟩
abbrev S64x1 : Shape := ⟨2, ![64, 1]⟩
abbrev S64x1000 : Shape := ⟨2, ![64, 1000]⟩
abbrev S64 : Shape := ⟨1, ![64]⟩
abbrev S1024x2048 : Shape := ⟨2, ![1024, 2048]⟩
abbrev S1x1024 : Shape := ⟨2, ![1, 1024]⟩
abbrev S64x1024 : Shape := ⟨2, ![64, 1024]⟩
abbrev S512x2048 : Shape := ⟨2, ![512, 2048]⟩
abbrev S64x512 : Shape := ⟨2, ![64, 512]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S64x2048, .f32⟩
  | .hbm, ⟨1, _⟩ => ⟨S1000x2048, .f32⟩
  | .hbm, ⟨2, _⟩ => ⟨S1000x2048, .f32⟩
  | .hbm, ⟨3, _⟩ => ⟨S1000, .f32⟩
  | .hbm, ⟨4, _⟩ => ⟨S2048x2048, .f32⟩
  | .hbm, ⟨5, _⟩ => ⟨S2048, .f32⟩
  | .hbm, ⟨6, _⟩ => ⟨S1000x2048, .f32⟩
  | .hbm, ⟨7, _⟩ => ⟨S1x1000, .f32⟩
  | .hbm, ⟨8, _⟩ => ⟨S1x2048, .f32⟩
  | .hbm, ⟨9, _⟩ => ⟨S64x2048, .f32⟩
  | .hbm, ⟨10, _⟩ => ⟨S64x1, .f32⟩
  | .hbm, ⟨11, _⟩ => ⟨S64x2048, .f32⟩
  | .hbm, ⟨12, _⟩ => ⟨S64x2048, .f32⟩
  | .hbm, ⟨13, _⟩ => ⟨S64x1000, .f32⟩
  | .local _ .vmem, ⟨0, _⟩ => ⟨S64x2048, .f32⟩
  | .local _ .vmem, ⟨1, _⟩ => ⟨S1000x2048, .f32⟩
  | .local _ .vmem, ⟨2, _⟩ => ⟨S1000x2048, .f32⟩
  | .local _ .vmem, ⟨3, _⟩ => ⟨S1x1000, .f32⟩
  | .local _ .vmem, ⟨4, _⟩ => ⟨S64x2048, .f32⟩
  | .local _ .vmem, ⟨5, _⟩ => ⟨S64x1, .f32⟩
  | .local _ .vmem, ⟨6, _⟩ => ⟨S64x2048, .f32⟩
  | .local _ .vmem, ⟨7, _⟩ => ⟨S1024x2048, .f32⟩
  | .local _ .vmem, ⟨8, _⟩ => ⟨S1024x2048, .f32⟩
  | .local _ .vmem, ⟨9, _⟩ => ⟨S1x1024, .f32⟩
  | .local _ .vmem, ⟨10, _⟩ => ⟨S1x1024, .f32⟩
  | .local _ .vmem, ⟨11, _⟩ => ⟨S64x2048, .f32⟩
  | .local _ .vmem, ⟨12, _⟩ => ⟨S64x1, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x2048, .f32⟩
  | .local _ .vmem, ⟨18, _⟩ => ⟨S512x2048, .f32⟩
  | .local _ .vmem, ⟨19, _⟩ => ⟨S512x2048, .f32⟩
  | .local _ .vmem, ⟨20, _⟩ => ⟨S64x512, .f32⟩
  | .local _ .vmem, ⟨21, _⟩ => ⟨S64x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![2], ![false]⟩

def k1_mult1 (i : grid1.Coords) : BitVec 32 :=
  let arg0 : BitVec 32 := BitVec.ofNat 32 (i 0).val
  let c1024_i32 : BitVec 32 := 1024#32
  let v0 : BitVec 32 := Scalar.muli arg0 c1024_i32
  v0
def k1_off1 (i : grid1.Coords) : Fin 2 → Nat :=
  let c0_7 : Index := 0#32
  let arg0 : BitVec 32 := BitVec.ofNat 32 (i 0).val
  let c1024_i32 : BitVec 32 := 1024#32
  let v0 : BitVec 32 := Scalar.muli arg0 c1024_i32
  let v1 : BitVec 32 := v0
  let v14 : Index := Scalar.indexCast v1
  ![0, v14.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1000_S1x1000 : S1000.ShapeCasts S1x1000
  shapeCasts_S2048_S1x2048 : S2048.ShapeCasts S1x2048
  inb_S64x2048_S64x2048_0_0 : ∀ a, (![0, 0] : Fin 2 → Nat) a + S64x2048.size a ≤ S64x2048.size a
  h_S64x2048 : 0 < S64x2048.numel
  inb_S1000x2048_S1000x2048_0_0 : ∀ a, (![0, 0] : Fin 2 → Nat) a + S1000x2048.size a ≤ S1000x2048.size a
  h_S1000x2048 : 0 < S1000x2048.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  bitsLt_bf16_f32 : FTy.bits .bf16 < FTy.bits .f32
  broadcasts_S1x1000_S64x1000 : S1x1000.Broadcasts S64x1000
  reduces_S64x1000_S64 : S64x1000.Reduces [1] S64
  shapeCasts_S64_S64x1 : S64.ShapeCasts S64x1
  broadcasts_S64x1_S64x1000 : S64x1.Broadcasts S64x1000
  broadcasts_S64x1_S64x2048 : S64x1.Broadcasts S64x2048
  reduces_S64x2048_S64 : S64x2048.Reduces [1] S64
  inb_S64x1_S64x1_0_0 : ∀ a, (![0, 0] : Fin 2 → Nat) a + S64x1.size a ≤ S64x1.size a
  h_S64x1 : 0 < S64x1.numel
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S64x1_S64x1 : S64x1.ShapeCasts S64x1
  broadcasts_S1x1024_S64x1024 : S1x1024.Broadcasts S64x1024
  h_S64x1024 : 0 < S64x1024.numel
  shapeCasts_S64x1024_S64x1024 : S64x1024.ShapeCasts S64x1024
  broadcasts_S64x1_S64x1024 : S64x1.Broadcasts S64x1024
  inb_S64x1024_S64x1024_0_0 : ∀ a, (![0, 0] : Fin 2 → Nat) a + S64x1024.size a ≤ S64x1024.size a
  shapeCasts_S64x2048_S64x2048 : S64x2048.ShapeCasts S64x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  inb_S64x512_S64x512_0_0 : ∀ a, (![0, 0] : Fin 2 → Nat) a + S64x512.size a ≤ S64x512.size a
  h_S64x512 : 0 < S64x512.numel
  dot_S64x2048_S1000x2048_S64x1000_1_1_0_0_n_n_wf : DotDims.WF S64x2048 S1000x2048 S64x1000 [1] [1] [0] [0] [] []
  dot_S64x1000_S1000x2048_S64x2048_1_0_0_1_n_n_wf : DotDims.WF S64x1000 S1000x2048 S64x2048 [1] [0] [0] [1] [] []
  dot_S1x2048_S1000x2048_S1x1000_1_1_0_0_n_n_wf : DotDims.WF S1x2048 S1000x2048 S1x1000 [1] [1] [0] [0] [] []
  dot_S64x2048_S1024x2048_S64x1024_1_1_0_0_n_n_wf : DotDims.WF S64x2048 S1024x2048 S64x1024 [1] [1] [0] [0] [] []
  dot_S64x2048_S512x2048_S64x512_1_1_0_0_n_n_wf : DotDims.WF S64x2048 S512x2048 S64x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S1000x2048.size a
  hwx0_1 : ∀ i : grid0.Coords, EltTy.bits .f32 = 32 ∨ (Rect.block (s := S1000x2048) S1000x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x2048.size a ≤ S1000x2048.size a
  hwx0_2 : ∀ i : grid0.Coords, EltTy.bits .f32 = 32 ∨ (Rect.block (s := S1000x2048) S1000x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1000.size a ≤ S1x1000.size a
  hwx0_3 : ∀ i : grid0.Coords, EltTy.bits .f32 = 32 ∨ (Rect.block (s := S1x1000) S1x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x2048.size a
  hwx0_4 : ∀ i : grid0.Coords, EltTy.bits .f32 = 32 ∨ (Rect.block (s := S64x2048) S64x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S64x1024.size a ≤ S64x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .f32 = 32 ∨ (Rect.block (s := S64x2048) S64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S2048x2048.size a
  hwx1_1 : ∀ i : grid1.Coords, EltTy.bits .f32 = 32 ∨ (Rect.block (s := S2048x2048) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2048.size a ≤ S64x2048.size a
  hwx1_3 : ∀ i : grid1.Coords, EltTy.bits .f32 = 32 ∨ (Rect.block (s := S64x2048) S64x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x1024.size a ≤ S64x2048.size a
  hwx1_5 : ∀ i : grid1.Coords, EltTy.bits .f32 = 32 ∨ (Rect.block (s := S64x2048) S64x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x1024.size a ≤ S64x2048.size a
  hwx1_6 : ∀ i : grid1.Coords, EltTy.bits .f32 = 32 ∨ (Rect.block (s := S64x2048) S64x1024.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x2048.size a ≤ S64x2048.size a
  hwx2_0 : ∀ i : grid2.Coords, EltTy.bits .f32 = 32 ∨ (Rect.block (s := S64x2048) S64x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S512x2048.size a < S1000x2048.size a
  hwx2_1 : ∀ i : grid2.Coords, EltTy.bits .f32 = 32 ∨ (Rect.unit (s := S1000x2048) (fun a => cc2_transform_1 i a * S512x2048.size a) (fun a => (Pipeline.Clip.of (cc2_transform_1 i a) (S512x2048.size a) (S1000x2048.size a)).extent (S512x2048.size a)) fun a => Pipeline.Clip.inb (Pipeline.Clip.ok_of (hstart2_1 i a))).WholeWords (EltTy.packing .f32)
  hwxs2_1 : ∀ i : grid2.Coords, EltTy.bits .f32 = 32 ∨ (Rect.unit (s := S512x2048) (fun _ => 0) (fun a => (Pipeline.Clip.of (cc2_transform_1 i a) (S512x2048.size a) (S1000x2048.size a)).extent (S512x2048.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S64x512.size a < S64x1000.size a
  hwx2_2 : ∀ i : grid2.Coords, EltTy.bits .f32 = 32 ∨ (Rect.unit (s := S64x1000) (fun a => cc2_transform_2 i a * S64x512.size a) (fun a => (Pipeline.Clip.of (cc2_transform_2 i a) (S64x512.size a) (S64x1000.size a)).extent (S64x512.size a)) fun a => Pipeline.Clip.inb (Pipeline.Clip.ok_of (hstart2_2 i a))).WholeWords (EltTy.packing .f32)
  hwxs2_2 : ∀ i : grid2.Coords, EltTy.bits .f32 = 32 ∨ (Rect.unit (s := S64x512) (fun _ => 0) (fun a => (Pipeline.Clip.of (cc2_transform_2 i a) (S64x512.size a) (S64x1000.size a)).extent (S64x512.size a)) fun a => (Nat.zero_add _).trans_le (Pipeline.Clip.extent_le (Pipeline.Clip.ok_of (hstart2_2 i a)))).WholeWords (EltTy.packing .f32)

variable [Facts₀]

def dot_S64x2048_S1000x2048_S64x1000_1_1_0_0_n_n : DotDims S64x2048 S1000x2048 S64x1000 where
  lhsContracting := [1]
  rhsContracting := [1]
  lhsNonContracting := [0]
  rhsNonContracting := [0]
  lhsBatch := []
  rhsBatch := []
  wf := dot_S64x2048_S1000x2048_S64x1000_1_1_0_0_n_n_wf
def dot_S64x1000_S1000x2048_S64x2048_1_0_0_1_n_n : DotDims S64x1000 S1000x2048 S64x2048 where
  lhsContracting := [1]
  rhsContracting := [0]
  lhsNonContracting := [0]
  rhsNonContracting := [1]
  lhsBatch := []
  rhsBatch := []
  wf := dot_S64x1000_S1000x2048_S64x2048_1_0_0_1_n_n_wf
def dot_S1x2048_S1000x2048_S1x1000_1_1_0_0_n_n : DotDims S1x2048 S1000x2048 S1x1000 where
  lhsContracting := [1]
  rhsContracting := [1]
  lhsNonContracting := [0]
  rhsNonContracting := [0]
  lhsBatch := []
  rhsBatch := []
  wf := dot_S1x2048_S1000x2048_S1x1000_1_1_0_0_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf
def dot_S64x2048_S512x2048_S64x512_1_1_0_0_n_n : DotDims S64x2048 S512x2048 S64x512 where
  lhsContracting := [1]
  rhsContracting := [1]
  lhsNonContracting := [0]
  rhsNonContracting := [0]
  lhsBatch := []
  rhsBatch := []
  wf := dot_S64x2048_S512x2048_S64x512_1_1_0_0_n_n_wf

abbrev win0_0 : Pipeline.Window sig grid0 :=
  Pipeline.Window.ofSpec (Memref.whole main_arg0) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S64x2048.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S64x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S64x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S64x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S64x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v3_1) S64x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg6) S512x2048.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v4) S64x512.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S64x2048 : Shape := ⟨2, ![64, 2048]⟩
abbrev S1000x2048 : Shape := ⟨2, ![1000, 2048]⟩
abbrev S1000 : Shape := ⟨1, ![1000]⟩
abbrev S2048x2048 : Shape := ⟨2, ![2048, 2048]⟩
abbrev S2048 : Shape := ⟨1, ![2048]⟩
abbrev S64x1x2048 : Shape := ⟨3, ![64, 1, 2048]⟩
abbrev S1x1000x2048 : Shape := ⟨3, ![1, 1000, 2048]⟩
abbrev S64x1000x2048 : Shape := ⟨3, ![64, 1000, 2048]⟩
abbrev S_ : Shape := ⟨0, ![]⟩
abbrev S64x1000 : Shape := ⟨2, ![64, 1000]⟩
abbrev S64 : Shape := ⟨1, ![64]⟩
abbrev S64x1 : Shape := ⟨2, ![64, 1]⟩
abbrev S2048x1000 : Shape := ⟨2, ![2048, 1000]⟩
abbrev S1x1000 : Shape := ⟨2, ![1, 1000]⟩
abbrev S1x2048 : Shape := ⟨2, ![1, 2048]⟩
abbrev S1000x1 : Shape := ⟨2, ![1000, 1]⟩

abbrev nBuf : Space → Nat
  | .hbm => 77
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S1000x2048, .f32⟩
  | .hbm, ⟨2, _⟩ => ⟨S1000x2048, .f32⟩
  | .hbm, ⟨3, _⟩ => ⟨S1000, .f32⟩
  | .hbm, ⟨4, _⟩ => ⟨S2048x2048, .f32⟩
  | .hbm, ⟨5, _⟩ => ⟨S2048, .f32⟩
  | .hbm, ⟨6, _⟩ => ⟨S1000x2048, .f32⟩
  | .hbm, ⟨7, _⟩ => ⟨S64x1x2048, .f32⟩
  | .hbm, ⟨8, _⟩ => ⟨S1x1000x2048, .f32⟩
  | .hbm, ⟨9, _⟩ => ⟨S64x1000x2048, .f32⟩
  | .hbm, ⟨10, _⟩ => ⟨S64x1000x2048, .f32⟩
  | .hbm, ⟨11, _⟩ => ⟨S64x1000x2048, .f32⟩
  | .hbm, ⟨12, _⟩ => ⟨S64x1000x2048, .f32⟩
  | .hbm, ⟨13, _⟩ => ⟨S_, .f32⟩
  | .hbm, ⟨14, _⟩ => ⟨S64x1000, .f32⟩
  | .hbm, ⟨15, _⟩ => ⟨S64x1000, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S2048x1000, .f32⟩
  | .hbm, ⟨23, _⟩ => ⟨S64x1000, .f32⟩
  | .hbm, ⟨24, _⟩ => ⟨S1x1000, .f32⟩
  | .hbm, ⟨25, _⟩ => ⟨S64x1000, .f32⟩
  | .hbm, ⟨26, _⟩ => ⟨S64x1000, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64x1, .f32⟩
  | .hbm, ⟨33, _⟩ => ⟨S64x1000, .f32⟩
  | .hbm, ⟨34, _⟩ => ⟨S64x1000, .f32⟩
  | .hbm, ⟨35, _⟩ => ⟨S64x1000, .f32⟩
  | .hbm, ⟨36, _⟩ => ⟨S_, .f32⟩
  | .hbm, ⟨37, _⟩ => ⟨S64, .f32⟩
  | .hbm, ⟨38, _⟩ => ⟨S64x1, .f32⟩
  | .hbm, ⟨39, _⟩ => ⟨S64x1000, .f32⟩
  | .hbm, ⟨40, _⟩ => ⟨S64x1000, .f32⟩
  | .hbm, ⟨41, _⟩ => ⟨S64x2048, .f32⟩
  | .hbm, ⟨42, _⟩ => ⟨S2048x2048, .f32⟩
  | .hbm, ⟨43, _⟩ => ⟨S64x2048, .f32⟩
  | .hbm, ⟨44, _⟩ => ⟨S1x2048, .f32⟩
  | .hbm, ⟨45, _⟩ => ⟨S64x2048, .f32⟩
  | .hbm, ⟨46, _⟩ => ⟨S64x2048, .f32⟩
  | .hbm, ⟨47, _⟩ => ⟨S64x2048, .f32⟩
  | .hbm, ⟨48, _⟩ => ⟨S64x2048, .f32⟩
  | .hbm, ⟨49, _⟩ => ⟨S64x2048, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S_, .f32⟩
  | .hbm, ⟨54, _⟩ => ⟨S64, .f32⟩
  | .hbm, ⟨55, _⟩ => ⟨S64x1, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x1, .f32⟩
  | .hbm, ⟨61, _⟩ => ⟨S64x2048, .f32⟩
  | .hbm, ⟨62, _⟩ => ⟨S64x2048, .f32⟩
  | .hbm, ⟨63, _⟩ => ⟨S64x2048, .f32⟩
  | .hbm, ⟨64, _⟩ => ⟨S64x2048, .f32⟩
  | .hbm, ⟨65, _⟩ => ⟨S1000x2048, .f32⟩
  | .hbm, ⟨66, _⟩ => ⟨S_, .f32⟩
  | .hbm, ⟨67, _⟩ => ⟨S1000, .f32⟩
  | .hbm, ⟨68, _⟩ => ⟨S1000x1, .f32⟩
  | .hbm, ⟨69, _⟩ => ⟨S1000x1, .f32⟩
  | .hbm, ⟨70, _⟩ => ⟨S1000x2048, .f32⟩
  | .hbm, ⟨71, _⟩ => ⟨S1000x2048, .f32⟩
  | .hbm, ⟨72, _⟩ => ⟨S2048x1000, .f32⟩
  | .hbm, ⟨73, _⟩ => ⟨S_, .f32⟩
  | .hbm, ⟨74, _⟩ => ⟨S2048x1000, .f32⟩
  | .hbm, ⟨75, _⟩ => ⟨S2048x1000, .f32⟩
  | .hbm, ⟨76, _⟩ => ⟨S64x1000, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_call1_v2 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S64x2048_S64x1x2048_0_2 : S64x2048.BroadcastsInDim S64x1x2048 (![0, 2] : Fin 2 → Fin S64x1x2048.rank)
  bcast_S1000x2048_S1x1000x2048_1_2 : S1000x2048.BroadcastsInDim S1x1000x2048 (![1, 2] : Fin 2 → Fin S1x1000x2048.rank)
  bcast_S64x1x2048_S64x1000x2048_0_1_2 : S64x1x2048.BroadcastsInDim S64x1000x2048 (![0, 1, 2] : Fin 3 → Fin S64x1000x2048.rank)
  bcast_S1x1000x2048_S64x1000x2048_0_1_2 : S1x1000x2048.BroadcastsInDim S64x1000x2048 (![0, 1, 2] : Fin 3 → Fin S64x1000x2048.rank)
  reducesTo_S64x1000x2048_S64x1000_d2 : S64x1000x2048.ReducesTo [2] S64x1000
  h_S_ : 0 < S_.numel
  reducesTo_S64x1000_S64_d1 : S64x1000.ReducesTo [1] S64
  bcast_S_S64 : S_.BroadcastsInDim S64 (![] : Fin 0 → Fin S64.rank)
  bcast_S64_S64x1_0 : S64.BroadcastsInDim S64x1 (![0] : Fin 1 → Fin S64x1.rank)
  transposes_S1000x2048_S2048x1000_1_0 : S1000x2048.Transposes [1, 0] S2048x1000
  bcast_S1000_S1x1000_1 : S1000.BroadcastsInDim S1x1000 (![1] : Fin 1 → Fin S1x1000.rank)
  bcast_S1x1000_S64x1000_0_1 : S1x1000.BroadcastsInDim S64x1000 (![0, 1] : Fin 2 → Fin S64x1000.rank)
  bcast_S64x1_S64x1000_0_1 : S64x1.BroadcastsInDim S64x1000 (![0, 1] : Fin 2 → Fin S64x1000.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  reducesTo_S64x2048_S64_d1 : S64x2048.ReducesTo [1] S64
  bcast_S_S64x1 : S_.BroadcastsInDim S64x1 (![] : Fin 0 → Fin S64x1.rank)
  reducesTo_S1000x2048_S1000_d1 : S1000x2048.ReducesTo [1] S1000
  bcast_S1000_S1000x1_0 : S1000.BroadcastsInDim S1000x1 (![0] : Fin 1 → Fin S1000x1.rank)
  bcast_S1000x1_S1000x2048_0_1 : S1000x1.BroadcastsInDim S1000x2048 (![0, 1] : Fin 2 → Fin S1000x2048.rank)
  bcast_S_S2048x1000 : S_.BroadcastsInDim S2048x1000 (![] : Fin 0 → Fin S2048x1000.rank)
  dot_S64x2048_S2048x1000_S64x1000_1_0_0_1_n_n_wf : DotDims.WF S64x2048 S2048x1000 S64x1000 [1] [0] [0] [1] [] []
  dot_S64x1000_S1000x2048_S64x2048_1_0_0_1_n_n_wf : DotDims.WF S64x1000 S1000x2048 S64x2048 [1] [0] [0] [1] [] []
  dot_S64x2048_S2048x2048_S64x2048_1_0_0_1_n_n_wf : DotDims.WF S64x2048 S2048x2048 S64x2048 [1] [0] [0] [1] [] []

variable [Facts₀]

def dot_S64x2048_S2048x1000_S64x1000_1_0_0_1_n_n : DotDims S64x2048 S2048x1000 S64x1000 where
  lhsContracting := [1]
  rhsContracting := [0]
  lhsNonContracting := [0]
  rhsNonContracting := [1]
  lhsBatch := []
  rhsBatch := []
  wf := dot_S64x2048_S2048x1000_S64x1000_1_0_0_1_n_n_wf
def dot_S64x1000_S1000x2048_S64x2048_1_0_0_1_n_n : DotDims S64x1000 S1000x2048 S64x2048 where
  lhsContracting := [1]
  rhsContracting := [0]
  lhsNonContracting := [0]
  rhsNonContracting := [1]
  lhsBatch := []
  rhsBatch := []
  wf := dot_S64x1000_S1000x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

class Facts : Prop extends Facts₀ where

variable [Facts]
-- ==== Proof.KBodies.lean ====
import proofs.«123336_j4191888081208_2_alg».proof.Proof.Gen.Kernel.Launch
import proofs.«123336_j4191888081208_2_alg».proof.Proof.Gen.Kernel.Skeleton
import proofs.«123336_j4191888081208_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The memory kernel's body (region 0): one grid point, every window its whole array

The body loads the features, the centroids, the read-out weights and the bias row whole, and stores the memory
feature (the softmax-weighted centroids over the softmax denominator) and the reachability column (ten over the
root of the least clamped squared distance) through the whole output buffers. -/

abbrev r0_x : Rect S64x2048 := Rect.unit (s := S64x2048) ![0, 0] S64x2048.size inb_S64x2048_S64x2048_0_0
abbrev r0_c : Rect S1000x2048 := Rect.unit (s := S1000x2048) ![0, 0] S1000x2048.size inb_S1000x2048_S1000x2048_0_0
abbrev r0_b : Rect S1x1000 := Rect.unit (s := S1x1000) ![0, 0] S1x1000.size inb_S1x1000_S1x1000_0_0
abbrev r0_r : Rect S64x1 := Rect.unit (s := S64x1) ![0, 0] S64x1.size inb_S64x1_S64x1_0_0

/-- The memory-feature buffer after the body: its one whole store. -/
def out0_4 (x0 : Vec F S64x2048 .f32) (x1 x2 : Vec F S1000x2048 .f32) (x3 : Vec F S1x1000 .f32) : Vec F S64x2048 .f32 :=
  View.canon [⟨r0_x, k0_pay4 (View.ld x0 r0_x) (View.ld x1 r0_c) (View.ld x2 r0_c) (View.ld x3 r0_b)⟩]

/-- The reachability buffer after the body: its one whole store. -/
def out0_5 (x0 : Vec F S64x2048 .f32) (x1 : Vec F S1000x2048 .f32) : Vec F S64x1 .f32 :=
  View.canon [⟨r0_r, k0_pay1 (k0_pay5 (View.ld x0 r0_x) (View.ld x1 r0_c))⟩]

theorem cover0_4 (p0 : Vec F S64x2048 .f32) (y : S64x2048.Idx) :
    ∃ pc ∈ ([⟨r0_x, p0⟩] : List (View.Piece (Elt F) S64x2048 .f32)), y ∈ pc.1.set :=
  View.cover_of_tiled [⟨r0_x, p0⟩] S64x2048.size (by rfl) y

theorem cover0_5 (p0 : Vec F S64x1 .f32) (y : S64x1.Idx) :
    ∃ pc ∈ ([⟨r0_r, p0⟩] : List (View.Piece (Elt F) S64x1 .f32)), y ∈ pc.1.set :=
  View.cover_of_tiled [⟨r0_r, p0⟩] S64x1.size (by rfl) y

set_option maxHeartbeats 2000000 in
/-- The body on whole staging memrefs: the inputs' at contents `xW`, the outputs' at anything; it returns the
    inputs' as they were and each output's at its store's value. -/
theorem sound_kernel0 (c : Dev nD) (E : Set ℕ) (i : grid0.Coords)
    (arg1 : Memref sig .tc .vmem S64x2048 .f32) (harg1 : arg1.IsWhole) (arg2 : Memref sig .tc .vmem S1000x2048 .f32) (harg2 : arg2.IsWhole)
    (arg3 : Memref sig .tc .vmem S1000x2048 .f32) (harg3 : arg3.IsWhole) (arg4 : Memref sig .tc .vmem S1x1000 .f32) (harg4 : arg4.IsWhole)
    (arg5 : Memref sig .tc .vmem S64x2048 .f32) (harg5 : arg5.IsWhole) (arg6 : Memref sig .tc .vmem S64x1 .f32) (harg6 : arg6.IsWhole)
    (x0 : Vec F S64x2048 .f32) (x1 x2 : Vec F S1000x2048 .f32) (x3 : Vec F S1x1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1)) -∗ K ⟨⟩))
      ⊢ wp frame (wpE (defs₀ (F := F)) Variants.none c none) E (cc0__memory_kernel i arg1 harg1 arg2 harg2 arg3 harg3 arg4 harg4 arg5 harg5 arg6 harg6) K := by
  simp only [cc0__memory_kernel_eq_skeleton]; unfold cc0__memory_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! # The selector kernel's body (region 1): two grid points, the selector weights by row blocks of 1024

At point `i` the body loads the features whole, a block of 1024 selector rows and of the bias, the reachability
column, and the memory feature's and the features' 1024 columns at offset `1024 · i`; it stores the infused
feature's block (selector times memory) and the scaled feature's block. -/

abbrev r1_w : Rect S1024x2048 := Rect.unit (s := S1024x2048) ![0, 0] S1024x2048.size inb_S1024x2048_S1024x2048_0_0
abbrev r1_b : Rect S1x1024 := Rect.unit (s := S1x1024) ![0, 0] S1x1024.size inb_S1x1024_S1x1024_0_0
abbrev r1_o : Rect S64x1024 := Rect.unit (s := S64x1024) ![0, 0] S64x1024.size inb_S64x1024_S64x1024_0_0
/-- The 1024 columns at the point's offset. -/
abbrev r1_off (i : grid1.Coords) : Rect S64x2048 := Rect.unit (s := S64x2048) (k1_off1 i) S64x1024.size (k1_off1_inb i)

/-- The infused feature's buffer after the body. -/
def out1_5 (i : grid1.Coords) (x0 : Vec F S64x2048 .f32) (x1 : Vec F S1024x2048 .f32) (x2 : Vec F S1x1024 .f32) (x3 : Vec F S64x2048 .f32) : Vec F S64x1024 .f32 :=
  View.canon [⟨r1_o, k1_pay1 (View.ld x0 r0_x) (View.ld x1 r1_w) (View.ld x2 r1_b) (View.ld x3 (r1_off i))⟩]

/-- The scaled feature's buffer after the body. -/
def out1_6 (i : grid1.Coords) (x0 : Vec F S64x2048 .f32) (x1 : Vec F S1024x2048 .f32) (x2 : Vec F S1x1024 .f32) (x3 : Vec F S64x2048 .f32) (x4 : Vec F S64x1 .f32) : Vec F S64x1024 .f32 :=
  View.canon [⟨r1_o, k1_pay2 (View.ld x0 r0_x) (View.ld x1 r1_w) (View.ld x2 r1_b) (View.ld x4 r0_r) (View.ld x3 (r1_off i)) (View.ld x0 (r1_off i))⟩]

theorem cover1_o (p0 : Vec F S64x1024 .f32) (y : S64x1024.Idx) :
    ∃ pc ∈ ([⟨r1_o, p0⟩] : List (View.Piece (Elt F) S64x1024 .f32)), y ∈ pc.1.set :=
  View.cover_of_tiled [⟨r1_o, p0⟩] S64x1024.size (by rfl) y

set_option maxHeartbeats 2000000 in
theorem sound_kernel1 (c : Dev nD) (E : Set ℕ) (i : grid1.Coords)
    (arg1 : Memref sig .tc .vmem S64x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S64x2048 .f32) (harg4 : arg4.IsWhole)
    (arg5 : Memref sig .tc .vmem S64x1 .f32) (harg5 : arg5.IsWhole) (arg6 : Memref sig .tc .vmem S64x1024 .f32) (harg6 : arg6.IsWhole)
    (arg7 : Memref sig .tc .vmem S64x1024 .f32) (harg7 : arg7.IsWhole)
    (x0 : Vec F S64x2048 .f32) (x1 : Vec F S1024x2048 .f32) (x2 : Vec F S1x1024 .f32) (x3 : Vec F S64x2048 .f32) (x4 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 i x0 x1 x2 x3)
            ∗ owns (c : Thread nD τ) arg7 fullShare (out1_6 i x0 x1 x2 x3 x4)) -∗ K ⟨⟩))
      ⊢ wp frame (wpE (defs₀ (F := F)) Variants.none c none) E (cc1__select_kernel i arg1 harg1 arg2 harg2 arg3 harg3 arg4 harg4 arg5 harg5 arg6 harg6 arg7 harg7) K := by
  simp only [cc1__select_kernel_eq_skeleton]; unfold cc1__select_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_o _)
  iexists _; isplitr
  swap; · iexact H6
  ipureintro
  exact View.read_writes_eq_canon _ _ _ (cover1_o _)

/-! # The cosine classifier's body (region 2): two grid points, the classifier rows by blocks of 512

The body loads the scaled feature whole and a block of 512 classifier rows, and stores the block of logits: the
feature row over one plus its norm, times sixteen, against each classifier row over its norm. -/

abbrev r2_w : Rect S512x2048 := Rect.unit (s := S512x2048) ![0, 0] S512x2048.size inb_S512x2048_S512x2048_0_0
abbrev r2_o : Rect S64x512 := Rect.unit (s := S64x512) ![0, 0] S64x512.size inb_S64x512_S64x512_0_0

/-- The logits' buffer after the body. -/
def out2_2 (x0 : Vec F S64x2048 .f32) (x1 : Vec F S512x2048 .f32) : Vec F S64x512 .f32 :=
  View.canon [⟨r2_o, k2_pay1 (View.ld x0 r0_x) (View.ld x1 r2_w)⟩]

theorem cover2_o (p0 : Vec F S64x512 .f32) (y : S64x512.Idx) :
    ∃ pc ∈ ([⟨r2_o, p0⟩] : List (View.Piece (Elt F) S64x512 .f32)), y ∈ pc.1.set :=
  View.cover_of_tiled [⟨r2_o, p0⟩] S64x512.size (by rfl) y

set_option maxHeartbeats 2000000 in
theorem sound_kernel2 (c : Dev nD) (E : Set ℕ) (i : grid2.Coords)
    (arg1 : Memref sig .tc .vmem S64x2048 .f32) (harg1 : arg1.IsWhole) (arg2 : Memref sig .tc .vmem S512x2048 .f32) (harg2 : arg2.IsWhole)
    (arg3 : Memref sig .tc .vmem S64x512 .f32) (harg3 : arg3.IsWhole)
    (x0 : Vec F S64x2048 .f32) (x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__cosnorm_kernel i arg1 harg1 arg2 harg2 arg3 harg3) K := by
  simp only [cc2__cosnorm_kernel_eq_skeleton]; unfold cc2__cosnorm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_o _)

end Cert.Kernel.Gen

end
-- ==== Proof.KRegions.lean ====
import proofs.«123336_j4191888081208_2_alg».proof.Proof.Gen.Kernel.Launch
import proofs.«123336_j4191888081208_2_alg».proof.Proof.Gen.Kernel.Skeleton
import proofs.«123336_j4191888081208_2_alg».proof.Proof.Gen.Kernel.Points
import proofs.«123336_j4191888081208_2_alg».proof.Proof.KBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 at the entry contents `V`: every window is its whole array, fetched at the one point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of region 0: the arrays as found; after the body each input's buffer at its block, the memory
    feature's and the reachability's at the body's stores of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! # Region 1 at the entry contents `V`: the features, the memory feature and the reachability whole; the selector's rows and bias, and both outputs, by blocks of 1024 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data of region 1: the arrays as found; after the body each input's buffer at its block, each output's
    at the body's store of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t)
    | ⟨6, _⟩ => out1_6 (grid1.coords t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (grid1.coords t) (iblk1 V c 0 t) (iblk1 V c 1 t) (iblk1 V c 2 t) (iblk1 V c 3 t) := by dsimp only [dat1]
theorem after1_6 (c : Dev nD) (t : Fin cfg1.N) : (dat1 V c).after 6 t = out1_6 (grid1.coords t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

/-! # Region 2 at the entry contents `V`: the scaled feature whole; the classifier's rows and the logits' columns by
    blocks of 512, the second block reaching 24 past the array's end -/

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The output window is not read by a claim that only asks the arguments back. -/
def forgets2 : Fin 3 → Bool := fun w => w.val == 2

/-- The classifier block at point `t` filled out past the array's end with the zero word. -/
def wblk2 (c : Dev nD) (t : Fin cfg2.N) : S512x2048.Idx → Elt F .f32 :=
  win2_1.fill (grid2.coords t) (fun _ => Scalar.ofBits .f32 0#32) (iblk2 V c 1 t)

/-- The proof data of region 2: the arrays as found; after the body the feature's buffer at its block, the
    classifier's at its block (stated on the rows inside the array), the logits' at the body's store of those. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => out2_2 (iblk2 V c 0 t) (wblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = out2_2 (iblk2 V c 0 t) (wblk2 V c t) := by dsimp only [dat2]

theorem before2_0 (c : Dev nD) (t : Fin cfg2.N) (d) : (dat2 V c).before 0 t d = iblk2 V c 0 t :=
  before2_0_of V (dat2 V c) (A_eq2 V c 0) (after2_0 V c) t d

/-- The classifier's buffer just fetched: the block on the rows inside the array, `d` past them. -/
theorem before2_1 (c : Dev nD) (t : Fin cfg2.N) (d) :
    (dat2 V c).before 1 t d = win2_1.fill (grid2.coords t) d (iblk2 V c 1 t) := by
  unfold Dat.before; rw [if_pos (fetch2_1 t)]; rfl

/-! ## The body obligation with the output forgotten -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ X, owns (c : Thread nD τ) (st2_2 t) fullShare X))

def bodyPost2f (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ X, owns (c : Thread nD τ) (st2_2 t) fullShare X))

theorem sound_body2f (c : Dev nD) (t : Fin cfg2.N) :
    bodyPre2 V c t ⊢ wp frame (wpE (defs₀ (F := F)) Variants.none c none) Set.univ (bodyAt2 t) (fun _ => bodyPost2f V c t) := by
  unfold bodyPre2 bodyPost2f bodyAt2
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩, ⟨%d2, H2⟩⟩
  rw [before2_0 V c t d0, before2_1 V c t d1]
  iapply (sound_kernel2 c Set.univ (grid2.coords t) _ _ _ _ _ _ (iblk2 V c 0 t) (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win2_1.cut (grid2.coords t) (wblk2 V c t) = iblk2 V c 1 t from win2_1.cut_fill _ _ _]
    iexact H1
  iexists _; iexact H2

theorem body_obligation2f (c : Dev nD) : BodyObligationLoose (dat2 (F := F) V c) (defs₀ (F := F)) Variants.none () Set.univ forgets2 := fun t => by
  rw [bigSep_W2, bigSep_W2]
  exact sound_body2f V c t

/-! ## The exact body obligation, given that the logits inside the array do not depend on the classifier rows past its end -/

/-- The logits the write-back moves are the same whatever fills the classifier's buffer past the array's end. -/
def Local2 : Prop := ∀ (c : Dev nD) (t : Fin cfg2.N) (d1 : S512x2048.Idx → Elt F .f32),
  win2_2.cut (grid2.coords t) (out2_2 (iblk2 V c 0 t) (win2_1.fill (grid2.coords t) d1 (iblk2 V c 1 t)))
    = win2_2.cut (grid2.coords t) (out2_2 (iblk2 V c 0 t) (wblk2 V c t))

def bodyPre2x (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2x (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t)))))

theorem sound_body2x (hloc : Local2 (F := F) V) (c : Dev nD) (t : Fin cfg2.N) :
    bodyPre2x V c t ⊢ wp frame (wpE (defs₀ (F := F)) Variants.none c none) Set.univ (bodyAt2 t) (fun _ => bodyPost2x V c t) := by
  unfold bodyPre2x bodyPost2x bodyAt2
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  rw [before2_0 V c t d0, before2_1 V c t d1]
  iapply (sound_kernel2 c Set.univ (grid2.coords t) _ _ _ _ _ _ (iblk2 V c 0 t) (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win2_1.cut (grid2.coords t) (wblk2 V c t) = iblk2 V c 1 t from win2_1.cut_fill _ _ _]
    iexact H1
  iexists (out2_2 (iblk2 V c 0 t) (win2_1.fill (grid2.coords t) d1 (iblk2 V c 1 t)))
  rw [win2_2.fill_congr_cut (grid2.coords t) (hloc c t d1)]
  iexact H2

theorem body_obligation2x (hloc : Local2 (F := F) V) (c : Dev nD) : BodyObligationLoose (dat2 (F := F) V c) (defs₀ (F := F)) Variants.none () Set.univ := fun t => by
  rw [bigSep_W2, bigSep_W2]
  exact sound_body2x V hloc c t

end Cert.Kernel.Gen

end
-- ==== Proof.KRun.lean ====
import proofs.«123336_j4191888081208_2_alg».proof.Proof.Gen.Kernel.Launch
import proofs.«123336_j4191888081208_2_alg».proof.Proof.Gen.Kernel.Skeleton
import proofs.«123336_j4191888081208_2_alg».proof.Proof.Gen.Kernel.Points
import proofs.«123336_j4191888081208_2_alg».proof.Proof.KRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four items from the launch to the return

## The buffer contents at each boundary -/

/-- Core `c`'s buffers at launch. -/
abbrev W0 : Dev nD → Valuation τ sig (Elt F) := fun c b => (s₀ m ρ).mem ((c : Dev nD), b)
/-- After the two reshapes of the bias vectors (region 0's entry). -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b

/-- At region 0's exit: its arrays at what the write-backs leave, every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- At region 1's exit: its arrays at what the write-backs leave, every other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)

/-- At region 2's exit: its arrays at what the write-backs leave, every other buffer as entered. -/
def W4 (c : Dev nD) : Valuation τ sig (Elt F) :=
  Pipeline.withArrays spec2 c (W3 m ρ c) fun w => (dat2 (Vr3 m ρ) c).arrAt w cfg2.N
theorem W4_arr (c : Dev nD) (w : Fin cfg2.W) :
    W4 m ρ c (Proc.devRef .tc (Pipeline.arrRef spec2 w)) = (dat2 (Vr3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vr4 : (c : Dev nD) → (b : Ref sig .tc) → Buf (Elt F) ((c : Thread nD τ).loc b) := fun c b => W4 m ρ c b
theorem hF2 (c : Dev nD) (w : Fin cfg2.W) : (dat2 (Vr3 m ρ) c).arrAt w cfg2.N = Vr4 m ρ c (Pipeline.arrRef spec2 w) :=
  (W4_arr m ρ c w).symm
theorem hrest2 (c : Dev nD) : ∀ b, b ∉ Finset.univ.image (Pipeline.arrRef spec2) → Vr4 m ρ c b = Vr3 m ρ c b :=
  fun b hb => W4_of_ne m ρ c b fun w e => hb (Finset.mem_image.mpr ⟨w, Finset.mem_univ _, e⟩)

/-! ## The proof data family and the thread state -/

abbrev admH : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (Vr1 m ρ) c
  | ⟨1, _⟩ => fun c => dat1 (Vr2 m ρ) c
  | ⟨2, _⟩ => fun c => dat2 (Vr3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W4 m ρ c) ∗ ∃ r, prngReg c r)

/-! ## The proof data read as relations, the logits' window forgotten -/

/-- Regions 0 and 1 say exactly what their bodies leave; region 2 says nothing of the logits' buffer. -/
def rdats : (p : Fin 3) → (c : Dev nD) → Pipeline.RDat τ (Elt F) Unit ℕ (UR sig nD τ) ℕ (Pipeline.pin (pcfgs (F := F)) admH p) c
  | ⟨0, _⟩ => fun c => (dat0 (Vr1 m ρ) c).toR
  | ⟨1, _⟩ => fun c => (dat1 (Vr2 m ρ) c).toR
  | ⟨2, _⟩ => fun c => (dat2 (Vr3 m ρ) c).toRForget forgets2

/-- The last thread state without the dues: region 2's arrays at contents they may hold after its write-backs, every
    other unscoped buffer as region 2 found it, the generator register at some state. -/
abbrev TₙR (c : Dev nD) : sProp 𝕄 :=
  iprop((rdats m ρ 2 c).arraysAt cfg2.N
    ∗ Pipeline.unscopedRest (Ix := Unit) (Name := ℕ) (U := UR sig nD τ) (Lvl := ℕ) spec2 c (Vr3 m ρ c) ∗ ∃ r, prngReg c r)

/-! ## The regions as items -/

set_option backward.isDefEq.respectTransparency.types false in
/-- Region 0 over the thread state, its proof data read as relations. -/
def reg0R : Pipeline.RDat.RegionSeg (pcfgs (F := F)) admH (rdats m ρ) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (Vr1 m ρ) c).loose).toR
  hwaits := Pipeline.RDat.hwaits_of_owed_zero _ _ _ _ L lv 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.RDat.arrays_of_unscopedBufs (p := 0) (pcfgs (F := F)) admH (rdats m ρ) launch0.win launch0.arr_whole c
      ((rdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    refine (sep_mono (Entails.of_eq ((pdats m ρ 0 c).toR_arraysAt_eq _)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 over the thread state, its proof data read as relations. -/
def reg1R : Pipeline.RDat.RegionSeg (pcfgs (F := F)) admH (rdats m ρ) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (Vr2 m ρ) c).loose).toR
  hwaits := Pipeline.RDat.hwaits_of_owed_zero _ _ _ _ L lv 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.RDat.arrays_of_unscopedBufs (p := 1) (pcfgs (F := F)) admH (rdats m ρ) launch1.win launch1.arr_whole c
      ((rdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    refine (sep_mono (Entails.of_eq ((pdats m ρ 1 c).toR_arraysAt_eq _)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 2 over the thread state, its proof data read as relations with the logits' window forgotten: it leaves its arrays at contents they may hold after the write-backs, beside the buffers it does not name. -/
def reg2R : Pipeline.RDat.RegionSeg (pcfgs (F := F)) admH (rdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2f (Vr3 m ρ) c).toRForget
  hwaits := Pipeline.RDat.hwaits_of_owed_zero _ _ _ _ L lv 2 fun _ _ => rfl
  pre c := iprop(StableHlo.held (c : Thread nD τ) (Pipeline.ucRefs τ sig) (W3 m ρ c) ∗ Rr c)
  post c := iprop(TₙR m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.RDat.arrays_of_unscopedBufs (p := 2) (pcfgs (F := F)) admH (rdats m ρ) launch2.win launch2.arr_whole c
      ((rdats m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as items, and the launch -/

abbrev segsR : List (Pipeline.RDat.Seg (pcfgs (F := F)) admH (rdats m ρ) () defs₀ 𝒱₀ L lv) :=
  [ .host (hseg hostOps0 hostOps0_sub hostOps0_fresh' (W0 m ρ)),
    .region (reg0R m ρ),
    .region (reg1R m ρ),
    .region (reg2R m ρ) ]

theorem main_runR (c : Dev nD) : main (F := F) c = Pipeline.RDat.Seg.run (segsR m ρ) := by
  rw [main_chain c, Pipeline.RDat.Seg.run_eq_chain]
  rfl

/-- The unscoped buffers region 2 does not name. -/
abbrev restRefs2 : Finset (Ref sig .tc) :=
  (Finset.univ.filter fun b : Ref sig .tc => ¬ b.isScoped) \ Finset.univ.image (Pipeline.arrRef spec2)

set_option backward.isDefEq.respectTransparency.types false in
/-- Every weakly fair execution of @main from memory `m` with zero counters terminates, nothing faulting; every final
    memory holds each buffer region 2 does not name as region 2 found it, and each of region 2's arrays at contents it
    may hold after the write-backs. -/
theorem run_frame : θ_run defs (onTc (τ := τ) (main (F := F))) ⟨m, fun _ => 0, ρ⟩ (fun r => ∀ c : Dev nD,
      (∀ b ∈ restRefs2, r.2.mem ((c : Thread nD τ).loc b) = Vr3 m ρ c b)
      ∧ ∀ w, (rdats m ρ 2 c).ArrAt w cfg2.N (r.2.mem ((spec2 w).arr.view.loc (c : Thread nD τ)))) :=
  Pipeline.RDat.θ_run_regions_kit (pcfgs (F := F)) admH (rdats m ρ) () cellOf_inj emb₁ defs₀ 𝒱₀ L lv m ρ main (segsR m ρ)
    (fun c Q => by rw [main_runR m ρ c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := TₙR m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => (∀ b ∈ restRefs2, s.mem ((c : Thread nD τ).loc b) = Vr3 m ρ c b)
      ∧ ∀ w, (rdats m ρ 2 c).ArrAt w cfg2.N (s.mem ((spec2 w).arr.view.loc (c : Thread nD τ))))
    (hfin := fun c s' => by
      iintro ⟨⟨Ha, Hrest, -⟩, HSI⟩
      unfold Pipeline.unscopedRest
      ihave Hr := (pointsTo_read_all restRefs2 (fun b => (c : Thread nD τ).loc b) (Vr3 m ρ c) s') $$ [Hrest HSI]
      · isplitl [Hrest] <;> iassumption
      icases Hr with ⟨%hr, HSI⟩
      ihave Hq := (Pipeline.RDat.arrays_read (pcfgs (F := F)) admH (rdats m ρ) (p := 2) launch2.arr_whole c cfg2.N s') $$ [Ha HSI]
      · isplitl [Ha] <;> iassumption
      icases Hq with ⟨%ha, HSI⟩
      imodintro
      isplitr
      · ipureintro; exact ⟨hr, ha⟩
      iexact HSI)
    (hQ := fun s h c => h c)

end Cert.Kernel.Gen

end
-- ==== Proof.KArgs.lean ====
import proofs.«123336_j4191888081208_2_alg».proof.Proof.Gen.Kernel.Launch
import proofs.«123336_j4191888081208_2_alg».proof.Proof.Gen.Kernel.Skeleton
import proofs.«123336_j4191888081208_2_alg».proof.Proof.Gen.Kernel.Points
import proofs.«123336_j4191888081208_2_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What each boundary holds at the arguments and at the buffers the regions pass on

No host operation and no region writes an argument: a region reads it through an input window, whose array the
write-backs never touch, or does not name it. So every boundary's contents at an argument are the launch contents. -/

/-- The two reshapes write the reshaped bias rows only. -/
theorem W1_keep (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))).trans rfl

theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Vr1 m ρ) c).arrAt_in w hw _).trans (A_eq0 (Vr1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (Vr2 m ρ) c).arrAt_in w hw _).trans (A_eq1 (Vr2 m ρ) c w))
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (Vr3 m ρ) c).arrAt_in w hw _).trans (A_eq2 (Vr3 m ρ) c w))

/-! ## The arguments at region 1's entry, region 2's entry and the end -/

theorem W2_main_arg0 (c : Dev nD) : W2 m ρ c (Proc.devRef .tc main_arg0) = m ((c : Thread nD τ).loc main_arg0) :=
  (W2_in m ρ c 0 rfl).trans (W1_keep m ρ c main_arg0 (by decide) (by decide))
theorem W2_main_arg1 (c : Dev nD) : W2 m ρ c (Proc.devRef .tc main_arg1) = m ((c : Thread nD τ).loc main_arg1) :=
  (W2_in m ρ c 1 rfl).trans (W1_keep m ρ c main_arg1 (by decide) (by decide))
theorem W2_main_arg2 (c : Dev nD) : W2 m ρ c (Proc.devRef .tc main_arg2) = m ((c : Thread nD τ).loc main_arg2) :=
  (W2_in m ρ c 2 rfl).trans (W1_keep m ρ c main_arg2 (by decide) (by decide))
theorem W2_main_arg3 (c : Dev nD) : W2 m ρ c (Proc.devRef .tc main_arg3) = m ((c : Thread nD τ).loc main_arg3) :=
  (W2_of_ne m ρ c main_arg3 (by decide)).trans (W1_keep m ρ c main_arg3 (by decide) (by decide))
theorem W2_main_arg4 (c : Dev nD) : W2 m ρ c (Proc.devRef .tc main_arg4) = m ((c : Thread nD τ).loc main_arg4) :=
  (W2_of_ne m ρ c main_arg4 (by decide)).trans (W1_keep m ρ c main_arg4 (by decide) (by decide))
theorem W2_main_arg5 (c : Dev nD) : W2 m ρ c (Proc.devRef .tc main_arg5) = m ((c : Thread nD τ).loc main_arg5) :=
  (W2_of_ne m ρ c main_arg5 (by decide)).trans (W1_keep m ρ c main_arg5 (by decide) (by decide))
theorem W2_main_arg6 (c : Dev nD) : W2 m ρ c (Proc.devRef .tc main_arg6) = m ((c : Thread nD τ).loc main_arg6) :=
  (W2_of_ne m ρ c main_arg6 (by decide)).trans (W1_keep m ρ c main_arg6 (by decide) (by decide))

theorem W3_main_arg0 (c : Dev nD) : W3 m ρ c (Proc.devRef .tc main_arg0) = m ((c : Thread nD τ).loc main_arg0) :=
  (W3_in m ρ c 0 rfl).trans (W2_main_arg0 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  (W3_in m ρ c 1 rfl).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W3_main_arg6 (c : Dev nD) : W3 m ρ c (Proc.devRef .tc main_arg6) = m ((c : Thread nD τ).loc main_arg6) :=
  (W3_of_ne m ρ c main_arg6 (by decide)).trans (W2_main_arg6 m ρ c)

theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W4_main_arg6 (c : Dev nD) : W4 m ρ c (Proc.devRef .tc main_arg6) = m ((c : Thread nD τ).loc main_arg6) :=
  (W4_in m ρ c 1 rfl).trans (W3_main_arg6 m ρ c)

end Cert.Kernel.Gen

end
-- ==== Proof.KFrame.lean ====
import proofs.«123336_j4191888081208_2_alg».proof.Proof.Gen.Kernel.Launch
import proofs.«123336_j4191888081208_2_alg».proof.Proof.Gen.Kernel.Skeleton
import proofs.«123336_j4191888081208_2_alg».proof.Proof.Gen.Kernel.Points
import proofs.«123336_j4191888081208_2_alg».proof.Proof.KArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame: the argument arrays end as launched

Six of the arguments are buffers the last region does not name, which end as that region found them; the seventh is
the last region's classifier array, an input window's, which no write-back touches. Every boundary's contents at an
argument are the launch contents. -/

theorem mem_rest2 (b : Ref sig .tc) (hs : ¬ b.isScoped) (hb : b ∉ Finset.univ.image (Pipeline.arrRef spec2)) : b ∈ restRefs2 :=
  Finset.mem_sdiff.mpr ⟨Finset.mem_filter.mpr ⟨Finset.mem_univ _, hs⟩, hb⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).1 main_arg0 (mem_rest2 main_arg0 (by decide) (by decide))).trans (W3_main_arg0 m ρ c),
     ((h c).1 main_arg1 (mem_rest2 main_arg1 (by decide) (by decide))).trans (W3_main_arg1 m ρ c),
     ((h c).1 main_arg2 (mem_rest2 main_arg2 (by decide) (by decide))).trans (W3_main_arg2 m ρ c),
     ((h c).1 main_arg3 (mem_rest2 main_arg3 (by decide) (by decide))).trans (W3_main_arg3 m ρ c),
     ((h c).1 main_arg4 (mem_rest2 main_arg4 (by decide) (by decide))).trans (W3_main_arg4 m ρ c),
     ((h c).1 main_arg5 (mem_rest2 main_arg5 (by decide) (by decide))).trans (W3_main_arg5 m ρ c),
     ((((dat2 (Vr3 m ρ) c).toRForget_arrAt_iff (fgt := forgets2) (w := 1) rfl cfg2.N _).mp ((h c).2 1)).trans
        (((dat2 (Vr3 m ρ) c).arrAt_in 1 rfl _).trans (A_eq2 (Vr3 m ρ) c 1))).trans (W3_main_arg6 m ρ c)⟩)
    (run_frame m ρ)

end Cert.Kernel.Gen

end
-- ==== Proof.KIBodies.lean ====
import proofs.«123336_j4191888081208_2_alg».proof.Proof.Gen.KernelIdeal.Launch
import proofs.«123336_j4191888081208_2_alg».proof.Proof.Gen.KernelIdeal.Skeleton
import proofs.«123336_j4191888081208_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The memory kernel's body (region 0): one grid point, every window its whole array

The body loads the features, the centroids, the read-out weights and the bias row whole, and stores the memory
feature (the softmax-weighted centroids over the softmax denominator) and the reachability column (ten over the
root of the least clamped squared distance) through the whole output buffers. -/

abbrev r0_x : Rect S64x2048 := Rect.unit (s := S64x2048) ![0, 0] S64x2048.size inb_S64x2048_S64x2048_0_0
abbrev r0_c : Rect S1000x2048 := Rect.unit (s := S1000x2048) ![0, 0] S1000x2048.size inb_S1000x2048_S1000x2048_0_0
abbrev r0_b : Rect S1x1000 := Rect.unit (s := S1x1000) ![0, 0] S1x1000.size inb_S1x1000_S1x1000_0_0
abbrev r0_r : Rect S64x1 := Rect.unit (s := S64x1) ![0, 0] S64x1.size inb_S64x1_S64x1_0_0

/-- The memory-feature buffer after the body: its one whole store. -/
def out0_4 (x0 : Vec F S64x2048 .f32) (x1 x2 : Vec F S1000x2048 .f32) (x3 : Vec F S1x1000 .f32) : Vec F S64x2048 .f32 :=
  View.canon [⟨r0_x, k0_pay4 (View.ld x0 r0_x) (View.ld x1 r0_c) (View.ld x2 r0_c) (View.ld x3 r0_b)⟩]

/-- The reachability buffer after the body: its one whole store. -/
def out0_5 (x0 : Vec F S64x2048 .f32) (x1 : Vec F S1000x2048 .f32) : Vec F S64x1 .f32 :=
  View.canon [⟨r0_r, k0_pay1 (k0_pay5 (View.ld x0 r0_x) (View.ld x1 r0_c))⟩]

theorem cover0_4 (p0 : Vec F S64x2048 .f32) (y : S64x2048.Idx) :
    ∃ pc ∈ ([⟨r0_x, p0⟩] : List (View.Piece (Elt F) S64x2048 .f32)), y ∈ pc.1.set :=
  View.cover_of_tiled [⟨r0_x, p0⟩] S64x2048.size (by rfl) y

theorem cover0_5 (p0 : Vec F S64x1 .f32) (y : S64x1.Idx) :
    ∃ pc ∈ ([⟨r0_r, p0⟩] : List (View.Piece (Elt F) S64x1 .f32)), y ∈ pc.1.set :=
  View.cover_of_tiled [⟨r0_r, p0⟩] S64x1.size (by rfl) y

set_option maxHeartbeats 2000000 in
/-- The body on whole staging memrefs: the inputs' at contents `xW`, the outputs' at anything; it returns the
    inputs' as they were and each output's at its store's value. -/
theorem sound_kernel0 (c : Dev nD) (E : Set ℕ) (i : grid0.Coords)
    (arg1 : Memref sig .tc .vmem S64x2048 .f32) (harg1 : arg1.IsWhole) (arg2 : Memref sig .tc .vmem S1000x2048 .f32) (harg2 : arg2.IsWhole)
    (arg3 : Memref sig .tc .vmem S1000x2048 .f32) (harg3 : arg3.IsWhole) (arg4 : Memref sig .tc .vmem S1x1000 .f32) (harg4 : arg4.IsWhole)
    (arg5 : Memref sig .tc .vmem S64x2048 .f32) (harg5 : arg5.IsWhole) (arg6 : Memref sig .tc .vmem S64x1 .f32) (harg6 : arg6.IsWhole)
    (x0 : Vec F S64x2048 .f32) (x1 x2 : Vec F S1000x2048 .f32) (x3 : Vec F S1x1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1)) -∗ K ⟨⟩))
      ⊢ wp frame (wpE (defs₀ (F := F)) Variants.none c none) E (cc0__memory_kernel i arg1 harg1 arg2 harg2 arg3 harg3 arg4 harg4 arg5 harg5 arg6 harg6) K := by
  simp only [cc0__memory_kernel_eq_skeleton]; unfold cc0__memory_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! # The selector kernel's body (region 1): two grid points, the selector weights by row blocks of 1024

At point `i` the body loads the features whole, a block of 1024 selector rows and of the bias, the reachability
column, and the memory feature's and the features' 1024 columns at offset `1024 · i`; it stores the infused
feature's block (selector times memory) and the scaled feature's block. -/

abbrev r1_w : Rect S1024x2048 := Rect.unit (s := S1024x2048) ![0, 0] S1024x2048.size inb_S1024x2048_S1024x2048_0_0
abbrev r1_b : Rect S1x1024 := Rect.unit (s := S1x1024) ![0, 0] S1x1024.size inb_S1x1024_S1x1024_0_0
abbrev r1_o : Rect S64x1024 := Rect.unit (s := S64x1024) ![0, 0] S64x1024.size inb_S64x1024_S64x1024_0_0
/-- The 1024 columns at the point's offset. -/
abbrev r1_off (i : grid1.Coords) : Rect S64x2048 := Rect.unit (s := S64x2048) (k1_off1 i) S64x1024.size (k1_off1_inb i)

/-- The infused feature's buffer after the body. -/
def out1_5 (i : grid1.Coords) (x0 : Vec F S64x2048 .f32) (x1 : Vec F S1024x2048 .f32) (x2 : Vec F S1x1024 .f32) (x3 : Vec F S64x2048 .f32) : Vec F S64x1024 .f32 :=
  View.canon [⟨r1_o, k1_pay1 (View.ld x0 r0_x) (View.ld x1 r1_w) (View.ld x2 r1_b) (View.ld x3 (r1_off i))⟩]

/-- The scaled feature's buffer after the body. -/
def out1_6 (i : grid1.Coords) (x0 : Vec F S64x2048 .f32) (x1 : Vec F S1024x2048 .f32) (x2 : Vec F S1x1024 .f32) (x3 : Vec F S64x2048 .f32) (x4 : Vec F S64x1 .f32) : Vec F S64x1024 .f32 :=
  View.canon [⟨r1_o, k1_pay2 (View.ld x0 r0_x) (View.ld x1 r1_w) (View.ld x2 r1_b) (View.ld x4 r0_r) (View.ld x3 (r1_off i)) (View.ld x0 (r1_off i))⟩]

theorem cover1_o (p0 : Vec F S64x1024 .f32) (y : S64x1024.Idx) :
    ∃ pc ∈ ([⟨r1_o, p0⟩] : List (View.Piece (Elt F) S64x1024 .f32)), y ∈ pc.1.set :=
  View.cover_of_tiled [⟨r1_o, p0⟩] S64x1024.size (by rfl) y

set_option maxHeartbeats 2000000 in
theorem sound_kernel1 (c : Dev nD) (E : Set ℕ) (i : grid1.Coords)
    (arg1 : Memref sig .tc .vmem S64x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S64x2048 .f32) (harg4 : arg4.IsWhole)
    (arg5 : Memref sig .tc .vmem S64x1 .f32) (harg5 : arg5.IsWhole) (arg6 : Memref sig .tc .vmem S64x1024 .f32) (harg6 : arg6.IsWhole)
    (arg7 : Memref sig .tc .vmem S64x1024 .f32) (harg7 : arg7.IsWhole)
    (x0 : Vec F S64x2048 .f32) (x1 : Vec F S1024x2048 .f32) (x2 : Vec F S1x1024 .f32) (x3 : Vec F S64x2048 .f32) (x4 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 i x0 x1 x2 x3)
            ∗ owns (c : Thread nD τ) arg7 fullShare (out1_6 i x0 x1 x2 x3 x4)) -∗ K ⟨⟩))
      ⊢ wp frame (wpE (defs₀ (F := F)) Variants.none c none) E (cc1__select_kernel i arg1 harg1 arg2 harg2 arg3 harg3 arg4 harg4 arg5 harg5 arg6 harg6 arg7 harg7) K := by
  simp only [cc1__select_kernel_eq_skeleton]; unfold cc1__select_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_o _)
  iexists _; isplitr
  swap; · iexact H6
  ipureintro
  exact View.read_writes_eq_canon _ _ _ (cover1_o _)

/-! # The cosine classifier's body (region 2): two grid points, the classifier rows by blocks of 512

The body loads the scaled feature whole and a block of 512 classifier rows, and stores the block of logits: the
feature row over one plus its norm, times sixteen, against each classifier row over its norm. -/

abbrev r2_w : Rect S512x2048 := Rect.unit (s := S512x2048) ![0, 0] S512x2048.size inb_S512x2048_S512x2048_0_0
abbrev r2_o : Rect S64x512 := Rect.unit (s := S64x512) ![0, 0] S64x512.size inb_S64x512_S64x512_0_0

/-- The logits' buffer after the body. -/
def out2_2 (x0 : Vec F S64x2048 .f32) (x1 : Vec F S512x2048 .f32) : Vec F S64x512 .f32 :=
  View.canon [⟨r2_o, k2_pay1 (View.ld x0 r0_x) (View.ld x1 r2_w)⟩]

theorem cover2_o (p0 : Vec F S64x512 .f32) (y : S64x512.Idx) :
    ∃ pc ∈ ([⟨r2_o, p0⟩] : List (View.Piece (Elt F) S64x512 .f32)), y ∈ pc.1.set :=
  View.cover_of_tiled [⟨r2_o, p0⟩] S64x512.size (by rfl) y

set_option maxHeartbeats 2000000 in
theorem sound_kernel2 (c : Dev nD) (E : Set ℕ) (i : grid2.Coords)
    (arg1 : Memref sig .tc .vmem S64x2048 .f32) (harg1 : arg1.IsWhole) (arg2 : Memref sig .tc .vmem S512x2048 .f32) (harg2 : arg2.IsWhole)
    (arg3 : Memref sig .tc .vmem S64x512 .f32) (harg3 : arg3.IsWhole)
    (x0 : Vec F S64x2048 .f32) (x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__cosnorm_kernel i arg1 harg1 arg2 harg2 arg3 harg3) K := by
  simp only [cc2__cosnorm_kernel_eq_skeleton]; unfold cc2__cosnorm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_o _)

end Cert.KernelIdeal.Gen

end
-- ==== Proof.KIRegions.lean ====
import proofs.«123336_j4191888081208_2_alg».proof.Proof.Gen.KernelIdeal.Launch
import proofs.«123336_j4191888081208_2_alg».proof.Proof.Gen.KernelIdeal.Skeleton
import proofs.«123336_j4191888081208_2_alg».proof.Proof.Gen.KernelIdeal.Points
import proofs.«123336_j4191888081208_2_alg».proof.Proof.KIBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 at the entry contents `V`: every window is its whole array, fetched at the one point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of region 0: the arrays as found; after the body each input's buffer at its block, the memory
    feature's and the reachability's at the body's stores of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! # Region 1 at the entry contents `V`: the features, the memory feature and the reachability whole; the selector's rows and bias, and both outputs, by blocks of 1024 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The proof data of region 1: the arrays as found; after the body each input's buffer at its block, each output's
    at the body's store of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t)
    | ⟨6, _⟩ => out1_6 (grid1.coords t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (grid1.coords t) (iblk1 V c 0 t) (iblk1 V c 1 t) (iblk1 V c 2 t) (iblk1 V c 3 t) := by dsimp only [dat1]
theorem after1_6 (c : Dev nD) (t : Fin cfg1.N) : (dat1 V c).after 6 t = out1_6 (grid1.coords t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

/-! # Region 2 at the entry contents `V`: the scaled feature whole; the classifier's rows and the logits' columns by
    blocks of 512, the second block reaching 24 past the array's end -/

/-- Window `w`'s block at point `t`, read off its array as the region finds it: its part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The output window is not read by a claim that only asks the arguments back. -/
def forgets2 : Fin 3 → Bool := fun w => w.val == 2

/-- The classifier block at point `t` filled out past the array's end with the zero word. -/
def wblk2 (c : Dev nD) (t : Fin cfg2.N) : S512x2048.Idx → Elt F .f32 :=
  win2_1.fill (grid2.coords t) (fun _ => Scalar.ofBits .f32 0#32) (iblk2 V c 1 t)

/-- The proof data of region 2: the arrays as found; after the body the feature's buffer at its block, the
    classifier's at its block (stated on the rows inside the array), the logits' at the body's store of those. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => out2_2 (iblk2 V c 0 t) (wblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = out2_2 (iblk2 V c 0 t) (wblk2 V c t) := by dsimp only [dat2]

theorem before2_0 (c : Dev nD) (t : Fin cfg2.N) (d) : (dat2 V c).before 0 t d = iblk2 V c 0 t :=
  before2_0_of V (dat2 V c) (A_eq2 V c 0) (after2_0 V c) t d

/-- The classifier's buffer just fetched: the block on the rows inside the array, `d` past them. -/
theorem before2_1 (c : Dev nD) (t : Fin cfg2.N) (d) :
    (dat2 V c).before 1 t d = win2_1.fill (grid2.coords t) d (iblk2 V c 1 t) := by
  unfold Dat.before; rw [if_pos (fetch2_1 t)]; rfl

/-! ## The body obligation with the output forgotten -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ X, owns (c : Thread nD τ) (st2_2 t) fullShare X))

def bodyPost2f (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ X, owns (c : Thread nD τ) (st2_2 t) fullShare X))

theorem sound_body2f (c : Dev nD) (t : Fin cfg2.N) :
    bodyPre2 V c t ⊢ wp frame (wpE (defs₀ (F := F)) Variants.none c none) Set.univ (bodyAt2 t) (fun _ => bodyPost2f V c t) := by
  unfold bodyPre2 bodyPost2f bodyAt2
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩, ⟨%d2, H2⟩⟩
  rw [before2_0 V c t d0, before2_1 V c t d1]
  iapply (sound_kernel2 c Set.univ (grid2.coords t) _ _ _ _ _ _ (iblk2 V c 0 t) (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win2_1.cut (grid2.coords t) (wblk2 V c t) = iblk2 V c 1 t from win2_1.cut_fill _ _ _]
    iexact H1
  iexists _; iexact H2

theorem body_obligation2f (c : Dev nD) : BodyObligationLoose (dat2 (F := F) V c) (defs₀ (F := F)) Variants.none () Set.univ forgets2 := fun t => by
  rw [bigSep_W2, bigSep_W2]
  exact sound_body2f V c t

/-! ## The exact body obligation, given that the logits inside the array do not depend on the classifier rows past its end -/

/-- The logits the write-back moves are the same whatever fills the classifier's buffer past the array's end. -/
def Local2 : Prop := ∀ (c : Dev nD) (t : Fin cfg2.N) (d1 : S512x2048.Idx → Elt F .f32),
  win2_2.cut (grid2.coords t) (out2_2 (iblk2 V c 0 t) (win2_1.fill (grid2.coords t) d1 (iblk2 V c 1 t)))
    = win2_2.cut (grid2.coords t) (out2_2 (iblk2 V c 0 t) (wblk2 V c t))

def bodyPre2x (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2x (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t)))))

theorem sound_body2x (hloc : Local2 (F := F) V) (c : Dev nD) (t : Fin cfg2.N) :
    bodyPre2x V c t ⊢ wp frame (wpE (defs₀ (F := F)) Variants.none c none) Set.univ (bodyAt2 t) (fun _ => bodyPost2x V c t) := by
  unfold bodyPre2x bodyPost2x bodyAt2
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  rw [before2_0 V c t d0, before2_1 V c t d1]
  iapply (sound_kernel2 c Set.univ (grid2.coords t) _ _ _ _ _ _ (iblk2 V c 0 t) (win2_1.fill (grid2.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win2_1.cut (grid2.coords t) (wblk2 V c t) = iblk2 V c 1 t from win2_1.cut_fill _ _ _]
    iexact H1
  iexists (out2_2 (iblk2 V c 0 t) (win2_1.fill (grid2.coords t) d1 (iblk2 V c 1 t)))
  rw [win2_2.fill_congr_cut (grid2.coords t) (hloc c t d1)]
  iexact H2

theorem body_obligation2x (hloc : Local2 (F := F) V) (c : Dev nD) : BodyObligationLoose (dat2 (F := F) V c) (defs₀ (F := F)) Variants.none () Set.univ := fun t => by
  rw [bigSep_W2, bigSep_W2]
  exact sound_body2x V hloc c t

end Cert.KernelIdeal.Gen

end
-- ==== Proof.KIRun.lean ====
import proofs.«123336_j4191888081208_2_alg».proof.Proof.Gen.KernelIdeal.Launch
import proofs.«123336_j4191888081208_2_alg».proof.Proof.Gen.KernelIdeal.Skeleton
import proofs.«123336_j4191888081208_2_alg».proof.Proof.Gen.KernelIdeal.Points
import proofs.«123336_j4191888081208_2_alg».proof.Proof.KIRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four items from the launch to the return

## The buffer contents at each boundary -/

/-- Core `c`'s buffers at launch. -/
abbrev W0 : Dev nD → Valuation τ sig (Elt F) := fun c b => (s₀ m ρ).mem ((c : Dev nD), b)
/-- After the two reshapes of the bias vectors (region 0's entry). -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b

/-- At region 0's exit: its arrays at what the write-backs leave, every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- At region 1's exit: its arrays at what the write-backs leave, every other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)

/-- At region 2's exit: its arrays at what the write-backs leave, every other buffer as entered. -/
def W4 (c : Dev nD) : Valuation τ sig (Elt F) :=
  Pipeline.withArrays spec2 c (W3 m ρ c) fun w => (dat2 (Vr3 m ρ) c).arrAt w cfg2.N
theorem W4_arr (c : Dev nD) (w : Fin cfg2.W) :
    W4 m ρ c (Proc.devRef .tc (Pipeline.arrRef spec2 w)) = (dat2 (Vr3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vr4 : (c : Dev nD) → (b : Ref sig .tc) → Buf (Elt F) ((c : Thread nD τ).loc b) := fun c b => W4 m ρ c b
theorem hF2 (c : Dev nD) (w : Fin cfg2.W) : (dat2 (Vr3 m ρ) c).arrAt w cfg2.N = Vr4 m ρ c (Pipeline.arrRef spec2 w) :=
  (W4_arr m ρ c w).symm
theorem hrest2 (c : Dev nD) : ∀ b, b ∉ Finset.univ.image (Pipeline.arrRef spec2) → Vr4 m ρ c b = Vr3 m ρ c b :=
  fun b hb => W4_of_ne m ρ c b fun w e => hb (Finset.mem_image.mpr ⟨w, Finset.mem_univ _, e⟩)

/-! ## The proof data family and the thread state -/

abbrev admH : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (Vr1 m ρ) c
  | ⟨1, _⟩ => fun c => dat1 (Vr2 m ρ) c
  | ⟨2, _⟩ => fun c => dat2 (Vr3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- Region 0 over the thread state: entered from every unscoped buffer at `W1`, left at `W2`: its arrays
    split out of the unscoped buffers and put back at what the write-backs leave; the generator register into the
    invariant and out; nothing owed; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`: its arrays
    split out of the unscoped buffers and put back at what the write-backs leave; the generator register into the
    invariant and out; nothing owed; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hloc : ∀ V, Local2 (F := F) V)

set_option backward.isDefEq.respectTransparency.types false in
/-- Region 2 over the thread state: entered from every unscoped buffer at `W3`, left at `W4`: its arrays
    split out of the unscoped buffers and put back at what the write-backs leave; the generator register into the
    invariant and out; nothing owed; no semaphore of the kernel's own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2x (Vr3 m ρ) (hloc _) c
  hwaits := Pipeline.hwaits_of_owed_zero _ _ _ _ L lv 2 fun _ _ => rfl
  pre c := iprop(StableHlo.held (c : Thread nD τ) (Pipeline.ucRefs τ sig) (W3 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Vr3 m ρ c) (Vr4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segsH : List (Pipeline.Seg (pcfgs (F := F)) admH (pdats m ρ) () defs₀ 𝒱₀ L lv) :=
  [ .host (hseg hostOps0 hostOps0_sub hostOps0_fresh' (W0 m ρ)),
    .region (reg0 m ρ),
    .region (reg1 m ρ),
    .region (reg2 m ρ hloc) ]
theorem main_run (c : Dev nD) : main (F := F) c = Pipeline.Seg.run (segsH m ρ hloc) := (main_chain c).trans (by chain_rfl)

include hloc in
set_option backward.isDefEq.respectTransparency.types false in
/-- Every weakly fair execution of @main from memory `m` with zero counters terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segsH m ρ hloc)
    (fun c Q => by rw [main_run m ρ hloc c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Gen

end
-- ==== Proof.KIArgs.lean ====
import proofs.«123336_j4191888081208_2_alg».proof.Proof.Gen.KernelIdeal.Launch
import proofs.«123336_j4191888081208_2_alg».proof.Proof.Gen.KernelIdeal.Skeleton
import proofs.«123336_j4191888081208_2_alg».proof.Proof.Gen.KernelIdeal.Points
import proofs.«123336_j4191888081208_2_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What each boundary holds at the arguments and at the buffers the regions pass on

No host operation and no region writes an argument: a region reads it through an input window, whose array the
write-backs never touch, or does not name it. So every boundary's contents at an argument are the launch contents. -/

/-- The two reshapes write the reshaped bias rows only. -/
theorem W1_keep (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))).trans rfl

theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Vr1 m ρ) c).arrAt_in w hw _).trans (A_eq0 (Vr1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (Vr2 m ρ) c).arrAt_in w hw _).trans (A_eq1 (Vr2 m ρ) c w))
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (Vr3 m ρ) c).arrAt_in w hw _).trans (A_eq2 (Vr3 m ρ) c w))

/-! ## The arguments at region 1's entry, region 2's entry and the end -/

theorem W2_main_arg0 (c : Dev nD) : W2 m ρ c (Proc.devRef .tc main_arg0) = m ((c : Thread nD τ).loc main_arg0) :=
  (W2_in m ρ c 0 rfl).trans (W1_keep m ρ c main_arg0 (by decide) (by decide))
theorem W2_main_arg1 (c : Dev nD) : W2 m ρ c (Proc.devRef .tc main_arg1) = m ((c : Thread nD τ).loc main_arg1) :=
  (W2_in m ρ c 1 rfl).trans (W1_keep m ρ c main_arg1 (by decide) (by decide))
theorem W2_main_arg2 (c : Dev nD) : W2 m ρ c (Proc.devRef .tc main_arg2) = m ((c : Thread nD τ).loc main_arg2) :=
  (W2_in m ρ c 2 rfl).trans (W1_keep m ρ c main_arg2 (by decide) (by decide))
theorem W2_main_arg3 (c : Dev nD) : W2 m ρ c (Proc.devRef .tc main_arg3) = m ((c : Thread nD τ).loc main_arg3) :=
  (W2_of_ne m ρ c main_arg3 (by decide)).trans (W1_keep m ρ c main_arg3 (by decide) (by decide))
theorem W2_main_arg4 (c : Dev nD) : W2 m ρ c (Proc.devRef .tc main_arg4) = m ((c : Thread nD τ).loc main_arg4) :=
  (W2_of_ne m ρ c main_arg4 (by decide)).trans (W1_keep m ρ c main_arg4 (by decide) (by decide))
theorem W2_main_arg5 (c : Dev nD) : W2 m ρ c (Proc.devRef .tc main_arg5) = m ((c : Thread nD τ).loc main_arg5) :=
  (W2_of_ne m ρ c main_arg5 (by decide)).trans (W1_keep m ρ c main_arg5 (by decide) (by decide))
theorem W2_main_arg6 (c : Dev nD) : W2 m ρ c (Proc.devRef .tc main_arg6) = m ((c : Thread nD τ).loc main_arg6) :=
  (W2_of_ne m ρ c main_arg6 (by decide)).trans (W1_keep m ρ c main_arg6 (by decide) (by decide))

theorem W3_main_arg0 (c : Dev nD) : W3 m ρ c (Proc.devRef .tc main_arg0) = m ((c : Thread nD τ).loc main_arg0) :=
  (W3_in m ρ c 0 rfl).trans (W2_main_arg0 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  (W3_in m ρ c 1 rfl).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W3_main_arg6 (c : Dev nD) : W3 m ρ c (Proc.devRef .tc main_arg6) = m ((c : Thread nD τ).loc main_arg6) :=
  (W3_of_ne m ρ c main_arg6 (by decide)).trans (W2_main_arg6 m ρ c)

theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W4_main_arg6 (c : Dev nD) : W4 m ρ c (Proc.devRef .tc main_arg6) = m ((c : Thread nD τ).loc main_arg6) :=
  (W4_in m ρ c 1 rfl).trans (W3_main_arg6 m ρ c)

end Cert.KernelIdeal.Gen

end
-- ==== Proof.Spec.lean ====
/-
  The two whole-array readings of the classifier, index by index on the extended reals.

  Inputs (as curried functions of their coordinates): the features `X` (64 × 2048), the class centroids `C`
  (1000 × 2048), the memory read-out weights `WH`, `BH`, the selector weights `WS`, `BS`, the cosine
  classifier's weights `W`. The four float literals both programs carry (1, 2, 10, 16) are parameters here, so that
  no word is evaluated in this module.

  Shared by both readings: the read-out logits and their softmax numerators `p` and denominator `l`, the selector
  `sel`, and the unit rows `ew` of `W`.
  The reference-shaped reading (`…R`) normalises the softmax before the product with the centroids, takes the
  distance to a centroid as the root of the sum of squared differences and its minimum afterwards, and scales a
  feature row by `n / (1 + n)` times the row over its norm `n`.
  The kernel-shaped reading (`…K`) divides the product with the centroids by the softmax denominator, expands the
  squared distance as `‖x‖² + ‖c‖² − 2 x·c` clamped at zero with the root after the minimum, and divides a feature
  row by `1 + n`.
-/
import Idealize.ShloMosaic.PureOps.Ideal

noncomputable section

namespace Cert.Spec

open Idealize.ShloMosaic

variable (one two ten sixteen : EReal)
variable (X : Fin 64 → Fin 2048 → EReal) (C WH : Fin 1000 → Fin 2048 → EReal) (BH : Fin 1000 → EReal)
  (WS : Fin 2048 → Fin 2048 → EReal) (BS : Fin 2048 → EReal) (W : Fin 1000 → Fin 2048 → EReal)

/-! ## Shared -/

/-- The read-out logit of sample `b` for class `c`. -/
def logit (b : Fin 64) (c : Fin 1000) : EReal := (∑ f, X b f * WH c f) + BH c
/-- The largest logit of sample `b`. -/
def mx (b : Fin 64) : EReal := Finset.univ.sup (logit X WH BH b)
/-- The softmax numerator. -/
def p (b : Fin 64) (c : Fin 1000) : EReal := Ideal.exp (logit X WH BH b c - mx X WH BH b)
/-- The softmax denominator. -/
def l (b : Fin 64) : EReal := ∑ c, p X WH BH b c
/-- The concept selector. -/
def sel (b : Fin 64) (f : Fin 2048) : EReal := Ideal.tanh ((∑ g, X b g * WS f g) + BS f)
/-- The norm of class `c`'s classifier row. -/
def wn (c : Fin 1000) : EReal := Ideal.sqrt (∑ f, W c f * W c f)
/-- The classifier row over its norm. -/
def ew (c : Fin 1000) (f : Fin 2048) : EReal := Ideal.div (W c f) (wn W c)

/-! ## The reference-shaped reading -/

def memR (b : Fin 64) (f : Fin 2048) : EReal := ∑ c, Ideal.div (p X WH BH b c) (l X WH BH b) * C c f
def distR (b : Fin 64) (c : Fin 1000) : EReal := Ideal.sqrt (∑ f, (X b f - C c f) * (X b f - C c f))
def reachR (b : Fin 64) : EReal := Ideal.div ten (Finset.univ.inf (distR X C b))
def infR (b : Fin 64) (f : Fin 2048) : EReal := sel X WS BS b f * memR X C WH BH b f
def featR (b : Fin 64) (f : Fin 2048) : EReal := reachR ten X C b * (X b f + infR X C WH BH WS BS b f)
def nR (b : Fin 64) : EReal := Ideal.sqrt (∑ f, featR ten X C WH BH WS BS b f * featR ten X C WH BH WS BS b f)
def exR (b : Fin 64) (f : Fin 2048) : EReal :=
  Ideal.div (nR ten X C WH BH WS BS b) (one + nR ten X C WH BH WS BS b)
    * Ideal.div (featR ten X C WH BH WS BS b f) (nR ten X C WH BH WS BS b)
def logitsR (b : Fin 64) (c : Fin 1000) : EReal := ∑ f, exR one ten X C WH BH WS BS b f * (ew W c f * sixteen)

/-! ## The kernel-shaped reading -/

def memK (b : Fin 64) (f : Fin 2048) : EReal := Ideal.div (∑ c, p X WH BH b c * C c f) (l X WH BH b)
def dist2K (b : Fin 64) (c : Fin 1000) : EReal :=
  max (((∑ f, X b f * X b f) + (∑ f, C c f * C c f)) - two * (∑ f, X b f * C c f)) 0
def reachK (b : Fin 64) : EReal := Ideal.div ten (Ideal.sqrt (Finset.univ.inf (dist2K two X C b)))
def infK (b : Fin 64) (f : Fin 2048) : EReal := sel X WS BS b f * memK X C WH BH b f
def featK (b : Fin 64) (f : Fin 2048) : EReal := reachK two ten X C b * (X b f + infK X C WH BH WS BS b f)
def nK (b : Fin 64) : EReal := Ideal.sqrt (∑ f, featK two ten X C WH BH WS BS b f * featK two ten X C WH BH WS BS b f)
def exK (b : Fin 64) (f : Fin 2048) : EReal :=
  Ideal.div (featK two ten X C WH BH WS BS b f) (one + nK two ten X C WH BH WS BS b)
def logitsK (b : Fin 64) (c : Fin 1000) : EReal := ∑ f, (exK one two ten X C WH BH WS BS b f * sixteen) * ew W c f

end Cert.Spec

end
-- ==== Proof.KernelPayB.lean ====
/-
  The arithmetic of the kernel bodies, read at one index on the extended reals: the general readings, and the selector's
  and the cosine classifier's bodies.

  Each body computes its stored values as one pure term over the vectors it loads. This module reads such terms at a
  single index written by its coordinates: a product of matrices into a zero accumulator is the sum over the contracted
  axis of the products of the operands' entries, a reduction along the lanes is the sum (or the supremum, or the
  infimum) over the lane coordinate, a change of float format is the identity, and the keep-dimensions columns and the
  broadcasts only rename coordinates.
-/
import proofs.«123336_j4191888081208_2_alg».proof.Proof.Spec
import proofs.«123336_j4191888081208_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic ValueIdx
open Cert.KernelIdeal Cert.KernelIdeal.Gen

/-! ## Pointwise operations and literal words -/

section Pointwise
variable {s : Shape} {φ : FTy}

theorem sqrt_apply (x : FVec Ideal s φ) (i : s.Idx) : sqrt x i = Ideal.sqrt (x i) := rfl
theorem exp_apply (x : FVec Ideal s φ) (i : s.Idx) : exp x i = Ideal.exp (x i) := rfl
theorem tanh_apply (x : FVec Ideal s φ) (i : s.Idx) : tanh x i = Ideal.tanh (x i) := rfl

/-- A scalar literal of a body is, on the extended reals, what its word denotes. -/
theorem scalar_ofBits (b : BitVec φ.bits) : Scalar.ofBits (F := Ideal) φ b = Ideal.ofBits φ b := rfl

end Pointwise

/-! ## Columns that keep a unit axis -/

section Layout
variable {α : Type}

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## Matrix products into a zero accumulator -/

section Dot
variable {m n k : ℕ}

/-- Rows against rows: with both operands contracted over their second axis, the left operand's row is the result's
    row. -/
theorem dotRows_lhs0 (D : DotDims ⟨2, ![m, k]⟩ ⟨2, ![n, k]⟩ ⟨2, ![m, n]⟩) (hlb : D.lhsBatch = []) (hln : D.lhsNonContracting = [0])
    (j : (⟨2, ![m, n]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln])

/-- … and the right operand's row is the result's column. -/
theorem dotRows_rhs0 (D : DotDims ⟨2, ![m, k]⟩ ⟨2, ![n, k]⟩ ⟨2, ![m, n]⟩) (hlb : D.lhsBatch = []) (hln : D.lhsNonContracting = [0])
    (hrb : D.rhsBatch = []) (hrn : D.rhsNonContracting = [0])
    (j : (⟨2, ![m, n]⟩ : Shape).Idx) (q : D.contr.Idx) : (D.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln, hrn])

/-- A product of rows against rows into the zero accumulator, at `(b, c)`: the sum over the contracted coordinate of the
    left operand's row `b` times the right operand's row `c`. -/
theorem matmulRows_apply (D : DotDims ⟨2, ![m, k]⟩ ⟨2, ![n, k]⟩ ⟨2, ![m, n]⟩)
    (hlb : D.lhsBatch = []) (hln : D.lhsNonContracting = [0]) (hlc : D.lhsContracting = [1])
    (hrb : D.rhsBatch = []) (hrn : D.rhsNonContracting = [0]) (hrc : D.rhsContracting = [1])
    {φ₁ φ₂ : FTy} (l : FVec Ideal ⟨2, ![m, k]⟩ φ₁) (r : FVec Ideal ⟨2, ![n, k]⟩ φ₂) (b : Fin m) (c : Fin n) :
    matmul D none l r (constant (F := Ideal) ⟨2, ![m, n]⟩ .f32 0x00000000#32) (ix2 b c) = ∑ g : Fin k, l (ix2 b g) * r (ix2 c g) := by
  have hr : D.contr.rank = 1 := by rw [D.rank_contr, hlc]; rfl
  have hs : D.contr.size ⟨0, by omega⟩ = k := (D.size_contr 0 (by rw [hlc]; exact Nat.one_pos)).trans (by simp [hlc])
  refine (Ideal.matmul_constant_zero_apply D none l r (ix2 b c)).trans ?_
  rw [← Equiv.sum_comp (contrEquiv1 D k hr hs).symm]
  refine Finset.sum_congr rfl fun g _ => ?_
  have hg := contrEquiv1_symm_val D k hr hs g
  have el : D.lhsIdx (ix2 b c) ((contrEquiv1 D k hr hs).symm g) = ix2 b g := funext fun a => Fin.ext (by
    match a with
    | ⟨0, _⟩ => exact dotRows_lhs0 D hlb hln _ _
    | ⟨1, _⟩ => exact (D.lhsIdx_val_of_single hlc _ _).trans hg)
  have er : D.rhsIdx (ix2 b c) ((contrEquiv1 D k hr hs).symm g) = ix2 c g := funext fun a => Fin.ext (by
    match a with
    | ⟨0, _⟩ => exact dotRows_rhs0 D hlb hln hrb hrn _ _
    | ⟨1, _⟩ => exact (D.rhsIdx_val_of_single hrc _ _).trans hg)
  rw [el, er]

/-- … and, for rows against columns, the right operand's column is the result's column. -/
theorem dotCols_rhs1 (D : DotDims ⟨2, ![m, k]⟩ ⟨2, ![k, n]⟩ ⟨2, ![m, n]⟩) (hlb : D.lhsBatch = []) (hln : D.lhsNonContracting = [0])
    (hrb : D.rhsBatch = []) (hrn : D.rhsNonContracting = [1])
    (j : (⟨2, ![m, n]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln, hrn])

theorem dotCols_lhs0 (D : DotDims ⟨2, ![m, k]⟩ ⟨2, ![k, n]⟩ ⟨2, ![m, n]⟩) (hlb : D.lhsBatch = []) (hln : D.lhsNonContracting = [0])
    (j : (⟨2, ![m, n]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln])

/-- A product of rows against columns into the zero accumulator, at `(b, c)`: the sum over the contracted coordinate of
    the left operand's row `b` times the right operand's column `c`. -/
theorem matmulCols_apply (D : DotDims ⟨2, ![m, k]⟩ ⟨2, ![k, n]⟩ ⟨2, ![m, n]⟩)
    (hlb : D.lhsBatch = []) (hln : D.lhsNonContracting = [0]) (hlc : D.lhsContracting = [1])
    (hrb : D.rhsBatch = []) (hrn : D.rhsNonContracting = [1]) (hrc : D.rhsContracting = [0])
    {φ₁ φ₂ : FTy} (l : FVec Ideal ⟨2, ![m, k]⟩ φ₁) (r : FVec Ideal ⟨2, ![k, n]⟩ φ₂) (b : Fin m) (c : Fin n) :
    matmul D none l r (constant (F := Ideal) ⟨2, ![m, n]⟩ .f32 0x00000000#32) (ix2 b c) = ∑ g : Fin k, l (ix2 b g) * r (ix2 g c) := by
  have hr : D.contr.rank = 1 := by rw [D.rank_contr, hlc]; rfl
  have hs : D.contr.size ⟨0, by omega⟩ = k := (D.size_contr 0 (by rw [hlc]; exact Nat.one_pos)).trans (by simp [hlc])
  refine (Ideal.matmul_constant_zero_apply D none l r (ix2 b c)).trans ?_
  rw [← Equiv.sum_comp (contrEquiv1 D k hr hs).symm]
  refine Finset.sum_congr rfl fun g _ => ?_
  have hg := contrEquiv1_symm_val D k hr hs g
  have el : D.lhsIdx (ix2 b c) ((contrEquiv1 D k hr hs).symm g) = ix2 b g := funext fun a => Fin.ext (by
    match a with
    | ⟨0, _⟩ => exact dotCols_lhs0 D hlb hln _ _
    | ⟨1, _⟩ => exact (D.lhsIdx_val_of_single hlc _ _).trans hg)
  have er : D.rhsIdx (ix2 b c) ((contrEquiv1 D k hr hs).symm g) = ix2 g c := funext fun a => Fin.ext (by
    match a with
    | ⟨0, _⟩ => exact (D.rhsIdx_val_of_single hrc _ _).trans hg
    | ⟨1, _⟩ => exact dotCols_rhs1 D hlb hln hrb hrn _ _)
  rw [el, er]

end Dot

/-! ## Reductions along the lanes -/

section Lanes
variable {a n : ℕ}

/-- The index of row `p` with lane `g` put back. -/
theorem lift_lane (h : (⟨2, ![a, n]⟩ : Shape).Reduces [1] ⟨1, ![a]⟩) (p : Fin a) (g : Fin n) :
    h.lift (ix1 p) g = ix2 p g :=
  funext fun c => Fin.ext (by match c with | ⟨0, _⟩ => rfl | ⟨1, _⟩ => rfl)

/-- A sum along the lanes, at row `p`: the sum over the lane coordinate. -/
theorem laneSum_apply (src : FVec Ideal ⟨2, ![a, n]⟩ .f32) (h : (⟨2, ![a, n]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ g : Fin n, src (ix2 p g) := by
  refine (Ideal.multiReduction_add_single src 0x00000000#32 h hφ hacc (ix1 p)).trans ?_
  exact Finset.sum_congr rfl fun g _ => congrArg src (lift_lane h p g)

end Lanes

/-- The accumulator words of the two order reductions denote the bottom and the top of the extended reals. -/
theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

section LaneOrder
variable {a n : ℕ}

/-- A maximum along the lanes from the bottom, at row `p`: the supremum over the lane coordinate. -/
theorem laneMax_apply (src : FVec Ideal ⟨2, ![a, n]⟩ .f32) (h : (⟨2, ![a, n]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = Finset.univ.sup fun g : Fin n => src (ix2 p g) := by
  refine (Ideal.multiReduction_maximumf_single src 0xFF800000#32 h hφ hacc (ix1 p)).trans ?_
  have hf : (src ∘ h.lift (ix1 p)) = fun g : Fin n => src (ix2 p g) := funext fun g => congrArg src (lift_lane h p g)
  rw [hf, Ideal.ofBits_def, ofBits_negInf]
  rfl

/-- A minimum along the lanes from the top, at row `p`: the infimum over the lane coordinate. -/
theorem laneMin_apply (src : FVec Ideal ⟨2, ![a, n]⟩ .f32) (h : (⟨2, ![a, n]⟩ : Shape).Reduces [1] ⟨1, ![a]⟩)
    (hφ : FKind.Formats .f32) (hacc : (0x7F800000#32 : BitVec 32) = 0x7F800000#32) (p : Fin a) :
    multiReduction .minimumf [1] ⟨1, ![a]⟩ src 0x7F800000#32 h hφ hacc (ix1 p)
      = Finset.univ.inf fun g : Fin n => src (ix2 p g) := by
  refine (multiReduction_minimumf_eq_fold src 0x7F800000#32 h hφ hacc (ix1 p)).trans ?_
  refine (h.fold_filter_drop_single _ _ src (ix1 p)).trans ?_
  have hf : (src ∘ h.lift (ix1 p)) = fun g : Fin n => src (ix2 p g) := funext fun g => congrArg src (lift_lane h p g)
  rw [hf, Ideal.ofBits_def, ofBits_posInf]
  rfl

end LaneOrder

/-- The bf16 word of one denotes one. -/
theorem ofBits_bf16_one : Ideal.ofBits .bf16 0x3F80#16 = 1 := IdealRules.sign_bit.ideal_onePat .bf16

/-! ## The selector body -/

/-- The selector times the memory read-out, at sample `b` and feature `q` of the body's block of 1024 features. -/
theorem k1_pay1_apply (v2 : Vec Ideal S64x2048 .f32) (v3 : Vec Ideal S1024x2048 .f32) (v4 : Vec Ideal S1x1024 .f32)
    (v15 : Vec Ideal S64x1024 .f32) (b : Fin 64) (q : Fin 1024) :
    k1_pay1 (F := Ideal) v2 v3 v4 v15 (ix2 b q)
      = Ideal.tanh ((∑ g : Fin 2048, v2 (ix2 b g) * v3 (ix2 q g)) + v4 (ix2 0 q)) * v15 (ix2 b q) := by
  unfold k1_pay1
  show Ideal.tanh (matmul dot_S64x2048_S1024x2048_S64x1024_1_1_0_0_n_n none (truncf .bf16 v2 bitsLt_bf16_f32) (truncf .bf16 v3 bitsLt_bf16_f32) (constant (F := Ideal) S64x1024 .f32 0x00000000#32) (ix2 b q)
      + broadcastTo S64x1024 (shapeCast S1x1024 v4 shapeCasts_S1x1024_S1x1024) broadcasts_S1x1024_S64x1024 (ix2 b q))
        * shapeCast S64x1024 v15 shapeCasts_S64x1024_S64x1024 (ix2 b q) = _
  rw [shapeCast_self, shapeCast_self, matmulRows_apply _ rfl rfl rfl rfl rfl rfl, broadcastTo_1b_ab_apply]
  rfl

/-- The scaled feature: the reach factor of sample `b` times the feature plus its infusion. -/
theorem k1_pay2_apply (v2 : Vec Ideal S64x2048 .f32) (v3 : Vec Ideal S1024x2048 .f32) (v4 : Vec Ideal S1x1024 .f32)
    (v6 : Vec Ideal S64x1 .f32) (v15 v18 : Vec Ideal S64x1024 .f32) (b : Fin 64) (q : Fin 1024) :
    k1_pay2 (F := Ideal) v2 v3 v4 v6 v15 v18 (ix2 b q)
      = v6 (ix2 b 0) * (v18 (ix2 b q) + k1_pay1 (F := Ideal) v2 v3 v4 v15 (ix2 b q)) := by
  unfold k1_pay2
  show broadcastTo S64x1024 (shapeCast S64x1 v6 shapeCasts_S64x1_S64x1) broadcasts_S64x1_S64x1024 (ix2 b q)
      * (v18 (ix2 b q) + k1_pay1 (F := Ideal) v2 v3 v4 v15 (ix2 b q)) = _
  rw [shapeCast_self, broadcastTo_a1_ab_apply]

/-! ## The cosine classifier's body -/

/-- The scaled unit feature row against the unit classifier row, at sample `b` and class `q` of the body's block of 512
    classes. -/
theorem k2_pay1_apply (v0 : Vec Ideal S64x2048 .f32) (v2 : Vec Ideal S512x2048 .f32) (b : Fin 64) (q : Fin 512) :
    k2_pay1 (F := Ideal) v0 v2 (ix2 b q)
      = ∑ f : Fin 2048, (Ideal.div (v0 (ix2 b f)) (Ideal.ofBits .f32 0x3F800000#32 + Ideal.sqrt (∑ g : Fin 2048, v0 (ix2 b g) * v0 (ix2 b g))) * Ideal.ofBits .f32 0x41800000#32)
          * Ideal.div (v2 (ix2 q f)) (Ideal.sqrt (∑ g : Fin 2048, v2 (ix2 q g) * v2 (ix2 q g))) := by
  unfold k2_pay1
  refine (matmulRows_apply dot_S64x2048_S512x2048_S64x512_1_1_0_0_n_n rfl rfl rfl rfl rfl rfl _ _ b q).trans ?_
  refine Finset.sum_congr rfl fun f _ => ?_
  simp only [truncf_apply, mulf_apply, divf_apply, addf_apply, broadcast_apply, shapeCast_self, broadcastTo_a1_ab_apply,
    sqrt_apply, shapeCast_a_a1_apply, scalar_ofBits]
  rw [laneSum_apply (mulf v0 v0) reduces_S64x2048_S64 _ _ b, laneSum_apply (mulf v2 v2) reduces_S512x2048_S512 _ _ q]
  rfl

end Cert.KernelIdeal.PayValue

end
-- ==== Proof.KernelPay.lean ====
/-
  The arithmetic of the memory body, read at one index on the extended reals.

  The body forms the read-out logits (features against read-out weights, plus a bias row), their softmax numerators
  (the exponential of each logit less its row's maximum) and the row sums of the numerators; its memory read-out is the
  product of the numerators with the centroids divided by the row sum. Its reach factor is ten over the root of the
  row minimum of the squared distances to the centroids, each expanded as `‖x‖² + ‖c‖² − 2 x·c` and kept at or above
  zero.
-/
import proofs.«123336_j4191888081208_2_alg».proof.Proof.KernelPayB

noncomputable section

namespace Cert.KernelIdeal.PayValue

open Idealize.ShloMosaic ValueIdx
open Cert.KernelIdeal Cert.KernelIdeal.Gen

/-! ## The memory body: the read-out and its softmax -/

/-- The read-out logits as the body computes them: the features against the read-out weights, plus the bias row. -/
def logitsV (v0 : Vec Ideal S64x2048 .f32) (v2 : Vec Ideal S1000x2048 .f32) (v3 : Vec Ideal S1x1000 .f32) : FVec Ideal S64x1000 .f32 :=
  addf (matmul dot_S64x2048_S1000x2048_S64x1000_1_1_0_0_n_n none (truncf .bf16 v0 bitsLt_bf16_f32) (truncf .bf16 v2 bitsLt_bf16_f32)
      (constant (F := Ideal) S64x1000 .f32 0x00000000#32))
    (broadcastTo S64x1000 (shapeCast S1x1000 v3 shapeCasts_S1x1000_S1x1000) broadcasts_S1x1000_S64x1000)

theorem logitsV_apply (v0 : Vec Ideal S64x2048 .f32) (v2 : Vec Ideal S1000x2048 .f32) (v3 : Vec Ideal S1x1000 .f32)
    (b : Fin 64) (c : Fin 1000) :
    logitsV v0 v2 v3 (ix2 b c)
      = Cert.Spec.logit (fun b f => v0 (ix2 b f)) (fun c f => v2 (ix2 c f)) (fun c => v3 (ix2 0 c)) b c := by
  unfold logitsV Cert.Spec.logit
  refine (addf_apply _ _ _).trans ?_
  rw [matmulRows_apply _ rfl rfl rfl rfl rfl rfl, shapeCast_self, broadcastTo_1b_ab_apply]
  rfl

/-- The softmax numerators as the body computes them: the exponential of each logit less its row's maximum. -/
def expV (v0 : Vec Ideal S64x2048 .f32) (v2 : Vec Ideal S1000x2048 .f32) (v3 : Vec Ideal S1x1000 .f32) : FVec Ideal S64x1000 .f32 :=
  exp (subf (logitsV v0 v2 v3)
    (broadcastTo S64x1000 (shapeCast S64x1 (multiReduction (F := Ideal) .maximumf [1] S64 (logitsV v0 v2 v3) 0xFF800000#32 reduces_S64x1000_S64 (.inl rfl) rfl)
      shapeCasts_S64_S64x1) broadcasts_S64x1_S64x1000))

theorem expV_apply (v0 : Vec Ideal S64x2048 .f32) (v2 : Vec Ideal S1000x2048 .f32) (v3 : Vec Ideal S1x1000 .f32)
    (b : Fin 64) (c : Fin 1000) :
    expV v0 v2 v3 (ix2 b c)
      = Cert.Spec.p (fun b f => v0 (ix2 b f)) (fun c f => v2 (ix2 c f)) (fun c => v3 (ix2 0 c)) b c := by
  unfold expV Cert.Spec.p Cert.Spec.mx
  refine (exp_apply _ _).trans (congrArg Ideal.exp ?_)
  refine (subf_apply _ _ _).trans ?_
  rw [logitsV_apply, broadcastTo_a1_ab_apply, shapeCast_a_a1_apply, laneMax_apply]
  exact congrArg (_ - ·) (congrArg (Finset.sup Finset.univ) (funext fun g => logitsV_apply v0 v2 v3 b g))

/-- The body's memory read-out is the product of the numerators with the centroids over their row sum. -/
theorem k0_pay4_eq (v0 : Vec Ideal S64x2048 .f32) (v1 v2 : Vec Ideal S1000x2048 .f32) (v3 : Vec Ideal S1x1000 .f32) :
    k0_pay4 (F := Ideal) v0 v1 v2 v3
      = divf (matmul dot_S64x1000_S1000x2048_S64x2048_1_0_0_1_n_n none (truncf .bf16 (expV v0 v2 v3) bitsLt_bf16_f32) (truncf .bf16 v1 bitsLt_bf16_f32)
            (constant (F := Ideal) S64x2048 .f32 0x00000000#32))
          (broadcastTo S64x2048 (shapeCast S64x1 (multiReduction (F := Ideal) .add [1] S64 (expV v0 v2 v3) 0x00000000#32 reduces_S64x1000_S64 (.inl rfl) rfl)
            shapeCasts_S64_S64x1) broadcasts_S64x1_S64x2048) := rfl

/-- The memory read-out at sample `b` and feature `f`. -/
theorem pay4_apply (v0 : Vec Ideal S64x2048 .f32) (v1 v2 : Vec Ideal S1000x2048 .f32) (v3 : Vec Ideal S1x1000 .f32)
    (b : Fin 64) (f : Fin 2048) :
    k0_pay4 (F := Ideal) v0 v1 v2 v3 (ix2 b f)
      = Cert.Spec.memK (fun b f => v0 (ix2 b f)) (fun c f => v1 (ix2 c f)) (fun c f => v2 (ix2 c f)) (fun c => v3 (ix2 0 c)) b f := by
  rw [k0_pay4_eq]
  unfold Cert.Spec.memK Cert.Spec.l
  refine (divf_apply _ _ _).trans ?_
  rw [matmulCols_apply _ rfl rfl rfl rfl rfl rfl, broadcastTo_a1_ab_apply, shapeCast_a_a1_apply, laneSum_apply]
  refine congrArg₂ Ideal.div (Finset.sum_congr rfl fun c _ => ?_) (Finset.sum_congr rfl fun c _ => expV_apply v0 v2 v3 b c)
  exact congrArg (· * v1 (ix2 c f)) (expV_apply v0 v2 v3 b c)

/-! ## The memory body: the reach factor -/

/-- The clamped squared distances as the body computes them: `‖x‖² + ‖c‖² − 2 x·c`, not below zero; the centroid norms
    come out of a product of a row of ones with the squared centroids. -/
def dist2V (v0 : Vec Ideal S64x2048 .f32) (v1 : Vec Ideal S1000x2048 .f32) : FVec Ideal S64x1000 .f32 :=
  maximumf
    (subf
      (addf
        (broadcastTo S64x1000 (shapeCast S64x1 (multiReduction (F := Ideal) .add [1] S64 (mulf v0 v0) 0x00000000#32 reduces_S64x2048_S64 (.inl rfl) rfl)
          shapeCasts_S64_S64x1) broadcasts_S64x1_S64x1000)
        (broadcastTo S64x1000
          (matmul dot_S1x2048_S1000x2048_S1x1000_1_1_0_0_n_n none (broadcast S1x2048 (Scalar.ofBits (F := Ideal) .bf16 0x3F80#16))
            (mulf (truncf .bf16 v1 bitsLt_bf16_f32) (truncf .bf16 v1 bitsLt_bf16_f32)) (constant (F := Ideal) S1x1000 .f32 0x00000000#32))
          broadcasts_S1x1000_S64x1000))
      (mulf (broadcast S64x1000 (Scalar.ofBits (F := Ideal) .f32 0x40000000#32))
        (matmul dot_S64x2048_S1000x2048_S64x1000_1_1_0_0_n_n none (truncf .bf16 v0 bitsLt_bf16_f32) (truncf .bf16 v1 bitsLt_bf16_f32)
          (constant (F := Ideal) S64x1000 .f32 0x00000000#32))))
    (broadcast S64x1000 (Scalar.ofBits (F := Ideal) .f32 0x00000000#32))

theorem dist2V_apply (v0 : Vec Ideal S64x2048 .f32) (v1 : Vec Ideal S1000x2048 .f32) (b : Fin 64) (c : Fin 1000) :
    dist2V v0 v1 (ix2 b c)
      = Cert.Spec.dist2K (Ideal.ofBits .f32 0x40000000#32) (fun b f => v0 (ix2 b f)) (fun c f => v1 (ix2 c f)) b c := by
  unfold dist2V Cert.Spec.dist2K
  refine (maximumf_apply _ _ _).trans ?_
  refine congrArg₂ max ?_ (by rw [broadcast_apply, scalar_ofBits, Ideal.ofBits_zero_f32])
  refine (subf_apply _ _ _).trans ?_
  refine congrArg₂ (· - ·) ?_ ?_
  · refine (addf_apply _ _ _).trans ?_
    refine congrArg₂ (· + ·) ?_ ?_
    · rw [broadcastTo_a1_ab_apply, shapeCast_a_a1_apply, laneSum_apply]
      rfl
    · rw [broadcastTo_1b_ab_apply, matmulRows_apply _ rfl rfl rfl rfl rfl rfl]
      refine Finset.sum_congr rfl fun g _ => ?_
      rw [broadcast_apply, scalar_ofBits, ofBits_bf16_one, one_mul]
      rfl
  · refine (mulf_apply _ _ _).trans ?_
    rw [broadcast_apply, scalar_ofBits, matmulRows_apply _ rfl rfl rfl rfl rfl rfl]
    rfl

/-- The body's distance column is the root of the row minimum of the clamped squared distances. -/
theorem k0_pay5_eq (v0 : Vec Ideal S64x2048 .f32) (v1 : Vec Ideal S1000x2048 .f32) :
    k0_pay5 (F := Ideal) v0 v1
      = sqrt (shapeCast S64x1 (multiReduction (F := Ideal) .minimumf [1] S64 (dist2V v0 v1) 0x7F800000#32 reduces_S64x1000_S64 (.inl rfl) rfl)
          shapeCasts_S64_S64x1) := rfl

/-- The reach factor of sample `b`: ten over the distance to the nearest centroid. -/
theorem reach_apply (v0 : Vec Ideal S64x2048 .f32) (v1 : Vec Ideal S1000x2048 .f32) (b : Fin 64) :
    k0_pay1 (F := Ideal) (k0_pay5 v0 v1) (ix2 b 0)
      = Cert.Spec.reachK (Ideal.ofBits .f32 0x40000000#32) (Ideal.ofBits .f32 0x41200000#32) (fun b f => v0 (ix2 b f)) (fun c f => v1 (ix2 c f)) b := by
  rw [k0_pay5_eq]
  unfold k0_pay1 Cert.Spec.reachK
  refine (divf_apply _ _ _).trans ?_
  rw [broadcast_apply, scalar_ofBits, sqrt_apply, shapeCast_a_a1_apply, laneMin_apply]
  exact congrArg (fun z => Ideal.div (Ideal.ofBits .f32 0x41200000#32) (Ideal.sqrt z))
    (congrArg (Finset.inf Finset.univ) (funext fun c => dist2V_apply v0 v1 b c))

end Cert.KernelIdeal.PayValue

end
-- ==== Proof.Final0.lean ====
/-
  What the memory region's two output arrays hold after the region, index by index.

  The region has one grid point and every window's block is its whole array, at block index zero on both axes. So each
  input block is its array as the region finds it, the one write-back of each output covers the whole array, and the
  array ends holding the body's stored value of the input arrays: the memory read-out, and the reach column.
-/
import proofs.«123336_j4191888081208_2_alg».proof.Proof.KIRegions
import proofs.«123336_j4191888081208_2_alg».proof.Proof.Spec
import proofs.«123336_j4191888081208_2_alg».proof.Proof.KernelPay
import Idealize.ShloMosaic.Lib.Pipeline.Value
import Idealize.ShloMosaic.Lib.ValueIdx

noncomputable section

namespace Cert.KernelIdeal.Final

open Idealize.ShloMosaic Idealize.ShloMosaic.TcCoe Idealize.SL.Sem ValueIdx
open Idealize.ShloMosaic.Pipeline (Dat)
open Cert.KernelIdeal Cert.KernelIdeal.Gen Cert.KernelIdeal.PayValue

variable (V : (c : Dev nD) → (b : Ref sig .tc) → Buf (Elt Ideal) ((c : Thread nD τ).loc b))

theorem hz0 : (![0, 0] : Fin 2 → Nat) = fun _ => 0 := funext fun a => by fin_cases a <;> rfl

/-- Every window's one block sits at block index zero on both axes. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Each input block is its array -/

theorem iblk0_0_eq (c : Dev nD) (t : Fin cfg0.N) :
    (iblk0 V c 0 t : Vec Ideal S64x2048 .f32) = (V c main_arg0 : S64x2048.Idx → Elt Ideal .f32) := by
  obtain ⟨e0, e1, -⟩ := idx_facts0 t
  funext y
  unfold iblk0
  rw [View.read_apply]
  show V c main_arg0 _ = V c main_arg0 y
  refine congrArg (V c main_arg0) (funext fun a => Fin.ext ?_)
  match a with
  | ⟨0, _⟩ => show win0_0.index t (0 : Fin 2) * 64 + 1 * (y 0).val = (y 0).val; rw [e0]; omega
  | ⟨1, _⟩ => show win0_0.index t (1 : Fin 2) * 2048 + 1 * (y 1).val = (y 1).val; rw [e1]; omega

theorem iblk0_1_eq (c : Dev nD) (t : Fin cfg0.N) :
    (iblk0 V c 1 t : Vec Ideal S1000x2048 .f32) = (V c main_arg1 : S1000x2048.Idx → Elt Ideal .f32) := by
  obtain ⟨-, -, e0, e1, -⟩ := idx_facts0 t
  funext y
  unfold iblk0
  rw [View.read_apply]
  show V c main_arg1 _ = V c main_arg1 y
  refine congrArg (V c main_arg1) (funext fun a => Fin.ext ?_)
  match a with
  | ⟨0, _⟩ => show win0_1.index t (0 : Fin 2) * 1000 + 1 * (y 0).val = (y 0).val; rw [e0]; omega
  | ⟨1, _⟩ => show win0_1.index t (1 : Fin 2) * 2048 + 1 * (y 1).val = (y 1).val; rw [e1]; omega

theorem iblk0_2_eq (c : Dev nD) (t : Fin cfg0.N) :
    (iblk0 V c 2 t : Vec Ideal S1000x2048 .f32) = (V c main_arg2 : S1000x2048.Idx → Elt Ideal .f32) := by
  obtain ⟨-, -, -, -, e0, e1, -⟩ := idx_facts0 t
  funext y
  unfold iblk0
  rw [View.read_apply]
  show V c main_arg2 _ = V c main_arg2 y
  refine congrArg (V c main_arg2) (funext fun a => Fin.ext ?_)
  match a with
  | ⟨0, _⟩ => show win0_2.index t (0 : Fin 2) * 1000 + 1 * (y 0).val = (y 0).val; rw [e0]; omega
  | ⟨1, _⟩ => show win0_2.index t (1 : Fin 2) * 2048 + 1 * (y 1).val = (y 1).val; rw [e1]; omega

theorem iblk0_3_eq (c : Dev nD) (t : Fin cfg0.N) :
    (iblk0 V c 3 t : Vec Ideal S1x1000 .f32) = (V c main_v0 : S1x1000.Idx → Elt Ideal .f32) := by
  obtain ⟨-, -, -, -, -, -, e0, e1, -⟩ := idx_facts0 t
  funext y
  unfold iblk0
  rw [View.read_apply]
  show V c main_v0 _ = V c main_v0 y
  refine congrArg (V c main_v0) (funext fun a => Fin.ext ?_)
  match a with
  | ⟨0, _⟩ => show win0_3.index t (0 : Fin 2) * 1 + 1 * (y 0).val = (y 0).val; rw [e0]; omega
  | ⟨1, _⟩ => show win0_3.index t (1 : Fin 2) * 1000 + 1 * (y 1).val = (y 1).val; rw [e1]; omega

/-! ## The write-backs and the final arrays -/

/-- The memory read-out of the arrays as the region finds them. -/
abbrev G0_4 (c : Dev nD) : S64x2048.Idx → Elt Ideal .f32 :=
  k0_pay4 (F := Ideal) (V c main_arg0 : S64x2048.Idx → Elt Ideal .f32) (V c main_arg1 : S1000x2048.Idx → Elt Ideal .f32)
    (V c main_arg2 : S1000x2048.Idx → Elt Ideal .f32) (V c main_v0 : S1x1000.Idx → Elt Ideal .f32)

/-- The reach column of the arrays as the region finds them. -/
abbrev G0_5 (c : Dev nD) : S64x1.Idx → Elt Ideal .f32 :=
  k0_pay1 (F := Ideal) (k0_pay5 (V c main_arg0 : S64x2048.Idx → Elt Ideal .f32) (V c main_arg1 : S1000x2048.Idx → Elt Ideal .f32))

/-- What the point writes back to the memory array is its block of the read-out. -/
theorem flushed0_4_eq (c : Dev nD) (t : Fin cfg0.N) :
    (dat0 V c).flushed 4 t = ((cfg0.win 4).blk t).view.read (Elt Ideal) (G0_4 V c) := by
  obtain ⟨-, -, -, -, -, -, -, -, e0, e1, -⟩ := idx_facts0 t
  show (cfg0.win 4).cut (grid0.coords t) ((dat0 V c).after 4 t) = _
  rw [after0_4]
  unfold out0_4
  rw [View.canon_unit_zero hz0]
  simp only [View.ld_unit_zero (S := S64x2048) hz0, View.ld_unit_zero (S := S1000x2048) hz0, View.ld_unit_zero (S := S1x1000) hz0]
  rw [iblk0_0_eq, iblk0_1_eq, iblk0_2_eq, iblk0_3_eq]
  funext j
  show G0_4 V c j = G0_4 V c (((cfg0.win 4).blk t).view.emb j)
  refine congrArg (G0_4 V c) (funext fun a => Fin.ext ?_)
  match a with
  | ⟨0, _⟩ => show (j 0).val = win0_4.index t (0 : Fin 2) * 64 + 1 * (j 0).val; rw [e0]; omega
  | ⟨1, _⟩ => show (j 1).val = win0_4.index t (1 : Fin 2) * 2048 + 1 * (j 1).val; rw [e1]; omega

/-- What the point writes back to the reach array is its block of the reach column. -/
theorem flushed0_5_eq (c : Dev nD) (t : Fin cfg0.N) :
    (dat0 V c).flushed 5 t = ((cfg0.win 5).blk t).view.read (Elt Ideal) (G0_5 V c) := by
  obtain ⟨-, -, -, -, -, -, -, -, -, -, e0, e1⟩ := idx_facts0 t
  show (cfg0.win 5).cut (grid0.coords t) ((dat0 V c).after 5 t) = _
  rw [after0_5]
  unfold out0_5
  rw [View.canon_unit_zero hz0]
  simp only [View.ld_unit_zero (S := S64x2048) hz0, View.ld_unit_zero (S := S1000x2048) hz0]
  rw [iblk0_0_eq, iblk0_1_eq]
  funext j
  show G0_5 V c j = G0_5 V c (((cfg0.win 5).blk t).view.emb j)
  refine congrArg (G0_5 V c) (funext fun a => Fin.ext ?_)
  match a with
  | ⟨0, _⟩ => show (j 0).val = win0_5.index t (0 : Fin 2) * 64 + 1 * (j 0).val; rw [e0]; omega
  | ⟨1, _⟩ => show (j 1).val = win0_5.index t (1 : Fin 2) * 1 + 1 * (j 1).val; rw [e1]; omega

/-- An index of the memory array is in the point's block iff each coordinate is in the block's range on its axis. -/
theorem mem_blk0_4 (t : Fin cfg0.N) (i : S64x2048.Idx) :
    i ∈ ((cfg0.win 4).blk t).view.set ↔ ∀ a : Fin 2, win0_4.index t a * S64x2048.size a ≤ (i a).val ∧ (i a).val < win0_4.index t a * S64x2048.size a + S64x2048.size a := by
  show i ∈ ((View.whole main_v2_0).slice (win0_4.rect t)).set ↔ _
  rw [View.set_slice_whole, Rect.mem_set_unit]
  exact Iff.rfl

theorem mem_blk0_5 (t : Fin cfg0.N) (i : S64x1.Idx) :
    i ∈ ((cfg0.win 5).blk t).view.set ↔ ∀ a : Fin 2, win0_5.index t a * S64x1.size a ≤ (i a).val ∧ (i a).val < win0_5.index t a * S64x1.size a + S64x1.size a := by
  show i ∈ ((View.whole main_v2_1).slice (win0_5.rect t)).set ↔ _
  rw [View.set_slice_whole, Rect.mem_set_unit]
  exact Iff.rfl

/-- The memory array after the region: the read-out of the arrays as the region finds them. -/
theorem final0_4_eq (c : Dev nD) : (dat0 V c).arrAt 4 cfg0.N = G0_4 V c :=
  (dat0 V c).arrAt_eq_of_cover 4 (G0_4 V c) (fun t _ => flushed0_4_eq V c t) fun i =>
    ⟨t0_0, flush0_4 t0_0, by
      obtain ⟨-, -, -, -, -, -, -, -, e0, e1, -⟩ := idx_facts0 t0_0
      rw [mem_blk0_4]
      intro a
      have h0 : (i 0).val < 64 := (i 0).isLt
      have h1 : (i 1).val < 2048 := (i 1).isLt
      match a with
      | ⟨0, _⟩ => show win0_4.index t0_0 (0 : Fin 2) * 64 ≤ (i 0).val ∧ (i 0).val < win0_4.index t0_0 (0 : Fin 2) * 64 + 64; rw [e0]; omega
      | ⟨1, _⟩ => show win0_4.index t0_0 (1 : Fin 2) * 2048 ≤ (i 1).val ∧ (i 1).val < win0_4.index t0_0 (1 : Fin 2) * 2048 + 2048; rw [e1]; omega⟩

/-- The reach array after the region: the reach column of the arrays as the region finds them. -/
theorem final0_5_eq (c : Dev nD) : (dat0 V c).arrAt 5 cfg0.N = G0_5 V c :=
  (dat0 V c).arrAt_eq_of_cover 5 (G0_5 V c) (fun t _ => flushed0_5_eq V c t) fun i =>
    ⟨t0_0, flush0_5 t0_0, by
      obtain ⟨-, -, -, -, -, -, -, -, -, -, e0, e1⟩ := idx_facts0 t0_0
      rw [mem_blk0_5]
      intro a
      have h0 : (i 0).val < 64 := (i 0).isLt
      have h1 : (i 1).val < 1 := (i 1).isLt
      match a with
      | ⟨0, _⟩ => show win0_5.index t0_0 (0 : Fin 2) * 64 ≤ (i 0).val ∧ (i 0).val < win0_5.index t0_0 (0 : Fin 2) * 64 + 64; rw [e0]; omega
      | ⟨1, _⟩ => show win0_5.index t0_0 (1 : Fin 2) * 1 ≤ (i 1).val ∧ (i 1).val < win0_5.index t0_0 (1 : Fin 2) * 1 + 1; rw [e1]; omega⟩

/-- The memory array after the region, at sample `b` and feature `f`. -/
theorem final0_4 (c : Dev nD) (b : Fin 64) (f : Fin 2048) :
    (dat0 (F := Ideal) V c).arrAt 4 cfg0.N (ix2 b f)
      = Cert.Spec.memK (fun b f => V c main_arg0 (ix2 b f)) (fun c' f => V c main_arg1 (ix2 c' f)) (fun c' f => V c main_arg2 (ix2 c' f))
          (fun c' => V c main_v0 (ix2 0 c')) b f := by
  rw [final0_4_eq]
  exact pay4_apply (V c main_arg0) (V c main_arg1) (V c main_arg2) (V c main_v0) b f

/-- The reach array after the region, at sample `b`. -/
theorem final0_5 (c : Dev nD) (b : Fin 64) :
    (dat0 (F := Ideal) V c).arrAt 5 cfg0.N (ix2 b 0)
      = Cert.Spec.reachK (Ideal.ofBits .f32 0x40000000#32) (Ideal.ofBits .f32 0x41200000#32) (fun b f => V c main_arg0 (ix2 b f))
          (fun c' f => V c main_arg1 (ix2 c' f)) b := by
  rw [final0_5_eq]
  exact reach_apply (V c main_arg0) (V c main_arg1) b

end Cert.KernelIdeal.Final

end
-- ==== Proof.Final1.lean ====
/-
  What the selector region leaves in its two output arrays, index by index.

  The region runs over two grid points. At point t its body sees the features, the memory feature and the
  reachability column whole, rows 1024 t … 1024 t + 1023 of the selector weights and the same columns of the selector
  bias; it also reads the memory feature and the features through the 1024 columns at offset 1024 t. It stores a
  64 × 1024 block of each output, which the write-back puts at columns 1024 t … 1024 t + 1023 of the output array.

  So column f of either output is written at the point f / 1024 from column f % 1024 of the stored block, and there

    infused b f = tanh ((∑ g, X b g · WS f g) + BS 0 f) · M b f
    scaled  b f = R b 0 · (X b f + tanh ((∑ g, X b g · WS f g) + BS 0 f) · M b f)

  with X the features, WS the selector weights, BS the bias row, M the memory feature and R the reachability column,
  each as the region finds it. The steps: the printed index maps and the body's column offset decided once over the
  two points; each loaded block read off its array at a symbolic point; each store's value at an index of the block;
  the block written back as the block of ONE function of the arrays; the two blocks cover the array.
-/
import proofs.«123336_j4191888081208_2_alg».proof.Proof.KIRegions
import proofs.«123336_j4191888081208_2_alg».proof.Proof.Spec
import proofs.«123336_j4191888081208_2_alg».proof.Proof.KernelPayB
import Idealize.ShloMosaic.Lib.Pipeline.Value
import Idealize.ShloMosaic.Lib.ValueIdx

noncomputable section

namespace Cert.KernelIdeal.Final

open Idealize.ShloMosaic ValueIdx Cert.KernelIdeal Cert.KernelIdeal.Gen
open Idealize.ShloMosaic.TcCoe Idealize.SL.Sem
open Idealize.ShloMosaic.Pipeline (Dat)

variable (V : (c : Dev nD) → (b : Ref sig .tc) → Buf (Elt Ideal) ((c : Thread nD τ).loc b))

/-! ## The index maps over the grid, and the loaded blocks read off their arrays -/

theorem hz : (![0, 0] : Fin 2 → Nat) = fun _ => 0 := funext fun a => by fin_cases a <;> rfl

/-- The printed index maps and the body's column offset, decided over the two grid points. -/
theorem idx_facts1 : ∀ t : Fin cfg1.N, t.val < 2
    ∧ win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val
    ∧ win1_6.index t (0 : Fin 2) = 0 ∧ win1_6.index t (1 : Fin 2) = t.val
    ∧ k1_off1 (grid1.coords t) (0 : Fin 2) = 0 ∧ k1_off1 (grid1.coords t) (1 : Fin 2) = 1024 * t.val :=
  (by decide +kernel : ∀ t : Fin grid1.N, _)

/-- The features' block at a point is the whole array. -/
theorem blk0_apply (c : Dev nD) (t : Fin cfg1.N) (b : Fin 64) (g : Fin 2048) :
    (iblk1 V c 0 t : Vec Ideal S64x2048 .f32) (ix2 b g) = (V c main_arg0 : S64x2048.Idx → EReal) (ix2 b g) := by
  obtain ⟨-, e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 64 + 1 * b.val = b.val; rw [e0]; omega
  | ⟨1, _⟩ => show win1_0.index t (1 : Fin 2) * 2048 + 1 * g.val = g.val; rw [e1]; omega

/-- The selector weights' block at point t holds rows 1024 t … 1024 t + 1023. -/
theorem blk1_apply (c : Dev nD) (t : Fin cfg1.N) (q : Fin 1024) (g : Fin 2048) (f : Fin 2048) (hf : f.val = 1024 * t.val + q.val) :
    (iblk1 V c 1 t : Vec Ideal S1024x2048 .f32) (ix2 q g) = (V c main_arg4 : S2048x2048.Idx → EReal) (ix2 f g) := by
  obtain ⟨-, -, -, e0, e1, -⟩ := idx_facts1 t
  unfold iblk1
  rw [View.read_apply]
  show V c main_arg4 _ = V c main_arg4 _
  congr 1
  funext a
  apply Fin.ext
  match a with
  | ⟨0, _⟩ => show win1_1.index t (0 : Fin 2) * 1024 + 1 * q.val = f.val; rw [e0, hf]; omega
  | ⟨1, _⟩ => show win1_1.index t (1 : Fin 2) * 2048 + 1 * g.val = g.val; rw [e1]; omega

/-- The selector bias's block at point t holds columns 1024 t … 1024 t + 1023. -/
theorem blk2_apply (c : Dev nD) (t : Fin cfg1.N) (z : Fin 1) (q : Fin 1024) (f : Fin 2048) (hf : f.val = 1024 * t.val + q.val) :
    (iblk1 V c 2 t : Vec Ideal S1x1024 .f32) (ix2 z q) = (V c main_v1 : S1x2048.Idx → EReal) (ix2 z f) := by
  obtain ⟨-, -, -, -, -, e0, e1, -⟩ := idx_facts1 t
  unfold iblk1
  rw [View.read_apply]
  show V c main_v1 _ = V c main_v1 _
  congr 1
  funext a
  apply Fin.ext
  match a with
  | ⟨0, _⟩ => show win1_2.index t (0 : Fin 2) * 1 + 1 * z.val = z.val; rw [e0]; omega
  | ⟨1, _⟩ => show win1_2.index t (1 : Fin 2) * 1024 + 1 * q.val = f.val; rw [e1, hf]; omega

/-- The memory feature's block at a point is the whole array. -/
theorem blk3_apply (c : Dev nD) (t : Fin cfg1.N) (b : Fin 64) (g : Fin 2048) :
    (iblk1 V c 3 t : Vec Ideal S64x2048 .f32) (ix2 b g) = (V c main_v2_0 : S64x2048.Idx → EReal) (ix2 b g) := by
  obtain ⟨-, -, -, -, -, -, -, e0, e1, -⟩ := idx_facts1 t
  unfold iblk1
  rw [View.read_apply]
  show V c main_v2_0 _ = V c main_v2_0 _
  congr 1
  funext a
  apply Fin.ext
  match a with
  | ⟨0, _⟩ => show win1_3.index t (0 : Fin 2) * 64 + 1 * b.val = b.val; rw [e0]; omega
  | ⟨1, _⟩ => show win1_3.index t (1 : Fin 2) * 2048 + 1 * g.val = g.val; rw [e1]; omega

/-- The reachability column's block at a point is the whole column. -/
theorem blk4_apply (c : Dev nD) (t : Fin cfg1.N) (b : Fin 64) (z : Fin 1) :
    (iblk1 V c 4 t : Vec Ideal S64x1 .f32) (ix2 b z) = (V c main_v2_1 : S64x1.Idx → EReal) (ix2 b z) := by
  obtain ⟨-, -, -, -, -, -, -, -, -, e0, e1, -⟩ := idx_facts1 t
  unfold iblk1
  rw [View.read_apply]
  show V c main_v2_1 _ = V c main_v2_1 _
  congr 1
  funext a
  apply Fin.ext
  match a with
  | ⟨0, _⟩ => show win1_4.index t (0 : Fin 2) * 64 + 1 * b.val = b.val; rw [e0]; omega
  | ⟨1, _⟩ => show win1_4.index t (1 : Fin 2) * 1 + 1 * z.val = z.val; rw [e1]; omega

/-! ## What the two stores hold at a point, over any loaded blocks -/

/-- The infused feature's block, at sample b and column q of the block: the column of the memory feature it reads is
    the body's offset plus q. -/
theorem out5_apply (i : grid1.Coords) (n : Nat) (h0 : k1_off1 i (0 : Fin 2) = 0) (h1 : k1_off1 i (1 : Fin 2) = 1024 * n)
    (x0 : Vec Ideal S64x2048 .f32) (x1 : Vec Ideal S1024x2048 .f32) (x2 : Vec Ideal S1x1024 .f32) (x3 : Vec Ideal S64x2048 .f32)
    (b : Fin 64) (q : Fin 1024) (f : Fin 2048) (hf : f.val = 1024 * n + q.val) :
    out1_5 (F := Ideal) i x0 x1 x2 x3 (ix2 b q)
      = Ideal.tanh ((∑ g : Fin 2048, x0 (ix2 b g) * x1 (ix2 q g)) + x2 (ix2 0 q)) * x3 (ix2 b f) := by
  unfold out1_5
  rw [View.canon_unit_zero hz]
  simp only [View.ld_unit_zero (S := S64x2048) hz, View.ld_unit_zero (S := S1024x2048) hz, View.ld_unit_zero (S := S1x1024) hz]
  refine (PayValue.k1_pay1_apply x0 x1 x2 (View.ld x3 (r1_off i)) b q).trans ?_
  show _ * x3 ((r1_off i).emb (ix2 b q)) = _ * x3 (ix2 b f)
  have he : (r1_off i).emb (ix2 b q) = (ix2 b f : S64x2048.Idx) := by
    funext a
    apply Fin.ext
    match a with
    | ⟨0, _⟩ => show k1_off1 i (0 : Fin 2) + 1 * b.val = b.val; rw [h0]; omega
    | ⟨1, _⟩ => show k1_off1 i (1 : Fin 2) + 1 * q.val = f.val; rw [h1, hf]; omega
  rw [he]

/-- The scaled feature's block, at sample b and column q of the block. -/
theorem out6_apply (i : grid1.Coords) (n : Nat) (h0 : k1_off1 i (0 : Fin 2) = 0) (h1 : k1_off1 i (1 : Fin 2) = 1024 * n)
    (x0 : Vec Ideal S64x2048 .f32) (x1 : Vec Ideal S1024x2048 .f32) (x2 : Vec Ideal S1x1024 .f32) (x3 : Vec Ideal S64x2048 .f32)
    (x4 : Vec Ideal S64x1 .f32) (b : Fin 64) (q : Fin 1024) (f : Fin 2048) (hf : f.val = 1024 * n + q.val) :
    out1_6 (F := Ideal) i x0 x1 x2 x3 x4 (ix2 b q)
      = x4 (ix2 b 0) * (x0 (ix2 b f)
          + Ideal.tanh ((∑ g : Fin 2048, x0 (ix2 b g) * x1 (ix2 q g)) + x2 (ix2 0 q)) * x3 (ix2 b f)) := by
  unfold out1_6
  rw [View.canon_unit_zero hz]
  simp only [View.ld_unit_zero (S := S64x2048) hz, View.ld_unit_zero (S := S1024x2048) hz, View.ld_unit_zero (S := S1x1024) hz,
    View.ld_unit_zero (S := S64x1) hz]
  refine (PayValue.k1_pay2_apply x0 x1 x2 x4 (View.ld x3 (r1_off i)) (View.ld x0 (r1_off i)) b q).trans ?_
  rw [PayValue.k1_pay1_apply x0 x1 x2 (View.ld x3 (r1_off i)) b q]
  have he : (r1_off i).emb (ix2 b q) = (ix2 b f : S64x2048.Idx) := by
    funext a
    apply Fin.ext
    match a with
    | ⟨0, _⟩ => show k1_off1 i (0 : Fin 2) + 1 * b.val = b.val; rw [h0]; omega
    | ⟨1, _⟩ => show k1_off1 i (1 : Fin 2) + 1 * q.val = f.val; rw [h1, hf]; omega
  show _ * (x0 ((r1_off i).emb (ix2 b q)) + _ * x3 ((r1_off i).emb (ix2 b q))) = _
  rw [he]

/-- A rank-2 array of extended reals read at its two coordinates. -/
abbrev rd {n0 n1 : Nat} (x : FVec Ideal ⟨2, ![n0, n1]⟩ .f32) (a : Fin n0) (b : Fin n1) : EReal := x (ix2 a b)

/-! ## The two final arrays as functions of the arrays the region finds -/

/-- The selector at sample b and feature f. -/
def selAt (x0 : Vec Ideal S64x2048 .f32) (ws : Vec Ideal S2048x2048 .f32) (bs : Vec Ideal S1x2048 .f32) (b : Fin 64) (f : Fin 2048) : EReal :=
  Ideal.tanh ((∑ g : Fin 2048, x0 (ix2 b g) * ws (ix2 f g)) + bs (ix2 0 f))

/-- The infused feature. -/
def G5 (x0 : Vec Ideal S64x2048 .f32) (ws : Vec Ideal S2048x2048 .f32) (bs : Vec Ideal S1x2048 .f32) (mem : Vec Ideal S64x2048 .f32) :
    S64x2048.Idx → EReal := fun i => selAt x0 ws bs (i 0) (i 1) * mem (ix2 (i 0) (i 1))

/-- The scaled feature. -/
def G6 (x0 : Vec Ideal S64x2048 .f32) (ws : Vec Ideal S2048x2048 .f32) (bs : Vec Ideal S1x2048 .f32) (mem : Vec Ideal S64x2048 .f32)
    (r : Vec Ideal S64x1 .f32) : S64x2048.Idx → EReal :=
  fun i => r (ix2 (i 0) 0) * (x0 (ix2 (i 0) (i 1)) + selAt x0 ws bs (i 0) (i 1) * mem (ix2 (i 0) (i 1)))

/-- Where column q of an output block at point t sits in the array. -/
theorem emb5 (t : Fin cfg1.N) (b : Fin 64) (q : Fin 1024) (f : Fin 2048) (hf : f.val = 1024 * t.val + q.val) :
    ((cfg1.win 5).blk t).view.emb (ix2 b q) = (ix2 b f : S64x2048.Idx) := by
  obtain ⟨-, -, -, -, -, -, -, -, -, -, -, e0, e1, -⟩ := idx_facts1 t
  funext a
  apply Fin.ext
  match a with
  | ⟨0, _⟩ => show win1_5.index t (0 : Fin 2) * 64 + 1 * b.val = b.val; rw [e0]; omega
  | ⟨1, _⟩ => show win1_5.index t (1 : Fin 2) * 1024 + 1 * q.val = f.val; rw [e1, hf]; omega

theorem emb6 (t : Fin cfg1.N) (b : Fin 64) (q : Fin 1024) (f : Fin 2048) (hf : f.val = 1024 * t.val + q.val) :
    ((cfg1.win 6).blk t).view.emb (ix2 b q) = (ix2 b f : S64x2048.Idx) := by
  obtain ⟨-, -, -, -, -, -, -, -, -, -, -, -, -, e0, e1, -⟩ := idx_facts1 t
  funext a
  apply Fin.ext
  match a with
  | ⟨0, _⟩ => show win1_6.index t (0 : Fin 2) * 64 + 1 * b.val = b.val; rw [e0]; omega
  | ⟨1, _⟩ => show win1_6.index t (1 : Fin 2) * 1024 + 1 * q.val = f.val; rw [e1, hf]; omega

/-- What point t leaves in the infused feature's buffer is the function's block at t, index by index. -/
theorem flushed5_pt (c : Dev nD) (t : Fin cfg1.N) (y : S64x1024.Idx) :
    out1_5 (F := Ideal) (grid1.coords t) (iblk1 V c 0 t) (iblk1 V c 1 t) (iblk1 V c 2 t) (iblk1 V c 3 t) y
      = G5 (V c main_arg0) (V c main_arg4) (V c main_v1) (V c main_v2_0) (((cfg1.win 5).blk t).view.emb y) := by
  obtain ⟨b, q, rfl⟩ : ∃ (b : Fin 64) (q : Fin 1024), y = ix2 b q := ⟨y 0, y 1, eq_ix2 y⟩
  have hfacts := idx_facts1 t
  have hlt : t.val < 2 := hfacts.1
  have o0 : k1_off1 (grid1.coords t) (0 : Fin 2) = 0 := hfacts.2.2.2.2.2.2.2.2.2.2.2.2.2.2.2.1
  have o1 : k1_off1 (grid1.coords t) (1 : Fin 2) = 1024 * t.val := hfacts.2.2.2.2.2.2.2.2.2.2.2.2.2.2.2.2
  obtain ⟨f, hf⟩ : ∃ f : Fin 2048, f.val = 1024 * t.val + q.val := ⟨⟨1024 * t.val + q.val, by have := q.isLt; omega⟩, rfl⟩
  rw [emb5 t b q f hf]
  refine (out5_apply (grid1.coords t) t.val o0 o1 (iblk1 V c 0 t) (iblk1 V c 1 t) (iblk1 V c 2 t) (iblk1 V c 3 t) b q f hf).trans ?_
  have e0 : ∀ g : Fin 2048, (iblk1 V c 0 t : Vec Ideal S64x2048 .f32) (ix2 b g) = (V c main_arg0 : S64x2048.Idx → EReal) (ix2 b g) :=
    fun g => blk0_apply V c t b g
  have e1 : ∀ g : Fin 2048, (iblk1 V c 1 t : Vec Ideal S1024x2048 .f32) (ix2 q g) = (V c main_arg4 : S2048x2048.Idx → EReal) (ix2 f g) :=
    fun g => blk1_apply V c t q g f hf
  have e2 : (iblk1 V c 2 t : Vec Ideal S1x1024 .f32) (ix2 0 q) = (V c main_v1 : S1x2048.Idx → EReal) (ix2 0 f) :=
    blk2_apply V c t 0 q f hf
  have e3 : (iblk1 V c 3 t : Vec Ideal S64x2048 .f32) (ix2 b f) = (V c main_v2_0 : S64x2048.Idx → EReal) (ix2 b f) :=
    blk3_apply V c t b f
  simp only [e0, e1, e2, e3]
  rfl

theorem flushed5_eq (c : Dev nD) (t : Fin cfg1.N) :
    (dat1 (F := Ideal) V c).flushed 5 t
      = ((cfg1.win 5).blk t).view.read (Elt Ideal) (G5 (V c main_arg0) (V c main_arg4) (V c main_v1) (V c main_v2_0)) := by
  show (cfg1.win 5).cut (grid1.coords t) ((dat1 V c).after 5 t) = _
  rw [after1_5]
  funext y
  exact flushed5_pt V c t y

/-- Every index of the array is in the block of the point its column falls under. -/
theorem cover5 (i : S64x2048.Idx) :
    ∃ t : Fin cfg1.N, (cfg1.win 5).flush t = true ∧ i ∈ ((cfg1.win 5).blk t).view.set := by
  have hi0 : (i 0).val < 64 := (i 0).isLt
  have hi1 : (i 1).val < 2048 := (i 1).isLt
  have hN : cfg1.N = 2 := N_1
  obtain ⟨t, ht⟩ : ∃ t : Fin cfg1.N, t.val = (i 1).val / 1024 := ⟨⟨(i 1).val / 1024, by rw [hN]; omega⟩, rfl⟩
  obtain ⟨-, -, -, -, -, -, -, -, -, -, -, e0, e1, -⟩ := idx_facts1 t
  refine ⟨t, flush1_5 t, ?_⟩
  show i ∈ ((View.whole main_v3_0).slice (win1_5.rect t)).set
  rw [View.set_slice_whole, Rect.mem_set_unit]
  intro a
  match a with
  | ⟨0, _⟩ =>
    show win1_5.index t (0 : Fin 2) * 64 ≤ (i 0).val ∧ (i 0).val < win1_5.index t (0 : Fin 2) * 64 + 64
    rw [e0]; omega
  | ⟨1, _⟩ =>
    show win1_5.index t (1 : Fin 2) * 1024 ≤ (i 1).val ∧ (i 1).val < win1_5.index t (1 : Fin 2) * 1024 + 1024
    rw [e1, ht]; omega

/-- The infused feature's array after the region, as one function of the arrays the region finds. -/
theorem final1_5_fn (c : Dev nD) :
    (dat1 (F := Ideal) V c).arrAt 5 cfg1.N = G5 (V c main_arg0) (V c main_arg4) (V c main_v1) (V c main_v2_0) :=
  (dat1 (F := Ideal) V c).arrAt_eq_of_cover 5 _ (fun t _ => flushed5_eq V c t) (fun i => cover5 i)

theorem final1_5 (c : Dev nD) (b : Fin 64) (f : Fin 2048) :
    (dat1 (F := Ideal) V c).arrAt 5 cfg1.N (ix2 b f)
      = Ideal.tanh ((∑ g : Fin 2048, rd (V c main_arg0) b g * rd (V c main_arg4) f g) + rd (V c main_v1) 0 f)
          * rd (V c main_v2_0) b f := by
  rw [final1_5_fn]
  rfl

/-- What point t leaves in the scaled feature's buffer is the function's block at t, index by index. -/
theorem flushed6_pt (c : Dev nD) (t : Fin cfg1.N) (y : S64x1024.Idx) :
    out1_6 (F := Ideal) (grid1.coords t) (iblk1 V c 0 t) (iblk1 V c 1 t) (iblk1 V c 2 t) (iblk1 V c 3 t) (iblk1 V c 4 t) y
      = G6 (V c main_arg0) (V c main_arg4) (V c main_v1) (V c main_v2_0) (V c main_v2_1) (((cfg1.win 6).blk t).view.emb y) := by
  obtain ⟨b, q, rfl⟩ : ∃ (b : Fin 64) (q : Fin 1024), y = ix2 b q := ⟨y 0, y 1, eq_ix2 y⟩
  have hfacts := idx_facts1 t
  have hlt : t.val < 2 := hfacts.1
  have o0 : k1_off1 (grid1.coords t) (0 : Fin 2) = 0 := hfacts.2.2.2.2.2.2.2.2.2.2.2.2.2.2.2.1
  have o1 : k1_off1 (grid1.coords t) (1 : Fin 2) = 1024 * t.val := hfacts.2.2.2.2.2.2.2.2.2.2.2.2.2.2.2.2
  obtain ⟨f, hf⟩ : ∃ f : Fin 2048, f.val = 1024 * t.val + q.val := ⟨⟨1024 * t.val + q.val, by have := q.isLt; omega⟩, rfl⟩
  rw [emb6 t b q f hf]
  refine (out6_apply (grid1.coords t) t.val o0 o1 (iblk1 V c 0 t) (iblk1 V c 1 t) (iblk1 V c 2 t) (iblk1 V c 3 t) (iblk1 V c 4 t) b q f hf).trans ?_
  have e0 : ∀ g : Fin 2048, (iblk1 V c 0 t : Vec Ideal S64x2048 .f32) (ix2 b g) = (V c main_arg0 : S64x2048.Idx → EReal) (ix2 b g) :=
    fun g => blk0_apply V c t b g
  have e1 : ∀ g : Fin 2048, (iblk1 V c 1 t : Vec Ideal S1024x2048 .f32) (ix2 q g) = (V c main_arg4 : S2048x2048.Idx → EReal) (ix2 f g) :=
    fun g => blk1_apply V c t q g f hf
  have e2 : (iblk1 V c 2 t : Vec Ideal S1x1024 .f32) (ix2 0 q) = (V c main_v1 : S1x2048.Idx → EReal) (ix2 0 f) :=
    blk2_apply V c t 0 q f hf
  have e3 : (iblk1 V c 3 t : Vec Ideal S64x2048 .f32) (ix2 b f) = (V c main_v2_0 : S64x2048.Idx → EReal) (ix2 b f) :=
    blk3_apply V c t b f
  have e4 : (iblk1 V c 4 t : Vec Ideal S64x1 .f32) (ix2 b 0) = (V c main_v2_1 : S64x1.Idx → EReal) (ix2 b 0) :=
    blk4_apply V c t b 0
  simp only [e0, e1, e2, e3, e4]
  rfl

theorem flushed6_eq (c : Dev nD) (t : Fin cfg1.N) :
    (dat1 (F := Ideal) V c).flushed 6 t
      = ((cfg1.win 6).blk t).view.read (Elt Ideal) (G6 (V c main_arg0) (V c main_arg4) (V c main_v1) (V c main_v2_0) (V c main_v2_1)) := by
  show (cfg1.win 6).cut (grid1.coords t) ((dat1 V c).after 6 t) = _
  rw [after1_6]
  funext y
  exact flushed6_pt V c t y

theorem cover6 (i : S64x2048.Idx) :
    ∃ t : Fin cfg1.N, (cfg1.win 6).flush t = true ∧ i ∈ ((cfg1.win 6).blk t).view.set := by
  have hi0 : (i 0).val < 64 := (i 0).isLt
  have hi1 : (i 1).val < 2048 := (i 1).isLt
  have hN : cfg1.N = 2 := N_1
  obtain ⟨t, ht⟩ : ∃ t : Fin cfg1.N, t.val = (i 1).val / 1024 := ⟨⟨(i 1).val / 1024, by rw [hN]; omega⟩, rfl⟩
  obtain ⟨-, -, -, -, -, -, -, -, -, -, -, -, -, e0, e1, -⟩ := idx_facts1 t
  refine ⟨t, flush1_6 t, ?_⟩
  show i ∈ ((View.whole main_v3_1).slice (win1_6.rect t)).set
  rw [View.set_slice_whole, Rect.mem_set_unit]
  intro a
  match a with
  | ⟨0, _⟩ =>
    show win1_6.index t (0 : Fin 2) * 64 ≤ (i 0).val ∧ (i 0).val < win1_6.index t (0 : Fin 2) * 64 + 64
    rw [e0]; omega
  | ⟨1, _⟩ =>
    show win1_6.index t (1 : Fin 2) * 1024 ≤ (i 1).val ∧ (i 1).val < win1_6.index t (1 : Fin 2) * 1024 + 1024
    rw [e1, ht]; omega

/-- The scaled feature's array after the region, as one function of the arrays the region finds. -/
theorem final1_6_fn (c : Dev nD) :
    (dat1 (F := Ideal) V c).arrAt 6 cfg1.N = G6 (V c main_arg0) (V c main_arg4) (V c main_v1) (V c main_v2_0) (V c main_v2_1) :=
  (dat1 (F := Ideal) V c).arrAt_eq_of_cover 6 _ (fun t _ => flushed6_eq V c t) (fun i => cover6 i)

theorem final1_6 (c : Dev nD) (b : Fin 64) (f : Fin 2048) :
    (dat1 (F := Ideal) V c).arrAt 6 cfg1.N (ix2 b f)
      = rd (V c main_v2_1) b 0 * (rd (V c main_arg0) b f
          + Ideal.tanh ((∑ g : Fin 2048, rd (V c main_arg0) b g * rd (V c main_arg4) f g) + rd (V c main_v1) 0 f)
              * rd (V c main_v2_0) b f) := by
  rw [final1_6_fn]
  rfl

end Cert.KernelIdeal.Final
end
-- ==== Proof.Final2.lean ====
/-
  The cosine classifier's region, from its blocks to the logits array.

  The region runs two grid points. At point t the body reads the scaled feature whole and the block of 512
  classifier rows starting at row 512·t, and stores the block of 512 logit columns starting at column 512·t. The
  second block of either window reaches 24 past the array's end: the fetch moves only the 488 rows inside the array and
  the write-back only the 488 columns inside it.

  * The logit at (b, q) of a block reads the classifier block in row q only. A column q the write-back moves is a row
    the fetch moved (the two windows are cut alike), so the moved logits do not depend on what fills the classifier's
    buffer past the array's end.
  * What each point writes back is its block of one whole-array function: the feature row over one plus its norm,
    times sixteen, against the classifier row over its norm. The two blocks cover the 1000 columns, so the array ends
    holding that function.
-/
import proofs.«123336_j4191888081208_2_alg».proof.Proof.KIRegions
import proofs.«123336_j4191888081208_2_alg».proof.Proof.Spec
import proofs.«123336_j4191888081208_2_alg».proof.Proof.KernelPayB

set_option maxRecDepth 16384

noncomputable section

namespace Cert.KernelIdeal.Final

open Cert.KernelIdeal Cert.KernelIdeal.Gen Cert.KernelIdeal.PayValue
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a whole-rectangle access, however they are spelt. -/
theorem hz : (![0, 0] : Fin 2 → Nat) = fun _ => 0 := funext fun a => by fin_cases a <;> rfl

/-- The logits' buffer after the body is the body's payload of what the other two buffers hold: the one store is
    through the whole rectangle, and so are the two loads. -/
theorem out2_2_eq (x0 : Vec Ideal S64x2048 .f32) (x1 : Vec Ideal S512x2048 .f32) :
    out2_2 (F := Ideal) x0 x1 = k2_pay1 (F := Ideal) x0 x1 := by
  unfold out2_2
  rw [View.canon_unit_zero hz]
  rw [View.ld_unit_zero (S := S64x2048) hz, View.ld_unit_zero (S := S512x2048) hz]

/-- On an index the transfer moves, a filled block does not depend on the filler. -/
theorem fill_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Pipeline.Window.fill; rw [dif_pos h, dif_pos h]

/-- The two clipped windows are cut alike: the logits' columns moved at a point are as many as the classifier's rows
    moved there, and the classifier's block always has its 2048 lanes. -/
theorem cuts_agree : ∀ t : Fin grid2.N,
    win2_2.xsize (grid2.coords t) 1 = win2_1.xsize (grid2.coords t) 0 ∧ win2_1.xsize (grid2.coords t) 1 = 2048 :=
  (by decide +kernel : ∀ t : Fin grid2.N, _)

/-- The moved logits of a block do not depend on what fills the classifier's buffer past the rows the fetch moved. -/
theorem local_core (t : Fin grid2.N) (x0 : Vec Ideal S64x2048 .f32)
    (g : (win2_1.xblock (grid2.coords t)).Idx → Elt Ideal .f32) (d d' : S512x2048.Idx → Elt Ideal .f32) :
    win2_2.cut (grid2.coords t) (out2_2 (F := Ideal) x0 (win2_1.fill (grid2.coords t) d g))
      = win2_2.cut (grid2.coords t) (out2_2 (F := Ideal) x0 (win2_1.fill (grid2.coords t) d' g)) := by
  funext j
  show out2_2 (F := Ideal) x0 _ (win2_2.xinj (grid2.coords t) j) = out2_2 (F := Ideal) x0 _ (win2_2.xinj (grid2.coords t) j)
  rw [out2_2_eq, out2_2_eq]
  have hb : (j 0).val < 64 := lt_of_lt_of_le (j 0).isLt (win2_2.xsize_le (grid2.coords t) 0)
  have hq : (j 1).val < 512 := lt_of_lt_of_le (j 1).isLt (win2_2.xsize_le (grid2.coords t) 1)
  have e : win2_2.xinj (grid2.coords t) j = ix2 (⟨(j 0).val, hb⟩ : Fin 64) (⟨(j 1).val, hq⟩ : Fin 512) :=
    funext fun a => Fin.ext (by match a with | ⟨0, _⟩ => rfl | ⟨1, _⟩ => rfl)
  rw [e, k2_pay1_apply, k2_pay1_apply]
  have hmv : ∀ f : Fin 2048, win2_1.moved (grid2.coords t) (ix2 (⟨(j 1).val, hq⟩ : Fin 512) f) = true := fun f =>
    (win2_1.moved_iff _ _).mpr fun a => by
      match a with
      | ⟨0, _⟩ =>
        show (j 1).val < win2_1.xsize (grid2.coords t) 0
        rw [← (cuts_agree t).1]; exact (j 1).isLt
      | ⟨1, _⟩ =>
        show f.val < win2_1.xsize (grid2.coords t) 1
        rw [(cuts_agree t).2]; exact f.isLt
  have key : ∀ f : Fin 2048, win2_1.fill (grid2.coords t) d g (ix2 (⟨(j 1).val, hq⟩ : Fin 512) f)
      = win2_1.fill (grid2.coords t) d' g (ix2 (⟨(j 1).val, hq⟩ : Fin 512) f) := fun f =>
    fill_of_moved win2_1 _ d d' g (hmv f)
  simp only [key]

/-- The logits the write-back moves are the same whatever fills the classifier's buffer past the array's end. -/
theorem local2 : Local2 (F := Ideal) V := fun c t d1 =>
  local_core t (iblk2 V c 0 t) (iblk2 V c 1 t) d1 _

/-! ## From the blocks to the array -/

/-- The scaled feature and the classifier's weights as the region finds them, as arrays of extended reals. -/
abbrev feat (c : Dev nD) : S64x2048.Idx → EReal := V c main_v3_1
abbrev cls (c : Dev nD) : S1000x2048.Idx → EReal := V c main_arg6

/-- The logit of sample b against class q, of the arrays as the region finds them: the feature row over one plus its
    norm, times sixteen, against the classifier row over its norm. -/
def logitAt (c : Dev nD) (b : Fin 64) (q : Fin 1000) : EReal :=
  ∑ f : Fin 2048, (Ideal.div (feat V c (ix2 b f)) (Ideal.ofBits .f32 0x3F800000#32 + Ideal.sqrt (∑ g : Fin 2048, feat V c (ix2 b g) * feat V c (ix2 b g))) * Ideal.ofBits .f32 0x41800000#32) * Ideal.div (cls V c (ix2 q f)) (Ideal.sqrt (∑ g : Fin 2048, cls V c (ix2 q g) * cls V c (ix2 q g)))

/-- The whole array of those logits. -/
def G (c : Dev nD) : S64x1000.Idx → Elt Ideal .f32 := fun i =>
  logitAt V c ⟨(i 0).val, (i 0).isLt⟩ ⟨(i 1).val, (i 1).isLt⟩

/-- The moved part of the logits' buffer after the body, at one index written by its coordinates. -/
theorem cut_out_apply (t : Fin grid2.N) (x0 : Vec Ideal S64x2048 .f32) (x1 : Vec Ideal S512x2048 .f32)
    (j : (win2_2.xblock (grid2.coords t)).Idx) (hb : (j 0).val < 64) (hq : (j 1).val < 512) :
    win2_2.cut (grid2.coords t) (out2_2 (F := Ideal) x0 x1) j
      = ∑ f : Fin 2048, (Ideal.div (x0 (ix2 (⟨(j 0).val, hb⟩ : Fin 64) f)) (Ideal.ofBits .f32 0x3F800000#32 + Ideal.sqrt (∑ g : Fin 2048, x0 (ix2 (⟨(j 0).val, hb⟩ : Fin 64) g) * x0 (ix2 (⟨(j 0).val, hb⟩ : Fin 64) g))) * Ideal.ofBits .f32 0x41800000#32)
          * Ideal.div (x1 (ix2 (⟨(j 1).val, hq⟩ : Fin 512) f)) (Ideal.sqrt (∑ g : Fin 2048, x1 (ix2 (⟨(j 1).val, hq⟩ : Fin 512) g) * x1 (ix2 (⟨(j 1).val, hq⟩ : Fin 512) g))) := by
  show out2_2 (F := Ideal) x0 x1 (win2_2.xinj (grid2.coords t) j) = _
  rw [out2_2_eq]
  have e : win2_2.xinj (grid2.coords t) j = ix2 (⟨(j 0).val, hb⟩ : Fin 64) (⟨(j 1).val, hq⟩ : Fin 512) :=
    funext fun a => Fin.ext (by match a with | ⟨0, _⟩ => rfl | ⟨1, _⟩ => rfl)
  rw [e, k2_pay1_apply]

/-- The printed index maps, decided over the grid: the feature's window stays at block 0; the classifier's row block
    is the logits' column block, at most 1; the other block indices are 0. -/
theorem idx_facts : ∀ t : Fin grid2.N, win2_0.index t (0 : Fin 2) = 0 ∧ win2_0.index t (1 : Fin 2) = 0
    ∧ win2_1.index t (0 : Fin 2) = win2_2.index t (1 : Fin 2) ∧ win2_1.index t (1 : Fin 2) = 0
    ∧ win2_2.index t (0 : Fin 2) = 0 ∧ win2_2.index t (1 : Fin 2) ≤ 1 :=
  (by decide +kernel : ∀ t : Fin grid2.N, _)

/-- WHAT POINT t WRITES BACK is its block of the whole array of logits. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2]
  funext j
  have hb : (j 0).val < 64 := lt_of_lt_of_le (j 0).isLt (win2_2.xsize_le (grid2.coords t) 0)
  have hq : (j 1).val < 512 := lt_of_lt_of_le (j 1).isLt (win2_2.xsize_le (grid2.coords t) 1)
  refine (cut_out_apply t _ _ j hb hq).trans ?_
  obtain ⟨e00, e01, e10, e11, e20, e21⟩ := idx_facts t
  have hmv : ∀ f : Fin 2048, win2_1.moved (grid2.coords t) (ix2 (⟨(j 1).val, hq⟩ : Fin 512) f) = true := fun f =>
    (win2_1.moved_iff _ _).mpr fun a => by
      match a with
      | ⟨0, _⟩ =>
        show (j 1).val < win2_1.xsize (grid2.coords t) 0
        rw [← (cuts_agree t).1]; exact (j 1).isLt
      | ⟨1, _⟩ =>
        show f.val < win2_1.xsize (grid2.coords t) 1
        rw [(cuts_agree t).2]; exact f.isLt
  -- the feature's block is the whole array
  have h0 : ∀ f : Fin 2048, iblk2 V c 0 t (ix2 (⟨(j 0).val, hb⟩ : Fin 64) f)
      = feat V c (ix2 (⟨((((cfg2.win 2).blk t).view.emb j) 0).val, ((((cfg2.win 2).blk t).view.emb j) 0).isLt⟩ : Fin 64) f) := fun f => by
    show V c main_v3_1 (((cfg2.win 0).blk t).view.emb (ix2 (⟨(j 0).val, hb⟩ : Fin 64) f)) = V c main_v3_1 _
    refine congrArg (V c main_v3_1) (funext fun a => Fin.ext ?_)
    match a with
    | ⟨0, _⟩ =>
      show win2_0.index t (0 : Fin 2) * 64 + 1 * (j 0).val = win2_2.index t (0 : Fin 2) * 64 + 1 * (j 0).val
      omega
    | ⟨1, _⟩ =>
      show win2_0.index t (1 : Fin 2) * 2048 + 1 * f.val = f.val
      omega
  -- a moved row of the classifier's filled block is the array's row at the block's offset
  have h1 : ∀ f : Fin 2048, wblk2 V c t (ix2 (⟨(j 1).val, hq⟩ : Fin 512) f)
      = cls V c (ix2 (⟨((((cfg2.win 2).blk t).view.emb j) 1).val, ((((cfg2.win 2).blk t).view.emb j) 1).isLt⟩ : Fin 1000) f) := fun f => by
    unfold wblk2 Pipeline.Window.fill
    rw [dif_pos (hmv f)]
    show V c main_arg6 (((cfg2.win 1).blk t).view.emb _) = V c main_arg6 _
    refine congrArg (V c main_arg6) (funext fun a => Fin.ext ?_)
    match a with
    | ⟨0, _⟩ =>
      show win2_1.index t (0 : Fin 2) * 512 + 1 * (j 1).val = win2_2.index t (1 : Fin 2) * 512 + 1 * (j 1).val
      omega
    | ⟨1, _⟩ =>
      show win2_1.index t (1 : Fin 2) * 2048 + 1 * f.val = f.val
      omega
  simp only [h0, h1]
  rfl

/-- An index of the logits array is in point t's block iff each coordinate is among the block's coordinates inside the
    array on its axis. -/
theorem mem_blk (t : Fin cfg2.N) (i : S64x1000.Idx) :
    i ∈ ((cfg2.win 2).blk t).view.set ↔ ∀ a : Fin 2, win2_2.index t a * S64x512.size a ≤ (i a).val
      ∧ (i a).val < win2_2.index t a * S64x512.size a + win2_2.xsize (grid2.coords t) a := by
  show i ∈ ((View.whole main_v4).slice (win2_2.rect t)).set ↔ _
  rw [View.set_slice_whole, Rect.mem_set_unit]
  exact Iff.rfl

/-- Where the two blocks sit: columns 0‥511 at the first point, 512‥999 at the second, all 64 rows at both. -/
theorem blk_facts :
    (win2_2.index t2_0 (0 : Fin 2) = 0 ∧ win2_2.xsize (grid2.coords t2_0) (0 : Fin 2) = 64
      ∧ win2_2.index t2_0 (1 : Fin 2) = 0 ∧ win2_2.xsize (grid2.coords t2_0) (1 : Fin 2) = 512)
    ∧ (win2_2.index t2_1 (0 : Fin 2) = 0 ∧ win2_2.xsize (grid2.coords t2_1) (0 : Fin 2) = 64
      ∧ win2_2.index t2_1 (1 : Fin 2) = 1 ∧ win2_2.xsize (grid2.coords t2_1) (1 : Fin 2) = 488) := by
  decide +kernel

/-- Every index of the logits array is in the block of the point its column falls in. -/
theorem cover (i : S64x1000.Idx) :
    ∃ t : Fin cfg2.N, (cfg2.win 2).flush t = true ∧ i ∈ ((cfg2.win 2).blk t).view.set := by
  have hi0 : (i 0).val < 64 := (i 0).isLt
  have hi1 : (i 1).val < 1000 := (i 1).isLt
  obtain ⟨⟨a00, a01, a02, a03⟩, ⟨a10, a11, a12, a13⟩⟩ := blk_facts
  by_cases h : (i 1).val < 512
  · refine ⟨t2_0, flush2_2 t2_0, ?_⟩
    rw [mem_blk]
    intro a
    match a with
    | ⟨0, _⟩ =>
      show win2_2.index t2_0 (0 : Fin 2) * 64 ≤ (i 0).val ∧ (i 0).val < win2_2.index t2_0 (0 : Fin 2) * 64 + win2_2.xsize (grid2.coords t2_0) (0 : Fin 2)
      rw [a00, a01]; omega
    | ⟨1, _⟩ =>
      show win2_2.index t2_0 (1 : Fin 2) * 512 ≤ (i 1).val ∧ (i 1).val < win2_2.index t2_0 (1 : Fin 2) * 512 + win2_2.xsize (grid2.coords t2_0) (1 : Fin 2)
      rw [a02, a03]; omega
  · refine ⟨t2_1, flush2_2 t2_1, ?_⟩
    rw [mem_blk]
    intro a
    match a with
    | ⟨0, _⟩ =>
      show win2_2.index t2_1 (0 : Fin 2) * 64 ≤ (i 0).val ∧ (i 0).val < win2_2.index t2_1 (0 : Fin 2) * 64 + win2_2.xsize (grid2.coords t2_1) (0 : Fin 2)
      rw [a10, a11]; omega
    | ⟨1, _⟩ =>
      show win2_2.index t2_1 (1 : Fin 2) * 512 ≤ (i 1).val ∧ (i 1).val < win2_2.index t2_1 (1 : Fin 2) * 512 + win2_2.xsize (grid2.coords t2_1) (1 : Fin 2)
      rw [a12, a13]; omega

/-- THE LOGITS ARRAY after the region: the whole array of logits of the arrays as the region finds them. -/
theorem final2_arr (c : Dev nD) : (dat2 (F := Ideal) V c).arrAt 2 cfg2.N = G V c :=
  (dat2 (F := Ideal) V c).arrAt_eq_of_cover 2 (G V c) (fun t _ => flushed_eq V c t) (cover)

/-- … read at sample b and class q. -/
theorem final2 (c : Dev nD) (b : Fin 64) (q : Fin 1000) :
    (dat2 (F := Ideal) V c).arrAt 2 cfg2.N (ix2 b q)
      = ∑ f : Fin 2048, (Ideal.div (feat V c (ix2 b f)) (Ideal.ofBits .f32 0x3F800000#32 + Ideal.sqrt (∑ g : Fin 2048, feat V c (ix2 b g) * feat V c (ix2 b g))) * Ideal.ofBits .f32 0x41800000#32)
          * Ideal.div (cls V c (ix2 q f)) (Ideal.sqrt (∑ g : Fin 2048, cls V c (ix2 q g) * cls V c (ix2 q g))) := by
  rw [final2_arr]
  rfl

end Cert.KernelIdeal.Final

end
-- ==== Proof.KIValue.lean ====
import proofs.«123336_j4191888081208_2_alg».proof.Proof.Gen.KernelIdeal.Launch
import proofs.«123336_j4191888081208_2_alg».proof.Proof.Gen.KernelIdeal.Skeleton
import proofs.«123336_j4191888081208_2_alg».proof.Proof.Gen.KernelIdeal.Points
import proofs.«123336_j4191888081208_2_alg».proof.Proof.KIArgs
import proofs.«123336_j4191888081208_2_alg».proof.Proof.Final0
import proofs.«123336_j4191888081208_2_alg».proof.Proof.Final1
import proofs.«123336_j4191888081208_2_alg».proof.Proof.Final2
import proofs.«123336_j4191888081208_2_alg».proof.Proof.Spec
import Idealize.ShloMosaic.Lib.Pipeline.Value
import Idealize.ShloMosaic.Lib.ValueIdx
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Out

open Cert.KernelIdeal Cert.KernelIdeal.Gen Cert.KernelIdeal.Final Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # What the last boundary holds at the results, as functions of the launch arrays

The reshaped bias rows; then region 0's outputs (the memory feature and the reachability) as region 1 finds them;
region 1's (the infused and the scaled feature) as region 2 finds them; region 2's logits. Each is the
kernel-shaped reading of the launch arrays. -/

section Reshapes
variable {F : FTy → Type} [FloatOps F] (m : (ℓ : Loc nD τ sig) → Buf (Elt F) ℓ) (ρ : Dev nD → PrngReg)

/-- The read-out bias as a row: the reshape keeps the row-major order. -/
theorem W1_main_v0 (c : Dev nD) :
    (W1 m ρ c (Proc.devRef .tc main_v0) : S1x1000.Idx → Elt F .f32)
      = shapeCast S1x1000 (m ((c : Thread nD τ).loc main_arg3)) shapeCasts_S1000_S1x1000 := by
  dsimp only [W1, hostOps0]; after_results; rfl

theorem W1_main_v0_apply (c : Dev nD) (q : Fin 1000) :
    (W1 m ρ c (Proc.devRef .tc main_v0) : S1x1000.Idx → Elt F .f32) (ix2 0 q) = m ((c : Thread nD τ).loc main_arg3) (ix1 q) := by
  rw [W1_main_v0]
  refine (shapeCast_addUnit_apply ![1000] _ _ _).trans (congrArg _ ?_)
  funext a; match a with | ⟨0, _⟩ => rfl

/-- The selector bias as a row. -/
theorem W1_main_v1 (c : Dev nD) :
    (W1 m ρ c (Proc.devRef .tc main_v1) : S1x2048.Idx → Elt F .f32)
      = shapeCast S1x2048 (m ((c : Thread nD τ).loc main_arg5)) shapeCasts_S2048_S1x2048 := by
  dsimp only [W1, hostOps0]; after_results; rfl

theorem W1_main_v1_apply (c : Dev nD) (q : Fin 2048) :
    (W1 m ρ c (Proc.devRef .tc main_v1) : S1x2048.Idx → Elt F .f32) (ix2 0 q) = m ((c : Thread nD τ).loc main_arg5) (ix1 q) := by
  rw [W1_main_v1]
  refine (shapeCast_addUnit_apply ![2048] _ _ _).trans (congrArg _ ?_)
  funext a; match a with | ⟨0, _⟩ => rfl
end Reshapes

variable (m : (ℓ : Loc nD τ sig) → Buf (Elt Ideal) ℓ) (ρ : Dev nD → PrngReg)

/-! ## The launch arrays by coordinates -/

abbrev Xm (c : Dev nD) : Fin 64 → Fin 2048 → EReal := fun b f => (m ((c : Thread nD τ).loc main_arg0) : S64x2048.Idx → EReal) (ix2 b f)
abbrev Cm (c : Dev nD) : Fin 1000 → Fin 2048 → EReal := fun k f => (m ((c : Thread nD τ).loc main_arg1) : S1000x2048.Idx → EReal) (ix2 k f)
abbrev WHm (c : Dev nD) : Fin 1000 → Fin 2048 → EReal := fun k f => (m ((c : Thread nD τ).loc main_arg2) : S1000x2048.Idx → EReal) (ix2 k f)
abbrev BHm (c : Dev nD) : Fin 1000 → EReal := fun k => (m ((c : Thread nD τ).loc main_arg3) : S1000.Idx → EReal) (ix1 k)
abbrev WSm (c : Dev nD) : Fin 2048 → Fin 2048 → EReal := fun f g => (m ((c : Thread nD τ).loc main_arg4) : S2048x2048.Idx → EReal) (ix2 f g)
abbrev BSm (c : Dev nD) : Fin 2048 → EReal := fun f => (m ((c : Thread nD τ).loc main_arg5) : S2048.Idx → EReal) (ix1 f)
abbrev Wm (c : Dev nD) : Fin 1000 → Fin 2048 → EReal := fun k f => (m ((c : Thread nD τ).loc main_arg6) : S1000x2048.Idx → EReal) (ix2 k f)

abbrev one : EReal := Ideal.ofBits .f32 0x3F800000#32
abbrev two : EReal := Ideal.ofBits .f32 0x40000000#32
abbrev ten : EReal := Ideal.ofBits .f32 0x41200000#32
abbrev sixteen : EReal := Ideal.ofBits .f32 0x41800000#32

/-! ## Region 0's outputs as region 1 finds them -/

theorem mem_at (c : Dev nD) (b : Fin 64) (f : Fin 2048) :
    (W2 (F := Ideal) m ρ c (Proc.devRef .tc main_v2_0) : S64x2048.Idx → EReal) (ix2 b f)
      = Cert.Spec.memK (Xm m c) (Cm m c) (WHm m c) (BHm m c) b f := by
  have e0 : (fun (b : Fin 64) (f : Fin 2048) => (Vr1 m ρ c main_arg0 : S64x2048.Idx → EReal) (ix2 b f)) = Xm m c := by
    funext b f; exact congrFun (W1_keep m ρ c main_arg0 (by decide) (by decide)) (ix2 b f)
  have e1 : (fun (k : Fin 1000) (f : Fin 2048) => (Vr1 m ρ c main_arg1 : S1000x2048.Idx → EReal) (ix2 k f)) = Cm m c := by
    funext k f; exact congrFun (W1_keep m ρ c main_arg1 (by decide) (by decide)) (ix2 k f)
  have e2 : (fun (k : Fin 1000) (f : Fin 2048) => (Vr1 m ρ c main_arg2 : S1000x2048.Idx → EReal) (ix2 k f)) = WHm m c := by
    funext k f; exact congrFun (W1_keep m ρ c main_arg2 (by decide) (by decide)) (ix2 k f)
  have e3 : (fun (k : Fin 1000) => (Vr1 m ρ c main_v0 : S1x1000.Idx → EReal) (ix2 0 k)) = BHm m c := by
    funext k; exact W1_main_v0_apply m ρ c k
  refine (congrFun (W2_arr m ρ c 4) (ix2 b f)).trans ((final0_4 (Vr1 m ρ) c b f).trans ?_)
  rw [e0, e1, e2, e3]

theorem reach_at (c : Dev nD) (b : Fin 64) :
    (W2 (F := Ideal) m ρ c (Proc.devRef .tc main_v2_1) : S64x1.Idx → EReal) (ix2 b 0)
      = Cert.Spec.reachK two ten (Xm m c) (Cm m c) b := by
  have e0 : (fun (b : Fin 64) (f : Fin 2048) => (Vr1 m ρ c main_arg0 : S64x2048.Idx → EReal) (ix2 b f)) = Xm m c := by
    funext b f; exact congrFun (W1_keep m ρ c main_arg0 (by decide) (by decide)) (ix2 b f)
  have e1 : (fun (k : Fin 1000) (f : Fin 2048) => (Vr1 m ρ c main_arg1 : S1000x2048.Idx → EReal) (ix2 k f)) = Cm m c := by
    funext k f; exact congrFun (W1_keep m ρ c main_arg1 (by decide) (by decide)) (ix2 k f)
  refine (congrFun (W2_arr m ρ c 5) (ix2 b 0)).trans ((final0_5 (Vr1 m ρ) c b).trans ?_)
  rw [e0, e1]

/-! ## Region 1's outputs as region 2 finds them -/

theorem rd_arg0 (c : Dev nD) (b : Fin 64) (g : Fin 2048) : rd (Vr2 m ρ c main_arg0) b g = Xm m c b g :=
  congrFun (W2_main_arg0 m ρ c) (ix2 b g)
theorem rd_arg4 (c : Dev nD) (f g : Fin 2048) : rd (Vr2 m ρ c main_arg4) f g = WSm m c f g :=
  congrFun (W2_main_arg4 m ρ c) (ix2 f g)
theorem rd_v1 (c : Dev nD) (f : Fin 2048) : rd (Vr2 m ρ c main_v1) 0 f = BSm m c f :=
  (congrFun (W2_of_ne m ρ c main_v1 (by decide)) (ix2 0 f)).trans (W1_main_v1_apply m ρ c f)
theorem rd_mem (c : Dev nD) (b : Fin 64) (f : Fin 2048) :
    rd (Vr2 m ρ c main_v2_0) b f = Cert.Spec.memK (Xm m c) (Cm m c) (WHm m c) (BHm m c) b f := mem_at m ρ c b f
theorem rd_reach (c : Dev nD) (b : Fin 64) :
    rd (Vr2 m ρ c main_v2_1) b 0 = Cert.Spec.reachK two ten (Xm m c) (Cm m c) b := reach_at m ρ c b

/-- The infused feature: the selector times the memory feature. -/
theorem inf_at (c : Dev nD) (b : Fin 64) (f : Fin 2048) :
    (W3 (F := Ideal) m ρ c (Proc.devRef .tc main_v3_0) : S64x2048.Idx → EReal) (ix2 b f)
      = Cert.Spec.infK (Xm m c) (Cm m c) (WHm m c) (BHm m c) (WSm m c) (BSm m c) b f := by
  refine (congrFun (W3_arr m ρ c 5) (ix2 b f)).trans ((final1_5 (Vr2 m ρ) c b f).trans ?_)
  unfold Cert.Spec.infK Cert.Spec.sel
  exact congrArg₂ (· * ·) (congrArg Ideal.tanh (congrArg₂ (· + ·) (Finset.sum_congr rfl fun g _ => congrArg₂ (· * ·) (rd_arg0 m ρ c b g) (rd_arg4 m ρ c f g)) (rd_v1 m ρ c f))) (rd_mem m ρ c b f)

/-- The scaled feature: the reachability times the feature plus the infused feature. -/
theorem feat_at (c : Dev nD) (b : Fin 64) (f : Fin 2048) :
    (W3 (F := Ideal) m ρ c (Proc.devRef .tc main_v3_1) : S64x2048.Idx → EReal) (ix2 b f)
      = Cert.Spec.featK two ten (Xm m c) (Cm m c) (WHm m c) (BHm m c) (WSm m c) (BSm m c) b f := by
  refine (congrFun (W3_arr m ρ c 6) (ix2 b f)).trans ((final1_6 (Vr2 m ρ) c b f).trans ?_)
  unfold Cert.Spec.featK Cert.Spec.infK Cert.Spec.sel
  exact congrArg₂ (· * ·) (rd_reach m ρ c b) (congrArg₂ (· + ·) (rd_arg0 m ρ c b f) (congrArg₂ (· * ·) (congrArg Ideal.tanh (congrArg₂ (· + ·) (Finset.sum_congr rfl fun g _ => congrArg₂ (· * ·) (rd_arg0 m ρ c b g) (rd_arg4 m ρ c f g)) (rd_v1 m ρ c f))) (rd_mem m ρ c b f)))

/-! ## Region 2's logits at the end -/

theorem feat_eq (c : Dev nD) (b : Fin 64) (f : Fin 2048) :
    feat (Vr3 m ρ) c (ix2 b f) = Cert.Spec.featK two ten (Xm m c) (Cm m c) (WHm m c) (BHm m c) (WSm m c) (BSm m c) b f := feat_at m ρ c b f
theorem cls_eq (c : Dev nD) (q : Fin 1000) (f : Fin 2048) : cls (Vr3 m ρ) c (ix2 q f) = Wm m c q f :=
  congrFun (W3_main_arg6 m ρ c) (ix2 q f)

theorem logits_sum (c : Dev nD) (b : Fin 64) (q : Fin 1000) :
    (∑ f : Fin 2048, (Ideal.div (feat (Vr3 m ρ) c (ix2 b f)) (one + Ideal.sqrt (∑ g : Fin 2048, feat (Vr3 m ρ) c (ix2 b g) * feat (Vr3 m ρ) c (ix2 b g))) * sixteen)
        * Ideal.div (cls (Vr3 m ρ) c (ix2 q f)) (Ideal.sqrt (∑ g : Fin 2048, cls (Vr3 m ρ) c (ix2 q g) * cls (Vr3 m ρ) c (ix2 q g))) : EReal)
      = Cert.Spec.logitsK one two ten sixteen (Xm m c) (Cm m c) (WHm m c) (BHm m c) (WSm m c) (BSm m c) (Wm m c) b q := by
  unfold Cert.Spec.logitsK Cert.Spec.exK Cert.Spec.nK Cert.Spec.ew Cert.Spec.wn
  have hn : (∑ g : Fin 2048, feat (Vr3 m ρ) c (ix2 b g) * feat (Vr3 m ρ) c (ix2 b g))
      = ∑ g : Fin 2048, Cert.Spec.featK two ten (Xm m c) (Cm m c) (WHm m c) (BHm m c) (WSm m c) (BSm m c) b g * Cert.Spec.featK two ten (Xm m c) (Cm m c) (WHm m c) (BHm m c) (WSm m c) (BSm m c) b g :=
    Finset.sum_congr rfl fun g _ => congrArg₂ (· * ·) (feat_eq m ρ c b g) (feat_eq m ρ c b g)
  have hw : (∑ g : Fin 2048, cls (Vr3 m ρ) c (ix2 q g) * cls (Vr3 m ρ) c (ix2 q g)) = ∑ g : Fin 2048, Wm m c q g * Wm m c q g :=
    Finset.sum_congr rfl fun g _ => congrArg₂ (· * ·) (cls_eq m ρ c q g) (cls_eq m ρ c q g)
  refine Finset.sum_congr rfl fun f _ => ?_
  exact congrArg₂ (· * ·) (congrArg₂ (· * ·) (congrArg₂ Ideal.div (feat_eq m ρ c b f) (congrArg (fun z => one + Ideal.sqrt z) hn)) rfl)
    (congrArg₂ Ideal.div (cls_eq m ρ c q f) (congrArg Ideal.sqrt hw))

theorem logits_at (c : Dev nD) (b : Fin 64) (q : Fin 1000) :
    (W4 (F := Ideal) m ρ c (Proc.devRef .tc main_v4) : S64x1000.Idx → EReal) (ix2 b q)
      = Cert.Spec.logitsK one two ten sixteen (Xm m c) (Cm m c) (WHm m c) (BHm m c) (WSm m c) (BSm m c) (Wm m c) b q :=
  (congrFun (W4_arr m ρ c 2) (ix2 b q)).trans ((final2 (Vr3 m ρ) c b q).trans (logits_sum m ρ c b q))

/-! ## The run, read at the results and the arguments -/

/-- Every weakly fair execution of the idealized kernel program terminates, nothing faulting; the logits end at
    the kernel-shaped reading of the launch arrays, the infused feature likewise, and every argument as launched. -/
theorem run_values : θ_run defs (onTc (τ := τ) (main (F := Ideal))) ⟨m, fun _ => 0, ρ⟩ (fun r => ∀ c : Dev nD,
      r.2.mem ((c.tc : Thread nD τ).loc main_v4)
          = (fun i => Cert.Spec.logitsK one two ten sixteen (Xm m c) (Cm m c) (WHm m c) (BHm m c) (WSm m c) (BSm m c) (Wm m c) (i 0) (i 1))
      ∧ r.2.mem ((c.tc : Thread nD τ).loc main_v3_0) = (fun i => Cert.Spec.infK (Xm m c) (Cm m c) (WHm m c) (BHm m c) (WSm m c) (BSm m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (funext fun i => by
        obtain ⟨b, q, rfl⟩ : ∃ (b : Fin 64) (q : Fin 1000), i = ix2 b q := ⟨i 0, i 1, eq_ix2 i⟩
        exact logits_at m ρ c b q),
     (h c _ (mem_uc main_v3_0 (by decide))).trans ((W4_of_ne m ρ c main_v3_0 (by decide)).trans (funext fun i => by
        obtain ⟨b, f, rfl⟩ : ∃ (b : Fin 64) (f : Fin 2048), i = ix2 b f := ⟨i 0, i 1, eq_ix2 i⟩
        exact inf_at m ρ c b f)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩)
    (run_all (F := Ideal) m ρ (fun V => local2 V))

end Cert.KernelIdeal.Out

end
-- ==== Proof.RefIsSpec.lean ====
/-
  The reference program's results are the reference-shaped reading of the classifier (Spec.lean, the names ending in R).

  The reference returns three arrays: the logits (64 × 1000), the features themselves, and the infused feature
  (64 × 2048). Its generated stage functions (val_main_vN, one per operation, read at an index by val_main_vN_apply)
  are followed here from the arguments to the results, one lemma per quantity of the specification, each stated at
  an index given by its coordinates:

    logit  b c = (∑ f, X b f · WH c f) + BH c            a product with the transposed read-out weights plus a row of biases
    mx     b   = sup over c of logit b c                 a maximum taken from −∞, and once more against −∞
    p      b c = exp (logit b c − mx b),  l b = ∑ c, p b c
    memR   b f = ∑ c, (p b c / l b) · C c f              the softmax is normalised before the product with the centroids
    sel    b f = tanh ((∑ g, X b g · WS f g) + BS f)
    infR   b f = sel b f · memR b f                      the third result
    distR  b c = √(∑ f, (X b f − C c f)²),  reachR b = 10 / inf over c of distR b c   (the minimum taken from +∞)
    featR  b f = reachR b · (X b f + infR b f),  nR b = √(∑ f, featR b f²)
    exR    b f = (nR b / (1 + nR b)) · (featR b f / nR b)
    ew     c f = W c f / √(∑ f, W c f²)
    logitsR b c = ∑ f, exR b f · (ew c f · 16)           the first result

  A sum the host takes from the zero word is the plain sum (0 + ∑ = ∑). The three literals 1, 10 and 16 stay the
  words the program carries and are never evaluated; only the zero word and the two infinities are.

  The two closing theorems, logits_eq and infused_eq, are stated over the generated stage functions val_main_v53 and
  val_main_v35, which the generated val_main_v53_eq and val_main_v35_eq identify with the run's result terms.
-/
import proofs.«123336_j4191888081208_2_alg».proof.Proof.Spec
import proofs.«123336_j4191888081208_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

/-! ## The two infinities, and a fold of max from −∞ (of min from +∞) as a supremum (an infimum) -/

/-- The word of −∞ is the bottom of the extended reals. -/
theorem negInf : Ideal.ofBits .f32 0xFF800000#32 = (⊥ : EReal) := by simp [Ideal.ofBits, Ideal.ieee]
/-- The word of +∞ is the top of the extended reals. -/
theorem posInf : Ideal.ofBits .f32 0x7F800000#32 = (⊤ : EReal) := by simp [Ideal.ofBits, Ideal.ieee]

theorem fold_max_bot {ι : Type} (s : Finset ι) (f : ι → EReal) : s.fold max ⊥ f = s.sup f := rfl
theorem fold_min_top {ι : Type} (s : Finset ι) (f : ι → EReal) : s.fold min ⊤ f = s.inf f := rfl

/-! ## The arguments, as functions of their coordinates -/

variable (x : FVec Ideal S64x2048 .f32) (cen wh : FVec Ideal S1000x2048 .f32) (bh : FVec Ideal S1000 .f32)
  (ws : FVec Ideal S2048x2048 .f32) (bs : FVec Ideal S2048 .f32) (w : FVec Ideal S1000x2048 .f32)

abbrev Xf : Fin 64 → Fin 2048 → EReal := fun b f => x (ix2 b f)
abbrev Cf : Fin 1000 → Fin 2048 → EReal := fun c f => cen (ix2 c f)
abbrev WHf : Fin 1000 → Fin 2048 → EReal := fun c f => wh (ix2 c f)
abbrev BHf : Fin 1000 → EReal := fun c => bh (ix1 c)

/-! ## The read-out logits and their softmax -/

theorem lidx13 (b : Fin 64) (c : Fin 1000) (k : Fin 2048) : lidx_main_v13 (ix2 b c) k = ix2 b k :=
  funext fun a => Fin.ext (by match a with | ⟨0, _⟩ => rfl | ⟨1, _⟩ => rfl)
theorem ridx13 (b : Fin 64) (c : Fin 1000) (k : Fin 2048) : idx_main_v12 (ridx_main_v13 (ix2 b c) k) = ix2 c k :=
  funext fun a => Fin.ext (by match a with | ⟨0, _⟩ => rfl | ⟨1, _⟩ => rfl)
theorem idx1514 (b : Fin 64) (c : Fin 1000) : idx_main_v14 (idx_main_v15 (ix2 b c)) = ix1 c :=
  funext fun a => Fin.ext (by match a with | ⟨0, _⟩ => rfl)

/-- The read-out logit: the product reads the transposed weights at (f, c), that is WH c f, and the bias row at c. -/
theorem logit_eq (b : Fin 64) (c : Fin 1000) :
    val_main_v16 (F := Ideal) x wh bh (ix2 b c) = Cert.Spec.logit (Xf x) (WHf wh) (BHf bh) b c := by
  rw [val_main_v16_apply, val_main_v13_apply, val_main_v15_apply, val_main_v14_apply, idx1514]
  simp only [val_main_v12_apply, lidx13, ridx13]
  rfl

/-- The reduced row index with a class coordinate put back. -/
theorem lift_row (h : S64x1000.Reduces [1] S64) (b : Fin 64) (k : Fin (S64x1000.size 1)) :
    h.lift (ix1 b) k = ix2 b (⟨k.val, k.isLt⟩ : Fin 1000) := by
  funext a; apply Fin.ext
  match a with | ⟨0, _⟩ => rfl | ⟨1, _⟩ => rfl

/-- From −∞ the maximum over the classes of a row is the supremum of the row. -/
theorem rowMax_eq (y : FVec Ideal S64x1000 .f32) (b : Fin 64) :
    Host.reduce FloatOps.maximumf y (val_main_cst_2 (F := Ideal)) reducesTo_S64x1000_S64_d1 h_S_ (ix1 b)
      = (Finset.univ : Finset (Fin 1000)).sup fun c => y (ix2 b c) := by
  have h : S64x1000.Reduces [1] S64 := by decide
  rw [Host.reduce_eq_fold_single FloatOps.maximumf y _ reducesTo_S64x1000_S64_d1 h h_S_]
  have hf : (y ∘ h.lift (ix1 b)) = fun c : Fin 1000 => y (ix2 b c) := funext fun k => congrArg y (lift_row h b k)
  have hi : (val_main_cst_2 (F := Ideal)) (Shape.Idx.first h_S_) = (⊥ : EReal) := negInf
  rw [hi]
  exact (congrArg (fun f => Finset.fold max (⊥ : EReal) f (Finset.univ : Finset (Fin 1000))) hf).trans (fold_max_bot _ _)

theorem idx18 (b : Fin 64) : idx_main_v18 (ix1 b) = ix0 := funext fun a => a.elim0

/-- The largest logit: the maximum of −∞ and the row's supremum is the supremum. -/
theorem mx_eq (b : Fin 64) :
    val_main_v19 (F := Ideal) x wh bh (ix1 b) = Cert.Spec.mx (Xf x) (WHf wh) (BHf bh) b := by
  rw [val_main_v19_apply, val_main_v18_apply, val_main_cst_3_apply]
  unfold val_main_v17
  rw [rowMax_eq]
  simp only [logit_eq, Ideal.ofBits_def, negInf, Ideal.maximumf_def, bot_le, max_eq_right]
  rfl

theorem idx2120 (b : Fin 64) (c : Fin 1000) : idx_main_v20 (idx_main_v21 (ix2 b c)) = ix1 b :=
  funext fun a => Fin.ext (by match a with | ⟨0, _⟩ => rfl)

/-- The softmax numerator. -/
theorem p_eq (b : Fin 64) (c : Fin 1000) :
    val_main_v23 (F := Ideal) x wh bh (ix2 b c) = Cert.Spec.p (Xf x) (WHf wh) (BHf bh) b c := by
  rw [val_main_v23_apply, val_main_v22_apply, val_main_v21_apply, val_main_v20_apply, idx2120, mx_eq, logit_eq]
  rfl

theorem idx24 (b : Fin 64) (k : Fin 1000) : idx_main_v24 (ix1 b) k = ix2 b k :=
  funext fun a => Fin.ext (by match a with | ⟨0, _⟩ => rfl | ⟨1, _⟩ => rfl)

/-- The softmax denominator: zero plus the sum is the sum. -/
theorem l_eq (b : Fin 64) :
    val_main_v24 (F := Ideal) x wh bh (ix1 b) = Cert.Spec.l (Xf x) (WHf wh) (BHf bh) b := by
  rw [val_main_v24_apply, val_main_cst_4_apply]
  simp only [idx24, p_eq, Ideal.ofBits_def, Ideal.ofBits_zero_f32, zero_add]
  rfl

abbrev WSf : Fin 2048 → Fin 2048 → EReal := fun f g => ws (ix2 f g)
abbrev BSf : Fin 2048 → EReal := fun f => bs (ix1 f)
abbrev Wf : Fin 1000 → Fin 2048 → EReal := fun c f => w (ix2 c f)

theorem idx2625 (b : Fin 64) (c : Fin 1000) : idx_main_v25 (idx_main_v26 (ix2 b c)) = ix1 b :=
  funext fun a => Fin.ext (by match a with | ⟨0, _⟩ => rfl)

/-- The normalised softmax weight. -/
theorem soft_eq (b : Fin 64) (c : Fin 1000) :
    val_main_v27 (F := Ideal) x wh bh (ix2 b c)
      = Ideal.div (Cert.Spec.p (Xf x) (WHf wh) (BHf bh) b c) (Cert.Spec.l (Xf x) (WHf wh) (BHf bh) b) := by
  rw [val_main_v27_apply, val_main_v26_apply, val_main_v25_apply, idx2625, p_eq, l_eq]
  rfl

theorem lidx28 (b : Fin 64) (f : Fin 2048) (k : Fin 1000) : lidx_main_v28 (ix2 b f) k = ix2 b k :=
  funext fun a => Fin.ext (by match a with | ⟨0, _⟩ => rfl | ⟨1, _⟩ => rfl)
theorem ridx28 (b : Fin 64) (f : Fin 2048) (k : Fin 1000) : ridx_main_v28 (ix2 b f) k = ix2 k f :=
  funext fun a => Fin.ext (by match a with | ⟨0, _⟩ => rfl | ⟨1, _⟩ => rfl)

/-- The memory read: the product of the normalised weights with the centroids. -/
theorem mem_eq (b : Fin 64) (f : Fin 2048) :
    val_main_v28 (F := Ideal) x cen wh bh (ix2 b f) = Cert.Spec.memR (Xf x) (Cf cen) (WHf wh) (BHf bh) b f := by
  rw [val_main_v28_apply]
  simp only [lidx28, ridx28, soft_eq]
  rfl

theorem lidx30 (b : Fin 64) (f : Fin 2048) (k : Fin 2048) : lidx_main_v30 (ix2 b f) k = ix2 b k :=
  funext fun a => Fin.ext (by match a with | ⟨0, _⟩ => rfl | ⟨1, _⟩ => rfl)
theorem ridx30 (b : Fin 64) (f : Fin 2048) (k : Fin 2048) : idx_main_v29 (ridx_main_v30 (ix2 b f) k) = ix2 f k :=
  funext fun a => Fin.ext (by match a with | ⟨0, _⟩ => rfl | ⟨1, _⟩ => rfl)
theorem idx3231 (b : Fin 64) (f : Fin 2048) : idx_main_v31 (idx_main_v32 (ix2 b f)) = ix1 f :=
  funext fun a => Fin.ext (by match a with | ⟨0, _⟩ => rfl)

/-- The concept selector: the product reads the transposed selector weights at (g, f), that is WS f g. -/
theorem sel_eq (b : Fin 64) (f : Fin 2048) :
    val_main_v34 (F := Ideal) x ws bs (ix2 b f) = Cert.Spec.sel (Xf x) (WSf ws) (BSf bs) b f := by
  rw [val_main_v34_apply, val_main_v33_apply, val_main_v30_apply, val_main_v32_apply, val_main_v31_apply, idx3231]
  simp only [val_main_v29_apply, lidx30, ridx30]
  rfl

/-- The infused feature at an index. -/
theorem inf_eq (b : Fin 64) (f : Fin 2048) :
    val_main_v35 (F := Ideal) x cen wh bh ws bs (ix2 b f)
      = Cert.Spec.infR (Xf x) (Cf cen) (WHf wh) (BHf bh) (WSf ws) (BSf bs) b f := by
  rw [val_main_v35_apply, sel_eq, mem_eq]
  rfl

/-! ## The distance to the nearest centroid -/

theorem idx6 (b : Fin 64) (c : Fin 1000) (k : Fin 2048) : idx_main_v6 (ix2 b c) k = ix3 b c k :=
  funext fun a => Fin.ext (by match a with | ⟨0, _⟩ => rfl | ⟨1, _⟩ => rfl | ⟨2, _⟩ => rfl)
theorem idx20 (b : Fin 64) (c : Fin 1000) (k : Fin 2048) : idx_main_v0 (idx_main_v2 (ix3 b c k)) = ix2 b k :=
  funext fun a => Fin.ext (by match a with | ⟨0, _⟩ => rfl | ⟨1, _⟩ => rfl)
theorem idx31 (b : Fin 64) (c : Fin 1000) (k : Fin 2048) : idx_main_v1 (idx_main_v3 (ix3 b c k)) = ix2 c k :=
  funext fun a => Fin.ext (by match a with | ⟨0, _⟩ => rfl | ⟨1, _⟩ => rfl)

/-- The distance from sample b to centroid c: both operands are broadcast to (b, c, f) and read back at (b, f) and (c, f). -/
theorem dist_eq (b : Fin 64) (c : Fin 1000) :
    val_main_v7 (F := Ideal) x cen (ix2 b c) = Cert.Spec.distR (Xf x) (Cf cen) b c := by
  rw [val_main_v7_apply, val_main_v6_apply, val_main_cst_apply]
  simp only [idx6, val_main_v5_apply, val_main_v4_apply, val_main_v2_apply, val_main_v3_apply, val_main_v0_apply,
    val_main_v1_apply, idx20, idx31, Ideal.ofBits_def, Ideal.ofBits_zero_f32, zero_add]
  rfl

/-- From +∞ the minimum over the classes of a row is the infimum of the row. -/
theorem rowMin_eq (y : FVec Ideal S64x1000 .f32) (b : Fin 64) :
    Host.reduce FloatOps.minimumf y (val_main_cst_0 (F := Ideal)) reducesTo_S64x1000_S64_d1 h_S_ (ix1 b)
      = (Finset.univ : Finset (Fin 1000)).inf fun c => y (ix2 b c) := by
  have h : S64x1000.Reduces [1] S64 := by decide
  rw [Host.reduce_eq_fold_single FloatOps.minimumf y _ reducesTo_S64x1000_S64_d1 h h_S_]
  have hf : (y ∘ h.lift (ix1 b)) = fun c : Fin 1000 => y (ix2 b c) := funext fun k => congrArg y (lift_row h b k)
  have hi : (val_main_cst_0 (F := Ideal)) (Shape.Idx.first h_S_) = (⊤ : EReal) := posInf
  rw [hi]
  exact (congrArg (fun f => Finset.fold min (⊤ : EReal) f (Finset.univ : Finset (Fin 1000))) hf).trans (fold_min_top _ _)

/-- The reachability: ten over the smallest distance. -/
theorem reach_eq (b : Fin 64) :
    val_main_v10 (F := Ideal) x cen (ix1 b)
      = Cert.Spec.reachR (Ideal.ofBits .f32 0x41200000#32) (Xf x) (Cf cen) b := by
  rw [val_main_v10_apply, val_main_v9_apply, val_main_cst_1_apply]
  unfold val_main_v8
  rw [rowMin_eq]
  simp only [dist_eq]
  rfl

theorem idx3711 (b : Fin 64) (f : Fin 2048) : idx_main_v11 (idx_main_v37 (ix2 b f)) = ix1 b :=
  funext fun a => Fin.ext (by match a with | ⟨0, _⟩ => rfl)

/-- The scaled feature: the reachability column is broadcast along the feature axis. -/
theorem feat_eq (b : Fin 64) (f : Fin 2048) :
    val_main_v38 (F := Ideal) x cen wh bh ws bs (ix2 b f)
      = Cert.Spec.featR (Ideal.ofBits .f32 0x41200000#32) (Xf x) (Cf cen) (WHf wh) (BHf bh) (WSf ws) (BSf bs) b f := by
  rw [val_main_v38_apply, val_main_v37_apply, val_main_v11_apply, idx3711, reach_eq, val_main_v36_apply, inf_eq]
  rfl

/-! ## The norm gate -/

theorem idxc02 (b : Fin 64) (z : Fin 1) : idx_main_call0_v2 (ix2 b z) = ix1 b :=
  funext fun a => Fin.ext (by match a with | ⟨0, _⟩ => rfl)
theorem idxc01 (b : Fin 64) (k : Fin 2048) : idx_main_call0_v1 (ix1 b) k = ix2 b k :=
  funext fun a => Fin.ext (by match a with | ⟨0, _⟩ => rfl | ⟨1, _⟩ => rfl)

/-- The norm of the scaled feature row, kept as a column of one entry. -/
theorem n_eq (b : Fin 64) (z : Fin 1) :
    val_main_v39 (F := Ideal) x cen wh bh ws bs (ix2 b z)
      = Cert.Spec.nR (Ideal.ofBits .f32 0x41200000#32) (Xf x) (Cf cen) (WHf wh) (BHf bh) (WSf ws) (BSf bs) b := by
  rw [val_main_v39_apply, val_main_call0_v2_apply, idxc02, val_main_call0_v1_apply, val_main_call0_cst_apply]
  simp only [idxc01, val_main_call0_v0_apply, feat_eq, Ideal.ofBits_def, Ideal.ofBits_zero_f32, zero_add]
  rfl

theorem idx45 (b : Fin 64) (f : Fin 2048) : idx_main_v45 (ix2 b f) = ix2 b (0 : Fin 1) :=
  funext fun a => Fin.ext (by match a with | ⟨0, _⟩ => rfl | ⟨1, _⟩ => rfl)
theorem idx43 (b : Fin 64) (f : Fin 2048) : idx_main_v43 (ix2 b f) = ix2 b (0 : Fin 1) :=
  funext fun a => Fin.ext (by match a with | ⟨0, _⟩ => rfl | ⟨1, _⟩ => rfl)

/-- The norm-gated unit feature. -/
theorem ex_eq (b : Fin 64) (f : Fin 2048) :
    val_main_v46 (F := Ideal) x cen wh bh ws bs (ix2 b f)
      = Cert.Spec.exR (Ideal.ofBits .f32 0x3F800000#32) (Ideal.ofBits .f32 0x41200000#32)
          (Xf x) (Cf cen) (WHf wh) (BHf bh) (WSf ws) (BSf bs) b f := by
  rw [val_main_v46_apply, val_main_v45_apply, idx45, val_main_v42_apply, val_main_v41_apply, val_main_v40_apply,
    val_main_cst_5_apply, val_main_v44_apply, val_main_v43_apply, idx43, n_eq, feat_eq]
  rfl

/-! ## The unit classifier rows -/

theorem idx5048 (c : Fin 1000) (f : Fin 2048) : idx_main_v48 (idx_main_v50 (ix2 f c)) = ix2 c (0 : Fin 1) :=
  funext fun a => Fin.ext (by match a with | ⟨0, _⟩ => rfl | ⟨1, _⟩ => rfl)
theorem idx50 (c : Fin 1000) (f : Fin 2048) : idx_main_v50 (ix2 f c) = ix2 c f :=
  funext fun a => Fin.ext (by match a with | ⟨0, _⟩ => rfl | ⟨1, _⟩ => rfl)
theorem idxc12 (c : Fin 1000) (z : Fin 1) : idx_main_call1_v2 (ix2 c z) = ix1 c :=
  funext fun a => Fin.ext (by match a with | ⟨0, _⟩ => rfl)
theorem idxc11 (c : Fin 1000) (k : Fin 2048) : idx_main_call1_v1 (ix1 c) k = ix2 c k :=
  funext fun a => Fin.ext (by match a with | ⟨0, _⟩ => rfl | ⟨1, _⟩ => rfl)

/-- The norm of a classifier row, kept as a column of one entry. -/
theorem wn_eq (c : Fin 1000) (z : Fin 1) :
    val_main_v47 (F := Ideal) w (ix2 c z) = Cert.Spec.wn (Wf w) c := by
  rw [val_main_v47_apply, val_main_call1_v2_apply, idxc12, val_main_call1_v1_apply, val_main_call1_cst_apply]
  simp only [idxc11, val_main_call1_v0_apply, Ideal.ofBits_def, Ideal.ofBits_zero_f32, zero_add]
  rfl

/-- The scaled unit row, as the transposed operand of the last product holds it. -/
theorem ew_eq (c : Fin 1000) (f : Fin 2048) :
    val_main_v52 (F := Ideal) w (ix2 f c) = Cert.Spec.ew (Wf w) c f * Ideal.ofBits .f32 0x41800000#32 := by
  rw [val_main_v52_apply, val_main_v50_apply, val_main_v49_apply, val_main_v48_apply, idx5048, idx50, wn_eq,
    val_main_v51_apply, val_main_cst_6_apply]
  rfl

/-! ## The results -/

theorem lidx53 (b : Fin 64) (c : Fin 1000) (k : Fin 2048) : lidx_main_v53 (ix2 b c) k = ix2 b k :=
  funext fun a => Fin.ext (by match a with | ⟨0, _⟩ => rfl | ⟨1, _⟩ => rfl)
theorem ridx53 (b : Fin 64) (c : Fin 1000) (k : Fin 2048) : ridx_main_v53 (ix2 b c) k = ix2 k c :=
  funext fun a => Fin.ext (by match a with | ⟨0, _⟩ => rfl | ⟨1, _⟩ => rfl)

/-- The logits at an index. -/
theorem logits_at (b : Fin 64) (c : Fin 1000) :
    val_main_v53 (F := Ideal) x cen wh bh ws bs w (ix2 b c)
      = Cert.Spec.logitsR (Ideal.ofBits .f32 0x3F800000#32) (Ideal.ofBits .f32 0x41200000#32)
          (Ideal.ofBits .f32 0x41800000#32) (Xf x) (Cf cen) (WHf wh) (BHf bh) (WSf ws) (BSf bs) (Wf w) b c := by
  rw [val_main_v53_apply]
  simp only [lidx53, ridx53, ex_eq, ew_eq]
  rfl

/-- The reference's logits are the reference-shaped reading. -/
theorem logits_eq :
    val_main_v53 (F := Ideal) x cen wh bh ws bs w
      = fun i => Cert.Spec.logitsR (Ideal.ofBits .f32 0x3F800000#32) (Ideal.ofBits .f32 0x41200000#32)
          (Ideal.ofBits .f32 0x41800000#32) (Xf x) (Cf cen) (WHf wh) (BHf bh) (WSf ws) (BSf bs) (Wf w) (i 0) (i 1) := by
  funext i
  obtain ⟨b, c, rfl⟩ : ∃ (b : Fin 64) (c : Fin 1000), i = ix2 b c := ⟨i 0, i 1, eq_ix2 i⟩
  exact logits_at x cen wh bh ws bs w b c

/-- The reference's infused feature is the reference-shaped reading. -/
theorem infused_eq :
    val_main_v35 (F := Ideal) x cen wh bh ws bs
      = fun i => Cert.Spec.infR (Xf x) (Cf cen) (WHf wh) (BHf bh) (WSf ws) (BSf bs) (i 0) (i 1) := by
  funext i
  obtain ⟨b, f, rfl⟩ : ∃ (b : Fin 64) (f : Fin 2048), i = ix2 b f := ⟨i 0, i 1, eq_ix2 i⟩
  exact inf_eq x cen wh bh ws bs b f

end Cert.ReferenceIdeal.RefValue
end
-- ==== Proof.SpecLaw.lean ====
/-
  The algebra that joins the two whole-array readings of the classifier.

  Over the extended reals, with every input entry a real number:
  * dividing the product with the centroids by the softmax denominator is the product of the normalised softmax
    with the centroids (the denominator is a positive real);
  * the expanded squared distance ‖x‖² + ‖c‖² − 2 x·c is the sum of the squared differences, which is nonnegative,
    so the clamp at zero is the identity, and the root, being monotone and fixing ⊤, commutes with the minimum;
  * for any row a and n = √(Σ a²), (n / (1 + n)) · (a_f / n) = a_f / (1 + n), whatever the entries of a are.
-/
import proofs.«123336_j4191888081208_2_alg».proof.Proof.Spec
import Idealize.ShloMosaic.PureOps.Ideal

noncomputable section

namespace Cert.Spec

open Idealize.ShloMosaic

variable (one two ten sixteen : EReal)
variable (X : Fin 64 → Fin 2048 → EReal) (C WH : Fin 1000 → Fin 2048 → EReal) (BH : Fin 1000 → EReal)
  (WS : Fin 2048 → Fin 2048 → EReal) (BS : Fin 2048 → EReal) (W : Fin 1000 → Fin 2048 → EReal)

/-! ## General facts on the extended reals -/

namespace Law

/-- The coercion of a finite real sum is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The root is monotone: a negative real and ⊥ go to ⊥, ⊤ to ⊤, and the real root is monotone. -/
theorem sqrt_mono : Monotone Ideal.sqrt := by
  intro x y hxy
  induction x using EReal.rec with
  | bot => simp
  | top => rw [top_le_iff] at hxy; subst hxy; exact le_rfl
  | coe r =>
    induction y using EReal.rec with
    | bot => simp at hxy
    | top => simp
    | coe t =>
      have hrt : r ≤ t := by exact_mod_cast hxy
      rw [Ideal.sqrt_coe, Ideal.sqrt_coe]
      by_cases hr : r < 0
      · simp [hr]
      · have ht : ¬ t < 0 := by linarith
        rw [if_neg hr, if_neg ht]
        exact_mod_cast Real.sqrt_le_sqrt hrt

/-- A root is ⊥ or nonnegative. -/
theorem sqrt_bot_or_nonneg (x : EReal) : Ideal.sqrt x = ⊥ ∨ 0 ≤ Ideal.sqrt x := by
  induction x using EReal.rec with
  | bot => exact Or.inl rfl
  | top => exact Or.inr le_top
  | coe r =>
    rw [Ideal.sqrt_coe]
    by_cases hr : r < 0
    · exact Or.inl (if_pos hr)
    · rw [if_neg hr]; exact Or.inr (by exact_mod_cast Real.sqrt_nonneg r)

/-- A nonnegative extended real whose root is zero is zero. -/
theorem eq_zero_of_sqrt_eq_zero {x : EReal} (hx : 0 ≤ x) (h : Ideal.sqrt x = 0) : x = 0 := by
  induction x using EReal.rec with
  | bot => simp at hx
  | top => simp at h
  | coe r =>
    have hr : 0 ≤ r := by exact_mod_cast hx
    rw [Ideal.sqrt_coe, if_neg (not_lt.2 hr)] at h
    have : Real.sqrt r = 0 := by exact_mod_cast h
    rw [(Real.sqrt_eq_zero hr).1 this]; rfl

/-- A square is nonnegative on the extended reals too. -/
theorem mul_self_nonneg' (x : EReal) : 0 ≤ x * x := by
  rw [EReal.mul_nonneg_iff]
  rcases le_total 0 x with h | h
  · exact Or.inl ⟨h, h⟩
  · exact Or.inr ⟨h, h⟩

/-- The scaling law in terms of the norm n alone: n is ⊥ or nonnegative, and x vanishes when n does. -/
theorem ex_core (n x : EReal) (hn : n = ⊥ ∨ 0 ≤ n) (hx : n = 0 → x = 0) :
    Ideal.div n (1 + n) * Ideal.div x n = Ideal.div x (1 + n) := by
  induction n using EReal.rec with
  | bot =>
    have h1 : (1 : EReal) + ⊥ = ⊥ := EReal.add_bot 1
    rw [h1]
    simp [Ideal.div, EReal.inv_bot]
  | top =>
    have h1 : (1 : EReal) + ⊤ = ⊤ := by rw [← EReal.coe_one]; exact EReal.coe_add_top 1
    rw [h1]
    simp [Ideal.div, EReal.inv_top]
  | coe s =>
    have hs : 0 ≤ s := by
      rcases hn with h | h
      · exact absurd h (EReal.coe_ne_bot s)
      · exact_mod_cast h
    by_cases h0 : s = 0
    · subst h0
      have hx0 : x = 0 := hx (by simp)
      subst hx0
      simp [Ideal.div]
    · have h1s : (1 : ℝ) + s ≠ 0 := by positivity
      have e1 : (1 : EReal) + (s : EReal) = ((1 + s : ℝ) : EReal) := by
        rw [EReal.coe_add, EReal.coe_one]
      rw [e1, Ideal.div_coe h1s, Ideal.div_coe h0, Ideal.div_coe h1s, ← EReal.coe_mul,
        mul_comm x, ← mul_assoc, ← EReal.coe_mul, mul_comm]
      congr 2
      field_simp

/-- Division by a nonzero real passes inside a finite sum of real products. -/
theorem div_sum_mul {ι : Type*} [Fintype ι] (P Cr : ι → ℝ) (L : ℝ) (hL : L ≠ 0) :
    Ideal.div (∑ c, (P c : EReal) * (Cr c : EReal)) (L : EReal)
      = ∑ c, Ideal.div (P c : EReal) (L : EReal) * (Cr c : EReal) := by
  rw [Ideal.div_coe hL]
  simp_rw [Ideal.div_coe hL, ← EReal.coe_mul, ← coe_sum, ← EReal.coe_mul]
  congr 1
  rw [Finset.sum_mul]
  exact Finset.sum_congr rfl (fun c _ => by ring)

end Law

open Law

/-! ## The scaling law -/

theorem ex_law (h1 : one = ((1 : ℝ) : EReal)) (a : Fin 2048 → EReal) (f : Fin 2048) :
    Ideal.div (Ideal.sqrt (∑ g, a g * a g)) (one + Ideal.sqrt (∑ g, a g * a g))
        * Ideal.div (a f) (Ideal.sqrt (∑ g, a g * a g))
      = Ideal.div (a f) (one + Ideal.sqrt (∑ g, a g * a g)) := by
  subst h1
  rw [EReal.coe_one]
  have hS : 0 ≤ ∑ g, a g * a g := Finset.sum_nonneg (fun g _ => mul_self_nonneg' (a g))
  refine ex_core _ _ (sqrt_bot_or_nonneg _) (fun h0 => ?_)
  have hS0 : ∑ g, a g * a g = 0 := eq_zero_of_sqrt_eq_zero hS h0
  have := (Finset.sum_eq_zero_iff_of_nonneg (fun g _ => mul_self_nonneg' (a g))).1 hS0 f (Finset.mem_univ f)
  exact mul_self_eq_zero.1 this

/-! ## The memory read-out -/

theorem memK_eq_memR (hX : ∀ b f, ∃ r : ℝ, X b f = r) (hC : ∀ c f, ∃ r : ℝ, C c f = r)
    (hWH : ∀ c f, ∃ r : ℝ, WH c f = r) (hBH : ∀ c, ∃ r : ℝ, BH c = r) (b : Fin 64) (f : Fin 2048) :
    memK X C WH BH b f = memR X C WH BH b f := by
  choose Xr hXr using hX
  choose Cr hCr using hC
  choose Wr hWr using hWH
  choose Br hBr using hBH
  -- every logit is real
  have hlog : ∀ c, logit X WH BH b c = (((∑ g, Xr b g * Wr c g) + Br c : ℝ) : EReal) := by
    intro c
    unfold logit
    simp_rw [hXr, hWr, hBr, ← EReal.coe_mul, ← coe_sum, ← EReal.coe_add]
  -- their supremum over the nonempty index set is one of them, so it is real
  obtain ⟨c0, -, hc0⟩ := Finset.exists_mem_eq_sup Finset.univ ⟨(0 : Fin 1000), Finset.mem_univ _⟩
    (logit X WH BH b)
  have hmx : mx X WH BH b = (((∑ g, Xr b g * Wr c0 g) + Br c0 : ℝ) : EReal) := by
    unfold mx; rw [hc0, hlog]
  -- so the softmax numerators are positive reals
  have hp : ∀ c, p X WH BH b c
      = ((Real.exp (((∑ g, Xr b g * Wr c g) + Br c) - ((∑ g, Xr b g * Wr c0 g) + Br c0)) : ℝ) : EReal) := by
    intro c
    unfold p
    rw [hlog, hmx, ← EReal.coe_sub, Ideal.exp_coe]
  -- and the denominator is a positive real
  have hl : l X WH BH b
      = ((∑ c, Real.exp (((∑ g, Xr b g * Wr c g) + Br c) - ((∑ g, Xr b g * Wr c0 g) + Br c0)) : ℝ) : EReal) := by
    unfold l
    simp_rw [hp, ← coe_sum]
  have hL : (∑ c : Fin 1000, Real.exp (((∑ g, Xr b g * Wr c g) + Br c) - ((∑ g, Xr b g * Wr c0 g) + Br c0))) ≠ 0 :=
    ne_of_gt (Finset.sum_pos (fun c _ => Real.exp_pos _) ⟨(0 : Fin 1000), Finset.mem_univ _⟩)
  unfold memK memR
  rw [hl]
  simp_rw [hp, hCr]
  exact div_sum_mul _ (fun c => Cr c f) _ hL

/-! ## The reach -/

theorem reachK_eq_reachR (h2 : two = ((2 : ℝ) : EReal)) (hX : ∀ b f, ∃ r : ℝ, X b f = r)
    (hC : ∀ c f, ∃ r : ℝ, C c f = r) (b : Fin 64) :
    reachK two ten X C b = reachR ten X C b := by
  choose Xr hXr using hX
  choose Cr hCr using hC
  subst h2
  unfold reachK reachR
  rw [Finset.comp_inf_eq_inf_comp_of_is_total Ideal.sqrt sqrt_mono Ideal.sqrt_top]
  refine congrArg (fun g => Ideal.div ten (Finset.univ.inf g)) (funext (fun c => ?_))
  simp only [Function.comp]
  unfold dist2K distR
  refine congrArg Ideal.sqrt ?_
  -- in ℝ: ‖x‖² + ‖c‖² − 2 x·c = Σ (x − c)² ≥ 0
  have hid : ((∑ g, Xr b g * Xr b g) + (∑ g, Cr c g * Cr c g)) - 2 * (∑ g, Xr b g * Cr c g)
      = ∑ g, (Xr b g - Cr c g) * (Xr b g - Cr c g) := by
    rw [← Finset.sum_add_distrib, Finset.mul_sum, ← Finset.sum_sub_distrib]
    exact Finset.sum_congr rfl (fun g _ => by ring)
  have hnn : (0 : ℝ) ≤ ∑ g, (Xr b g - Cr c g) * (Xr b g - Cr c g) :=
    Finset.sum_nonneg (fun g _ => mul_self_nonneg _)
  simp_rw [hXr, hCr, ← EReal.coe_sub, ← EReal.coe_mul, ← coe_sum, ← EReal.coe_add, ← EReal.coe_mul,
    ← EReal.coe_sub, hid]
  exact max_eq_left (by exact_mod_cast hnn)

/-! ## The two corollaries -/

theorem infK_eq_infR (hX : ∀ b f, ∃ r : ℝ, X b f = r) (hC : ∀ c f, ∃ r : ℝ, C c f = r)
    (hWH : ∀ c f, ∃ r : ℝ, WH c f = r) (hBH : ∀ c, ∃ r : ℝ, BH c = r) (b : Fin 64) (f : Fin 2048) :
    infK X C WH BH WS BS b f = infR X C WH BH WS BS b f := by
  unfold infK infR
  rw [memK_eq_memR X C WH BH hX hC hWH hBH b f]

theorem logitsK_eq_logitsR (h1 : one = ((1 : ℝ) : EReal)) (h2 : two = ((2 : ℝ) : EReal))
    (hX : ∀ b f, ∃ r : ℝ, X b f = r) (hC : ∀ c f, ∃ r : ℝ, C c f = r)
    (hWH : ∀ c f, ∃ r : ℝ, WH c f = r) (hBH : ∀ c, ∃ r : ℝ, BH c = r) (b : Fin 64) (c : Fin 1000) :
    logitsK one two ten sixteen X C WH BH WS BS W b c = logitsR one ten sixteen X C WH BH WS BS W b c := by
  have hfeat : ∀ f, featK two ten X C WH BH WS BS b f = featR ten X C WH BH WS BS b f := by
    intro f
    unfold featK featR
    rw [reachK_eq_reachR two ten X C h2 hX hC b, infK_eq_infR X C WH BH WS BS hX hC hWH hBH b f]
  have hn : nK two ten X C WH BH WS BS b = nR ten X C WH BH WS BS b := by
    unfold nK nR
    simp_rw [hfeat]
  unfold logitsK logitsR
  refine Finset.sum_congr rfl (fun f _ => ?_)
  have hex : exK one two ten X C WH BH WS BS b f = exR one ten X C WH BH WS BS b f := by
    unfold exK exR
    rw [hfeat f, hn]
    unfold nR
    exact (ex_law one h1 (featR ten X C WH BH WS BS b) f).symm
  rw [hex, mul_assoc, mul_comm sixteen]

end Cert.Spec

end
-- ==== Proof.Finite.lean ====
/-
  Finiteness of the inputs from the certificate's precondition.

  The printed predicate is the conjunction of seven tests "every entry of |a| is below +∞", one per argument
  array; each test is a reduction by "and" of an elementwise comparison against the f32 word 0x7F800000, which
  denotes +∞. When the predicate holds, each conjunct holds, each reduction gives the comparison at every index,
  and an extended real x with max x (−x) < ⊤ is neither ⊤ nor ⊥, that is, a real number.
-/
import proofs.«123336_j4191888081208_2_alg».proof.Pre_finite_inputs
import proofs.«123336_j4191888081208_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The rank-0 shape has one index. -/
instance : Subsingleton S_.Idx := ⟨fun a b => funext fun d => d.elim0⟩

/-- The f32 word 0x7F800000 denotes +∞. -/
theorem inf_word : Ideal.ofBits .f32 0x7F800000#32 = (⊤ : EReal) := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

/-- One test "all of |a| below +∞", read back at every index. -/
theorem all_real {s : Shape} {axes : List (Fin s.rank)}
    (hb : S_.BroadcastsInDim s (![] : Fin 0 → Fin s.rank)) (hr : s.ReducesTo axes S_)
    (hu : 0 < S_.numel) (a : FVec Ideal s .f32)
    (h : Host.reduce IntOp.andi
        (cmpf .olt (Host.absf a) (broadcastInDim s ![] hb (constant S_ .f32 0x7F800000#32)))
        (constantI S_ 1 1#1) hr hu ValueIdx.ix0 = 1#1) (i : s.Idx) :
    ∃ r : ℝ, a i = (r : EReal) := by
  have e := Host.reduce_andi_all _ _ hr hu _ h i
  exact real_of_abs_lt (a i) e

theorem of_pre [hP : Cert.Pre_finite_inputs.Facts] (a0 : FVec Ideal S64x2048 .f32)
    (a1 a2 : FVec Ideal S1000x2048 .f32) (a3 : FVec Ideal S1000 .f32) (a4 : FVec Ideal S2048x2048 .f32)
    (a5 : FVec Ideal S2048 .f32) (a6 : FVec Ideal S1000x2048 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) := by
  have h0 := congrFun h ValueIdx.ix0
  dsimp only [fn, fn_part1] at h0
  simp only [andi, IntOp.andi_eq_one] at h0
  obtain ⟨⟨⟨⟨⟨⟨e0, e1⟩, e2⟩, e3⟩, e4⟩, e5⟩, e6⟩ := h0
  exact ⟨all_real _ _ _ a0 e0, all_real _ _ _ a1 e1, all_real _ _ _ a2 e2, all_real _ _ _ a3 e3,
    all_real _ _ _ a4 e4, all_real _ _ _ a5 e5, all_real _ _ _ a6 e6⟩

end Cert.Finite

end
-- ==== Proof.Consts.lean ====
/-
  The two float literals the joining laws need as numbers: the words of 1.0 and 2.0 denote the reals 1 and 2.
  (The literals 10.0 and 16.0 are never evaluated: the same word stands on both sides.)
-/
import Idealize.ShloMosaic.PureOps.Ideal

noncomputable section

namespace Cert.Consts

open Idealize.ShloMosaic

/-- The word of `1.0` denotes the real 1. -/
theorem ofBits_one : Ideal.ofBits .f32 0x3F800000#32 = ((1 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

end Cert.Consts

end
-- ==== Proof.lean ====
/-
  The meta-embedding classifier: three fused kernels against a plain array program, equal on the extended reals.

  Both programs take a batch of features `x`, class centroids, read-out weights, selector weights and a cosine
  classifier's weights, and return the classifier's logits, the features themselves, and the infused feature.
  * The reachability of a sample is ten over its distance to the nearest centroid. The kernel expands the squared
    distance as ‖x‖² + ‖c‖² − 2 x·c, clamps it at zero and takes the root after the minimum; the array program takes
    the root of the sum of squared differences first. For real entries the expansion is an identity of
    nonnegative numbers, and the root is monotone, so it commutes with the minimum.
  * The memory feature is the softmax of the read-out logits against the centroids. The kernel divides the product
    by the softmax denominator; the array program normalises first. The denominator is a positive real.
  * The infused feature is the selector (a tanh) times the memory feature, and the scaled feature is the
    reachability times the features plus the infused feature: the same operations on both sides.
  * The logits scale the scaled feature's row by n / (1 + n) over its norm n. The kernel writes the row over
    1 + n; the array program writes (n / (1 + n)) times the row over n. These agree for every row of extended
    reals: at n = 0 the row is zero and both sides are 0, at n = ⊤ both sides are 0, and otherwise it is real
    algebra. The factor sixteen moves across the product by commutativity.
  The kernel program's three regions are run from the launch to the return with every buffer's contents named at
  each boundary; the classifier's row blocks reach 24 rows past the array's end, and the logits inside the array
  read only rows inside it. The word-level program's frame is the same run with the logits' buffer left unnamed.
-/
import proofs.«123336_j4191888081208_2_alg».proof.Defs
import proofs.«123336_j4191888081208_2_alg».proof.Proof.Gen.Kernel
import proofs.«123336_j4191888081208_2_alg».proof.Proof.Gen.KernelIdeal
import proofs.«123336_j4191888081208_2_alg».proof.Proof.Gen.ReferenceIdeal
import proofs.«123336_j4191888081208_2_alg».proof.Proof.Gen.Pre_finite_inputs
import proofs.«123336_j4191888081208_2_alg».proof.Proof.KFrame
import proofs.«123336_j4191888081208_2_alg».proof.Proof.KIValue
import proofs.«123336_j4191888081208_2_alg».proof.Proof.RefIsSpec
import proofs.«123336_j4191888081208_2_alg».proof.Proof.SpecLaw
import proofs.«123336_j4191888081208_2_alg».proof.Proof.Finite
import proofs.«123336_j4191888081208_2_alg».proof.Proof.Consts
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

theorem frame_k : Cert.frame_Kernel := fun m ρ _ => Cert.Kernel.Gen.frame m ρ

theorem frame_ki : Cert.frame_KernelIdeal := fun m ρ _ =>
  (θ_run Cert.KernelIdeal.defs _ _).mono (fun _ h c => (h c).2.2) (Cert.KernelIdeal.Out.run_values m ρ)

theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-! ## The two programs' results are equal -/

/-- The logits and the infused feature, stated once as the array program's reading of the kernel's launch arrays:
    the kernel's run ends at its own reading, which the joining laws turn into this one for real entries; the
    array program's run ends at this reading of its own arguments, which agree with the kernel's. -/
theorem algebraic : Cert.algebraic_KernelIdeal_ReferenceIdeal := by
  intro m ρ m' ρ' hpre hagree
  refine ⟨fun c => fun i => Cert.Spec.logitsR Cert.KernelIdeal.Out.one Cert.KernelIdeal.Out.ten Cert.KernelIdeal.Out.sixteen
      (Cert.KernelIdeal.Out.Xm m c) (Cert.KernelIdeal.Out.Cm m c) (Cert.KernelIdeal.Out.WHm m c) (Cert.KernelIdeal.Out.BHm m c) (Cert.KernelIdeal.Out.WSm m c) (Cert.KernelIdeal.Out.BSm m c) (Cert.KernelIdeal.Out.Wm m c) (i 0) (i 1),
    fun c => m ((c.tc : Thread Cert.KernelIdeal.nD Cert.KernelIdeal.τ).loc Cert.KernelIdeal.main_arg0),
    fun c => fun i => Cert.Spec.infR (Cert.KernelIdeal.Out.Xm m c) (Cert.KernelIdeal.Out.Cm m c) (Cert.KernelIdeal.Out.WHm m c) (Cert.KernelIdeal.Out.BHm m c) (Cert.KernelIdeal.Out.WSm m c) (Cert.KernelIdeal.Out.BSm m c) (i 0) (i 1), ?_, ?_⟩
  · -- the kernel's run: its own reading, joined to the array program's by the laws
    refine (θ_run Cert.KernelIdeal.defs _ _).mono (fun _ h c => ?_) (Cert.KernelIdeal.Out.run_values m ρ)
    obtain ⟨hX, hC, hWH, hBH, -, -, -⟩ := Cert.Finite.of_pre _ _ _ _ _ _ _ (hpre c)
    have hX' : ∀ b f, ∃ r : ℝ, Cert.KernelIdeal.Out.Xm m c b f = r := fun b f => hX (ix2 b f)
    have hC' : ∀ k f, ∃ r : ℝ, Cert.KernelIdeal.Out.Cm m c k f = r := fun k f => hC (ix2 k f)
    have hWH' : ∀ k f, ∃ r : ℝ, Cert.KernelIdeal.Out.WHm m c k f = r := fun k f => hWH (ix2 k f)
    have hBH' : ∀ k, ∃ r : ℝ, Cert.KernelIdeal.Out.BHm m c k = r := fun k => hBH (ix1 k)
    refine ⟨(h c).1.trans (funext fun i => ?_), (h c).2.2.1, (h c).2.1.trans (funext fun i => ?_), (h c).2.2⟩
    · exact Cert.Spec.logitsK_eq_logitsR _ _ _ _ _ _ _ _ _ _ _ Cert.Consts.ofBits_one Cert.Consts.ofBits_two hX' hC' hWH' hBH' (i 0) (i 1)
    · exact Cert.Spec.infK_eq_infR _ _ _ _ _ _ hX' hC' hWH' hBH' (i 0) (i 1)
  · -- the array program's run: the same reading of its own arguments, which agree with the kernel's
    refine (θ_run Cert.ReferenceIdeal.defs _ _).mono (fun _ h c => ⟨(h c).1.trans ?_, (h c).2.1.trans (hagree c).1, (h c).2.2.1.trans ?_, (h c).2.2.2⟩)
      (Cert.ReferenceIdeal.Value.run (F := Ideal) m' ρ')
    · rw [Cert.ReferenceIdeal.Read.val_main_v53_eq, Cert.ReferenceIdeal.RefValue.logits_eq,
        (hagree c).1, (hagree c).2.1, (hagree c).2.2.1, (hagree c).2.2.2.1, (hagree c).2.2.2.2.1, (hagree c).2.2.2.2.2.1, (hagree c).2.2.2.2.2.2]
      rfl
    · rw [Cert.ReferenceIdeal.Read.val_main_v35_eq, Cert.ReferenceIdeal.RefValue.infused_eq,
        (hagree c).1, (hagree c).2.1, (hagree c).2.2.1, (hagree c).2.2.2.1, (hagree c).2.2.2.2.1, (hagree c).2.2.2.2.2.1]
      rfl

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
